-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S1x3072 : Shape := ⟨2, ![1, 3072]⟩
abbrev S512x64 : Shape := ⟨2, ![512, 64]⟩
abbrev S1x1x512x64 : Shape := ⟨4, ![1, 1, 512, 64]⟩
abbrev S32x2048x64 : Shape := ⟨3, ![32, 2048, 64]⟩
abbrev S1x2048x64 : Shape := ⟨3, ![1, 2048, 64]⟩
abbrev S1x256x64 : Shape := ⟨3, ![1, 256, 64]⟩
abbrev S256x64 : Shape := ⟨2, ![256, 64]⟩
abbrev S256x1 : Shape := ⟨2, ![256, 1]⟩
abbrev S64x256 : Shape := ⟨2, ![64, 256]⟩
abbrev S256x256 : Shape := ⟨2, ![256, 256]⟩
abbrev S256 : Shape := ⟨1, ![256]⟩
abbrev S2x2048x16x64 : Shape := ⟨4, ![2, 2048, 16, 64]⟩
abbrev S1x1024 : Shape := ⟨2, ![1, 1024]⟩

abbrev nBuf : Space → Nat
  | .hbm => 20
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S3072x1024, .bf16⟩
  | .hbm, ⟨6, _⟩ => ⟨S1024x3072, .bf16⟩
  | .hbm, ⟨7, _⟩ => ⟨S1024x1024, .bf16⟩
  | .hbm, ⟨8, _⟩ => ⟨S1024x1024, .bf16⟩
  | .hbm, ⟨9, _⟩ => ⟨S2x16x2048x64, .bf16⟩
  | .hbm, ⟨10, _⟩ => ⟨S2x16x2048x64, .bf16⟩
  | .hbm, ⟨11, _⟩ => ⟨S2x16x2048x64, .bf16⟩
  | .hbm, ⟨12, _⟩ => ⟨S32x2048x64, .bf16⟩
  | .hbm, ⟨13, _⟩ => ⟨S32x2048x64, .bf16⟩
  | .hbm, ⟨14, _⟩ => ⟨S32x2048x64, .bf16⟩
  | .hbm, ⟨15, _⟩ => ⟨S32x2048x64, .f32⟩
  | .hbm, ⟨16, _⟩ => ⟨S2x16x2048x64, .f32⟩
  | .hbm, ⟨17, _⟩ => ⟨S2x2048x16x64, .f32⟩
  | .hbm, ⟨18, _⟩ => ⟨S2x2048x1024, .f32⟩
  | .hbm, ⟨19, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S3072, .f32⟩
  | .local _ .vmem, ⟨4, _⟩ => ⟨S1x16x512x64, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x2048x64, .bf16⟩
  | .local _ .vmem, ⟨16, _⟩ => ⟨S1x2048x64, .f32⟩
  | .local _ .vmem, ⟨17, _⟩ => ⟨S1x2048x64, .f32⟩
  | .local _ .vmem, ⟨18, _⟩ => ⟨S1x512x1024, .f32⟩
  | .local _ .vmem, ⟨19, _⟩ => ⟨S1x512x1024, .f32⟩
  | .local _ .vmem, ⟨20, _⟩ => ⟨S1024x1024, .bf16⟩
  | .local _ .vmem, ⟨21, _⟩ => ⟨S1024, .f32⟩
  | .local _ .vmem, ⟨22, _⟩ => ⟨S1x512x1024, .f32⟩
  | .local _ .vmem, ⟨23, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  transposes_S3072x1024_S1024x3072_1_0 : S3072x1024.Transposes [1, 0] S1024x3072
  transposes_S1024x1024_S1024x1024_1_0 : S1024x1024.Transposes [1, 0] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  slices_S512x3072_o0_0_S512x64 : S512x3072.Slices ![0, 0] S512x64
  inb_S1x16x512x64_S1x1x512x64_0_0_0_0 : ∀ a, (![0, 0, 0, 0] : Fin 4 → Nat) a + S1x1x512x64.size a ≤ S1x16x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  packedbf16_S1x16x512x64_S1x1x512x64_0_0_0_0 : (Rect.unit (s := S1x16x512x64) ![0, 0, 0, 0] S1x1x512x64.size inb_S1x16x512x64_S1x1x512x64_0_0_0_0).PackedRows (EltTy.packing .bf16)
  slices_S512x3072_o0_64_S512x64 : S512x3072.Slices ![0, 64] S512x64
  slices_S512x3072_o0_128_S512x64 : S512x3072.Slices ![0, 128] S512x64
  slices_S512x3072_o0_192_S512x64 : S512x3072.Slices ![0, 192] S512x64
  inb_S1x16x512x64_S1x1x512x64_0_1_0_0 : ∀ a, (![0, 1, 0, 0] : Fin 4 → Nat) a + S1x1x512x64.size a ≤ S1x16x512x64.size a
  packedbf16_S1x16x512x64_S1x1x512x64_0_1_0_0 : (Rect.unit (s := S1x16x512x64) ![0, 1, 0, 0] S1x1x512x64.size inb_S1x16x512x64_S1x1x512x64_0_1_0_0).PackedRows (EltTy.packing .bf16)
  slices_S512x3072_o0_256_S512x64 : S512x3072.Slices ![0, 256] S512x64
  slices_S512x3072_o0_320_S512x64 : S512x3072.Slices ![0, 320] S512x64
  slices_S512x3072_o0_384_S512x64 : S512x3072.Slices ![0, 384] S512x64
  inb_S1x16x512x64_S1x1x512x64_0_2_0_0 : ∀ a, (![0, 2, 0, 0] : Fin 4 → Nat) a + S1x1x512x64.size a ≤ S1x16x512x64.size a
  packedbf16_S1x16x512x64_S1x1x512x64_0_2_0_0 : (Rect.unit (s := S1x16x512x64) ![0, 2, 0, 0] S1x1x512x64.size inb_S1x16x512x64_S1x1x512x64_0_2_0_0).PackedRows (EltTy.packing .bf16)
  slices_S512x3072_o0_448_S512x64 : S512x3072.Slices ![0, 448] S512x64
  slices_S512x3072_o0_512_S512x64 : S512x3072.Slices ![0, 512] S512x64
  slices_S512x3072_o0_576_S512x64 : S512x3072.Slices ![0, 576] S512x64
  inb_S1x16x512x64_S1x1x512x64_0_3_0_0 : ∀ a, (![0, 3, 0, 0] : Fin 4 → Nat) a + S1x1x512x64.size a ≤ S1x16x512x64.size a
  packedbf16_S1x16x512x64_S1x1x512x64_0_3_0_0 : (Rect.unit (s := S1x16x512x64) ![0, 3, 0, 0] S1x1x512x64.size inb_S1x16x512x64_S1x1x512x64_0_3_0_0).PackedRows (EltTy.packing .bf16)
  slices_S512x3072_o0_640_S512x64 : S512x3072.Slices ![0, 640] S512x64
  slices_S512x3072_o0_704_S512x64 : S512x3072.Slices ![0, 704] S512x64
  slices_S512x3072_o0_768_S512x64 : S512x3072.Slices ![0, 768] S512x64
  inb_S1x16x512x64_S1x1x512x64_0_4_0_0 : ∀ a, (![0, 4, 0, 0] : Fin 4 → Nat) a + S1x1x512x64.size a ≤ S1x16x512x64.size a
  packedbf16_S1x16x512x64_S1x1x512x64_0_4_0_0 : (Rect.unit (s := S1x16x512x64) ![0, 4, 0, 0] S1x1x512x64.size inb_S1x16x512x64_S1x1x512x64_0_4_0_0).PackedRows (EltTy.packing .bf16)
  slices_S512x3072_o0_832_S512x64 : S512x3072.Slices ![0, 832] S512x64
  slices_S512x3072_o0_896_S512x64 : S512x3072.Slices ![0, 896] S512x64
  slices_S512x3072_o0_960_S512x64 : S512x3072.Slices ![0, 960] S512x64
  inb_S1x16x512x64_S1x1x512x64_0_5_0_0 : ∀ a, (![0, 5, 0, 0] : Fin 4 → Nat) a + S1x1x512x64.size a ≤ S1x16x512x64.size a
  packedbf16_S1x16x512x64_S1x1x512x64_0_5_0_0 : (Rect.unit (s := S1x16x512x64) ![0, 5, 0, 0] S1x1x512x64.size inb_S1x16x512x64_S1x1x512x64_0_5_0_0).PackedRows (EltTy.packing .bf16)
  slices_S512x3072_o0_1024_S512x64 : S512x3072.Slices ![0, 1024] S512x64
  slices_S512x3072_o0_1088_S512x64 : S512x3072.Slices ![0, 1088] S512x64
  slices_S512x3072_o0_1152_S512x64 : S512x3072.Slices ![0, 1152] S512x64
  inb_S1x16x512x64_S1x1x512x64_0_6_0_0 : ∀ a, (![0, 6, 0, 0] : Fin 4 → Nat) a + S1x1x512x64.size a ≤ S1x16x512x64.size a
  packedbf16_S1x16x512x64_S1x1x512x64_0_6_0_0 : (Rect.unit (s := S1x16x512x64) ![0, 6, 0, 0] S1x1x512x64.size inb_S1x16x512x64_S1x1x512x64_0_6_0_0).PackedRows (EltTy.packing .bf16)
  slices_S512x3072_o0_1216_S512x64 : S512x3072.Slices ![0, 1216] S512x64
  slices_S512x3072_o0_1280_S512x64 : S512x3072.Slices ![0, 1280] S512x64
  slices_S512x3072_o0_1344_S512x64 : S512x3072.Slices ![0, 1344] S512x64
  inb_S1x16x512x64_S1x1x512x64_0_7_0_0 : ∀ a, (![0, 7, 0, 0] : Fin 4 → Nat) a + S1x1x512x64.size a ≤ S1x16x512x64.size a
  packedbf16_S1x16x512x64_S1x1x512x64_0_7_0_0 : (Rect.unit (s := S1x16x512x64) ![0, 7, 0, 0] S1x1x512x64.size inb_S1x16x512x64_S1x1x512x64_0_7_0_0).PackedRows (EltTy.packing .bf16)
  slices_S512x3072_o0_1408_S512x64 : S512x3072.Slices ![0, 1408] S512x64
  slices_S512x3072_o0_1472_S512x64 : S512x3072.Slices ![0, 1472] S512x64
  slices_S512x3072_o0_1536_S512x64 : S512x3072.Slices ![0, 1536] S512x64
  inb_S1x16x512x64_S1x1x512x64_0_8_0_0 : ∀ a, (![0, 8, 0, 0] : Fin 4 → Nat) a + S1x1x512x64.size a ≤ S1x16x512x64.size a
  packedbf16_S1x16x512x64_S1x1x512x64_0_8_0_0 : (Rect.unit (s := S1x16x512x64) ![0, 8, 0, 0] S1x1x512x64.size inb_S1x16x512x64_S1x1x512x64_0_8_0_0).PackedRows (EltTy.packing .bf16)
  slices_S512x3072_o0_1600_S512x64 : S512x3072.Slices ![0, 1600] S512x64
  slices_S512x3072_o0_1664_S512x64 : S512x3072.Slices ![0, 1664] S512x64
  slices_S512x3072_o0_1728_S512x64 : S512x3072.Slices ![0, 1728] S512x64
  inb_S1x16x512x64_S1x1x512x64_0_9_0_0 : ∀ a, (![0, 9, 0, 0] : Fin 4 → Nat) a + S1x1x512x64.size a ≤ S1x16x512x64.size a
  packedbf16_S1x16x512x64_S1x1x512x64_0_9_0_0 : (Rect.unit (s := S1x16x512x64) ![0, 9, 0, 0] S1x1x512x64.size inb_S1x16x512x64_S1x1x512x64_0_9_0_0).PackedRows (EltTy.packing .bf16)
  slices_S512x3072_o0_1792_S512x64 : S512x3072.Slices ![0, 1792] S512x64
  slices_S512x3072_o0_1856_S512x64 : S512x3072.Slices ![0, 1856] S512x64
  slices_S512x3072_o0_1920_S512x64 : S512x3072.Slices ![0, 1920] S512x64
  inb_S1x16x512x64_S1x1x512x64_0_10_0_0 : ∀ a, (![0, 10, 0, 0] : Fin 4 → Nat) a + S1x1x512x64.size a ≤ S1x16x512x64.size a
  packedbf16_S1x16x512x64_S1x1x512x64_0_10_0_0 : (Rect.unit (s := S1x16x512x64) ![0, 10, 0, 0] S1x1x512x64.size inb_S1x16x512x64_S1x1x512x64_0_10_0_0).PackedRows (EltTy.packing .bf16)
  slices_S512x3072_o0_1984_S512x64 : S512x3072.Slices ![0, 1984] S512x64
  slices_S512x3072_o0_2048_S512x64 : S512x3072.Slices ![0, 2048] S512x64
  slices_S512x3072_o0_2112_S512x64 : S512x3072.Slices ![0, 2112] S512x64
  inb_S1x16x512x64_S1x1x512x64_0_11_0_0 : ∀ a, (![0, 11, 0, 0] : Fin 4 → Nat) a + S1x1x512x64.size a ≤ S1x16x512x64.size a
  packedbf16_S1x16x512x64_S1x1x512x64_0_11_0_0 : (Rect.unit (s := S1x16x512x64) ![0, 11, 0, 0] S1x1x512x64.size inb_S1x16x512x64_S1x1x512x64_0_11_0_0).PackedRows (EltTy.packing .bf16)
  slices_S512x3072_o0_2176_S512x64 : S512x3072.Slices ![0, 2176] S512x64
  slices_S512x3072_o0_2240_S512x64 : S512x3072.Slices ![0, 2240] S512x64
  slices_S512x3072_o0_2304_S512x64 : S512x3072.Slices ![0, 2304] S512x64
  inb_S1x16x512x64_S1x1x512x64_0_12_0_0 : ∀ a, (![0, 12, 0, 0] : Fin 4 → Nat) a + S1x1x512x64.size a ≤ S1x16x512x64.size a
  packedbf16_S1x16x512x64_S1x1x512x64_0_12_0_0 : (Rect.unit (s := S1x16x512x64) ![0, 12, 0, 0] S1x1x512x64.size inb_S1x16x512x64_S1x1x512x64_0_12_0_0).PackedRows (EltTy.packing .bf16)
  slices_S512x3072_o0_2368_S512x64 : S512x3072.Slices ![0, 2368] S512x64
  slices_S512x3072_o0_2432_S512x64 : S512x3072.Slices ![0, 2432] S512x64
  slices_S512x3072_o0_2496_S512x64 : S512x3072.Slices ![0, 2496] S512x64
  inb_S1x16x512x64_S1x1x512x64_0_13_0_0 : ∀ a, (![0, 13, 0, 0] : Fin 4 → Nat) a + S1x1x512x64.size a ≤ S1x16x512x64.size a
  packedbf16_S1x16x512x64_S1x1x512x64_0_13_0_0 : (Rect.unit (s := S1x16x512x64) ![0, 13, 0, 0] S1x1x512x64.size inb_S1x16x512x64_S1x1x512x64_0_13_0_0).PackedRows (EltTy.packing .bf16)
  slices_S512x3072_o0_2560_S512x64 : S512x3072.Slices ![0, 2560] S512x64
  slices_S512x3072_o0_2624_S512x64 : S512x3072.Slices ![0, 2624] S512x64
  slices_S512x3072_o0_2688_S512x64 : S512x3072.Slices ![0, 2688] S512x64
  inb_S1x16x512x64_S1x1x512x64_0_14_0_0 : ∀ a, (![0, 14, 0, 0] : Fin 4 → Nat) a + S1x1x512x64.size a ≤ S1x16x512x64.size a
  packedbf16_S1x16x512x64_S1x1x512x64_0_14_0_0 : (Rect.unit (s := S1x16x512x64) ![0, 14, 0, 0] S1x1x512x64.size inb_S1x16x512x64_S1x1x512x64_0_14_0_0).PackedRows (EltTy.packing .bf16)
  slices_S512x3072_o0_2752_S512x64 : S512x3072.Slices ![0, 2752] S512x64
  slices_S512x3072_o0_2816_S512x64 : S512x3072.Slices ![0, 2816] S512x64
  slices_S512x3072_o0_2880_S512x64 : S512x3072.Slices ![0, 2880] S512x64
  inb_S1x16x512x64_S1x1x512x64_0_15_0_0 : ∀ a, (![0, 15, 0, 0] : Fin 4 → Nat) a + S1x1x512x64.size a ≤ S1x16x512x64.size a
  packedbf16_S1x16x512x64_S1x1x512x64_0_15_0_0 : (Rect.unit (s := S1x16x512x64) ![0, 15, 0, 0] S1x1x512x64.size inb_S1x16x512x64_S1x1x512x64_0_15_0_0).PackedRows (EltTy.packing .bf16)
  slices_S512x3072_o0_2944_S512x64 : S512x3072.Slices ![0, 2944] S512x64
  slices_S512x3072_o0_3008_S512x64 : S512x3072.Slices ![0, 3008] S512x64
  shapeCasts_S2x16x2048x64_S32x2048x64 : S2x16x2048x64.ShapeCasts S32x2048x64
  inb_S1x2048x64_S1x256x64_0_0_0 : ∀ a, (![0, 0, 0] : Fin 3 → Nat) a + S1x256x64.size a ≤ S1x2048x64.size a
  h_S1x256x64 : 0 < S1x256x64.numel
  shapeCasts_S1x256x64_S256x64 : S1x256x64.ShapeCasts S256x64
  transposes_S256x64_p1_0_S64x256 : S256x64.Transposes [1, 0] S64x256
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  broadcasts_S256x1_S256x256 : S256x1.Broadcasts S256x256
  broadcasts_S256x1_S256x64 : S256x1.Broadcasts S256x64
  shapeCasts_S256x64_S1x256x64 : S256x64.ShapeCasts S1x256x64
  inb_S1x2048x64_S1x256x64_0_256_0 : ∀ a, (![0, 256, 0] : Fin 3 → Nat) a + S1x256x64.size a ≤ S1x2048x64.size a
  inb_S1x2048x64_S1x256x64_0_512_0 : ∀ a, (![0, 512, 0] : Fin 3 → Nat) a + S1x256x64.size a ≤ S1x2048x64.size a
  inb_S1x2048x64_S1x256x64_0_768_0 : ∀ a, (![0, 768, 0] : Fin 3 → Nat) a + S1x256x64.size a ≤ S1x2048x64.size a
  inb_S1x2048x64_S1x256x64_0_1024_0 : ∀ a, (![0, 1024, 0] : Fin 3 → Nat) a + S1x256x64.size a ≤ S1x2048x64.size a
  inb_S1x2048x64_S1x256x64_0_1280_0 : ∀ a, (![0, 1280, 0] : Fin 3 → Nat) a + S1x256x64.size a ≤ S1x2048x64.size a
  inb_S1x2048x64_S1x256x64_0_1536_0 : ∀ a, (![0, 1536, 0] : Fin 3 → Nat) a + S1x256x64.size a ≤ S1x2048x64.size a
  inb_S1x2048x64_S1x256x64_0_1792_0 : ∀ a, (![0, 1792, 0] : Fin 3 → Nat) a + S1x256x64.size a ≤ S1x2048x64.size a
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S256x64_S64x256_S256x256_1_0_0_1_n_n_wf : DotDims.WF S256x64 S64x256 S256x256 [1] [0] [0] [1] [] []
  dot_S256x256_S256x64_S256x64_1_0_0_1_n_n_wf : DotDims.WF S256x256 S256x64 S256x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S2x16x2048x64.size a
  hwx0_3 : ∀ i : grid0.Coords, EltTy.bits .bf16 = 32 ∨ (Rect.block (s := S2x16x2048x64) S1x16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S2x16x2048x64.size a
  hwx0_4 : ∀ i : grid0.Coords, EltTy.bits .bf16 = 32 ∨ (Rect.block (s := S2x16x2048x64) S1x16x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S2x16x2048x64.size a
  hwx0_5 : ∀ i : grid0.Coords, EltTy.bits .bf16 = 32 ∨ (Rect.block (s := S2x16x2048x64) S1x16x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S32x2048x64.size a
  hwx1_0 : ∀ i : grid1.Coords, EltTy.bits .bf16 = 32 ∨ (Rect.block (s := S32x2048x64) S1x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x64.size a ≤ S32x2048x64.size a
  hwx1_3 : ∀ i : grid1.Coords, EltTy.bits .f32 = 32 ∨ (Rect.block (s := S32x2048x64) S1x2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S2x2048x1024.size a
  hwx2_0 : ∀ i : grid2.Coords, EltTy.bits .f32 = 32 ∨ (Rect.block (s := S2x2048x1024) S1x512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S2x2048x1024.size a
  hwx2_3 : ∀ i : grid2.Coords, EltTy.bits .f32 = 32 ∨ (Rect.block (s := S2x2048x1024) S1x512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1x16x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .i1⟩
  | .hbm, ⟨19, _⟩ => ⟨S2048x2048, .i1⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S_, .f32⟩
  | .hbm, ⟨30, _⟩ => ⟨S2x16x2048x2048, .i1⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S_, .f32⟩
  | .hbm, ⟨36, _⟩ => ⟨S2x16x2048, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x64, .f32⟩
  | .hbm, ⟨48, _⟩ => ⟨S2x2048x16x64, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v13 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.RunV.lean ====
/-
  The whole program's run with its result named.

  The program is six stretches in a row: host operations, the projection region, reshapes, the attention region,
  a reshape-transpose-reshape, the output projection region. Every weakly fair execution from any memory ends with
  each unscoped buffer at the contents the fold of those stretches leaves; read at the result buffer, that is the
  output projection's array after its last grid point; read at the arguments, the launch contents.
-/
import proofs.«175069_j80315888436070_2_alg».proof.Proof.Gen.KernelIdeal.Frame

set_option maxRecDepth 16384

noncomputable section

namespace Cert.KernelIdeal.RunV

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the five arguments end as launched. -/
theorem run : θ_run defs (onTc (τ := τ) (main (F := F))) ⟨m, fun _ => 0, ρ⟩ (fun r => ∀ c : Dev nD,
      r.2.mem ((c.tc : Thread nD τ).loc main_v12) = W6 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v12 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.RunV

end
-- ==== Proof.LibDotRows.lean ====
/-
  A plain matrix product, read one entry at a time, is a row against the columns.

  For a contraction of an [M, K] operand's second axis with a [K, N] operand's first axis — the dimension numbers of a
  plain matrix product — the sum over the contraction index that a matrix product denotes on the extended reals is
  the sum over k of the left operand's entry (i, k) times the right operand's entry (k, j). The lemma is stated for
  any dimension record whose four coordinate maps are the plain ones (the hypotheses), so that it applies both to a
  kernel's matrix unit over one block and to a host contraction over the whole array; what follows from it is that
  entry (i, j) depends on the left operand through its row i alone.
-/
import Idealize.ShloMosaic.PureOps.Ideal.Laws
import Idealize.ShloMosaic.Lib.ValueIdx

noncomputable section

namespace Cert.LibDotRows

open Idealize.ShloMosaic Idealize.ShloMosaic.ValueIdx

/-- The row `x` against column `q` of `w`: the sum over k of x k · w (k, q), on the extended reals. -/
def rowDot {K N : Nat} (x : Fin K → EReal) (w : (⟨2, ![K, N]⟩ : Shape).Idx → EReal) (q : Fin N) : EReal :=
  ∑ k : Fin K, x k * w (ix2 k q)

/-- The sum over a plain contraction's index is the row sum: the left operand is read along row `i 0`, the right
    operand down column `i 1`. The four hypotheses say that the record's coordinate maps are the plain ones. -/
theorem sum_contr_eq_rowDot {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (i : (⟨2, ![M, N]⟩ : Shape).Idx) :
    ∑ k : D.contr.Idx, l (D.lhsIdx i k) * r (D.rhsIdx i k) = rowDot (fun k => l (ix2 (i 0) k)) r (i 1) := by
  unfold rowDot
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

/-- Two rows that agree entry by entry have the same product with every column. -/
theorem rowDot_congr {K N : Nat} {x y : Fin K → EReal} (h : ∀ k, x k = y k) (w : (⟨2, ![K, N]⟩ : Shape).Idx → EReal) (q : Fin N) :
    rowDot x w q = rowDot y w q := by
  unfold rowDot
  exact Finset.sum_congr rfl fun k _ => by rw [h k]

end Cert.LibDotRows

end
-- ==== Proof.Region0Pay.lean ====
/-
  The fused query–key–value projection on one block, read one entry at a time.

  A grid point holds a 512-row block of x, the whole 1024 × 3072 weight (already input-major) and the whole bias.
  It forms the 512 × 3072 matrix  x·Wt + bias  once, and then stores, for each of the 16 heads, three 64-column
  strips of it: columns h·192 … +63 (query), h·192+64 … +127 (key), h·192+128 … +191 (value), each as the
  1 × 1 × 512 × 64 slab of head h in one of three 1 × 16 × 512 × 64 output blocks.

  Here: entry (r, e) of the fused matrix is the row sum over the 1024 model coordinates plus the bias entry; and a
  stored strip, read at the slab's own index, is the fused matrix read at the column the head, the part and the
  lane name. On the extended reals a change of float format is the identity, so the strips carry the fused
  matrix's entries unchanged.
-/
import proofs.«175069_j80315888436070_2_alg».proof.Proof.Gen.KernelIdeal.Skeleton
import proofs.«175069_j80315888436070_2_alg».proof.Proof.LibDotRows
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Val.Proj
open Cert.KernelIdeal Cert.KernelIdeal.Gen

/-- The contraction record of the block product is the plain one: rows against columns. -/
theorem dotL0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl
theorem dotL1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem dotR0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem dotR1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- The fused projection of one block: entry (r, e) of the 512 × 3072 result is row r of the block of x against
    column e of the weight, plus the bias entry e. The change of format of x is the identity on the extended reals,
    the product starts from the zero accumulator, and the bias row is spread down the 512 rows. -/
theorem fused_apply (x0 : Vec Ideal S1x512x1024 .f32) (x1 : Vec Ideal S1024x3072 .bf16) (x2 : Vec Ideal S3072 .f32)
    (r : Fin 512) (e : Fin 3072) :
    k0_pay3 (F := Ideal) x0 x1 x2 (ix2 r e)
      = (∑ d : Fin 1024, x0 (ix3 (0 : Fin 1) r d) * x1 (ix2 d e)) + x2 (ix1 e) := by
  unfold k0_pay3
  refine (addf_apply _ _ _).trans ?_
  congr 1
  · refine (Ideal.matmul_constant_zero_apply _ none _ _ _).trans ?_
    refine (Cert.LibDotRows.sum_contr_eq_rowDot dot_S512x1024_S1024x3072_S512x3072_1_0_0_1_n_n rfl rfl
      dotL0 dotL1 dotR0 dotR1 _ _ (ix2 r e)).trans ?_
    unfold Cert.LibDotRows.rowDot
    refine Finset.sum_congr rfl fun d _ => ?_
    congr 1
    · show shapeCast S512x1024 x0 shapeCasts_S1x512x1024_S512x1024 (ix2 r d) = x0 (ix3 (0 : Fin 1) r d)
      refine shapeCast_apply x0 _ (ix2 r d) (ix3 (0 : Fin 1) r d) ?_
      rw [Shape.rowMajor_val_three, Shape.rowMajor_val_two]
      show (0 * 512 + r.val) * 1024 + d.val = r.val * 1024 + d.val
      omega
    · exact congrFun (shapeCast_self x1 _) (ix2 d e)
  · refine (broadcastTo_apply _ _ (ix2 r e) (ix2 (0 : Fin 1) e) fun a => ?_).trans ?_
    · match a with
      | ⟨0, _⟩ => rfl
      | ⟨1, _⟩ => rfl
    · refine shapeCast_apply x2 _ (ix2 (0 : Fin 1) e) (ix1 e) ?_
      rw [Shape.rowMajor_val_one, Shape.rowMajor_val_two]
      show e.val = 0 * 3072 + e.val
      omega

/-- Part `sel` (0 query, 1 key, 2 value) of every head, as one function of the 1 × 16 × 512 × 64 block's index:
    at (·, h, r, j) it is entry (r, h·192 + sel·64 + j) of the 512 × 3072 matrix `v`. -/
def slab (sel : Fin 3) (v : S512x3072.Idx → EReal) : S1x16x512x64.Idx → EReal := fun y =>
  v (ix2 (⟨(y 2).val, (y 2).isLt⟩ : Fin 512)
    (⟨(y 1).val * 192 + sel.val * 64 + (y 3).val, by
      have h1 : (y 1).val < 16 := (y 1).isLt
      have h3 : (y 3).val < 64 := (y 3).isLt
      have hs : sel.val < 3 := sel.isLt
      omega⟩ : Fin 3072))

/-- One head's store: the 64 columns from `o = hh·192 + sel·64` of `v`, its format changed (the identity on the
    extended reals) and reshaped to a 1 × 1 × 512 × 64 slab, is `slab sel v` read through the rectangle of head
    `hh` of the block. -/
theorem piece_apply (sel : Fin 3) (hh o : Nat) (ho : o = hh * 192 + sel.val * 64)
    (v : FVec Ideal S512x3072 .f32) (hs : S512x3072.Slices ![0, o] S512x64)
    (inb : ∀ a, (![0, hh, 0, 0] : Fin 4 → Nat) a + S1x1x512x64.size a ≤ S1x16x512x64.size a)
    (x : S1x1x512x64.Idx) :
    (shapeCast S1x1x512x64 (truncf .bf16 (extractStridedSlice S512x64 ![0, o] v hs) bitsLt_bf16_f32)
        shapeCasts_S512x64_S1x1x512x64 : FVec Ideal S1x1x512x64 .bf16) x
      = slab sel v ((Rect.unit (s := S1x16x512x64) ![0, hh, 0, 0] S1x1x512x64.size inb).emb x) := by
  have h0 : (x 0).val = 0 := by have : (x 0).val < 1 := (x 0).isLt; omega
  have h1 : (x 1).val = 0 := by have : (x 1).val < 1 := (x 1).isLt; omega
  have h2 : (x 2).val < 512 := (x 2).isLt
  have h3 : (x 3).val < 64 := (x 3).isLt
  refine (shapeCast_apply _ _ x (ix2 (⟨(x 2).val, h2⟩ : Fin 512) (⟨(x 3).val, h3⟩ : Fin 64)) ?_).trans ?_
  · rw [Shape.rowMajor_val_two, Shape.rowMajor_val_four]
    show (x 2).val * 64 + (x 3).val = (((x 0).val * 1 + (x 1).val) * 512 + (x 2).val) * 64 + (x 3).val
    rw [h0, h1]; omega
  · show extractStridedSlice S512x64 ![0, o] v hs (ix2 (⟨(x 2).val, h2⟩ : Fin 512) (⟨(x 3).val, h3⟩ : Fin 64)) = _
    unfold slab
    refine extractStridedSlice_apply _ v hs _ _ fun a => ?_
    match a with
    | ⟨0, _⟩ => show 0 + 1 * (x 2).val = 0 + (x 2).val; omega
    | ⟨1, _⟩ =>
      show (hh + 1 * (x 1).val) * 192 + sel.val * 64 + (0 + 1 * (x 3).val) = o + (x 3).val
      rw [h1, ho]; omega

end Cert.KernelIdeal.Val.Proj
end
-- ==== Proof.Region0Out.lean ====
/-
  What one grid point of the fused projection leaves in each of its three output blocks.

  Each 1 × 16 × 512 × 64 output block is written by sixteen stores, one per head; the store of head h writes the
  1 × 1 × 512 × 64 slab at (0, h, 0, 0) with a 64-column strip of the 512 × 3072 fused matrix. The slabs tile the
  block, and each strip is the part (query, key or value) of its head, so the block read at (·, h, r, j) is the
  fused matrix at row r, column h·192 + part·64 + j — one function of the block's index for all sixteen stores.
-/
import proofs.«175069_j80315888436070_2_alg».proof.Proof.Gen.KernelIdeal.Frame
import proofs.«175069_j80315888436070_2_alg».proof.Proof.Region0Pay
import Idealize.ShloMosaic.Lib.Pipeline.Value
import Idealize.ShloMosaic.Lib.ValueIdx

noncomputable section

open Idealize.ShloMosaic Idealize.ShloMosaic.ValueIdx

namespace Cert.KernelIdeal.Val.Proj
open Cert.KernelIdeal Cert.KernelIdeal.Gen

/-- The zero offsets, in the two spellings the block loads use. -/
theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The query block a grid point leaves: the sixteen head slabs tile the 1 × 16 × 512 × 64 block, and the slab of
    head h holds columns h·192 + 0 … + 63 of the fused matrix, so the whole block is part 0 of every head.
    The stores are listed last first: head 15 down to head 0. -/
theorem out3_apply (x0 : Vec Ideal S1x512x1024 .f32) (x1 : Vec Ideal S1024x3072 .bf16) (x2 : Vec Ideal S3072 .f32)
    (y : S1x16x512x64.Idx) : out0_3 (F := Ideal) x0 x1 x2 y = slab 0 (k0_pay3 x0 x1 x2) y := by
  unfold out0_3
  simp only [View.ld_unit_zero (S := S1x512x1024) zeros3, View.ld_unit_zero (S := S1024x3072) zeros2,
    View.ld_unit_zero (S := S3072) zeros1]
  refine View.canon_apply_of_pieces (Val := Elt Ideal) (S := S1x16x512x64) (e := .bf16) (slab 0 (k0_pay3 x0 x1 x2)) _ ?_ y
    (cover0_3 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact piece_apply 0 15 2880 rfl (k0_pay3 x0 x1 x2) Facts₀.slices_S512x3072_o0_2880_S512x64 Facts₀.inb_S1x16x512x64_S1x1x512x64_0_15_0_0 x
  · exact piece_apply 0 14 2688 rfl (k0_pay3 x0 x1 x2) Facts₀.slices_S512x3072_o0_2688_S512x64 Facts₀.inb_S1x16x512x64_S1x1x512x64_0_14_0_0 x
  · exact piece_apply 0 13 2496 rfl (k0_pay3 x0 x1 x2) Facts₀.slices_S512x3072_o0_2496_S512x64 Facts₀.inb_S1x16x512x64_S1x1x512x64_0_13_0_0 x
  · exact piece_apply 0 12 2304 rfl (k0_pay3 x0 x1 x2) Facts₀.slices_S512x3072_o0_2304_S512x64 Facts₀.inb_S1x16x512x64_S1x1x512x64_0_12_0_0 x
  · exact piece_apply 0 11 2112 rfl (k0_pay3 x0 x1 x2) Facts₀.slices_S512x3072_o0_2112_S512x64 Facts₀.inb_S1x16x512x64_S1x1x512x64_0_11_0_0 x
  · exact piece_apply 0 10 1920 rfl (k0_pay3 x0 x1 x2) Facts₀.slices_S512x3072_o0_1920_S512x64 Facts₀.inb_S1x16x512x64_S1x1x512x64_0_10_0_0 x
  · exact piece_apply 0 9 1728 rfl (k0_pay3 x0 x1 x2) Facts₀.slices_S512x3072_o0_1728_S512x64 Facts₀.inb_S1x16x512x64_S1x1x512x64_0_9_0_0 x
  · exact piece_apply 0 8 1536 rfl (k0_pay3 x0 x1 x2) Facts₀.slices_S512x3072_o0_1536_S512x64 Facts₀.inb_S1x16x512x64_S1x1x512x64_0_8_0_0 x
  · exact piece_apply 0 7 1344 rfl (k0_pay3 x0 x1 x2) Facts₀.slices_S512x3072_o0_1344_S512x64 Facts₀.inb_S1x16x512x64_S1x1x512x64_0_7_0_0 x
  · exact piece_apply 0 6 1152 rfl (k0_pay3 x0 x1 x2) Facts₀.slices_S512x3072_o0_1152_S512x64 Facts₀.inb_S1x16x512x64_S1x1x512x64_0_6_0_0 x
  · exact piece_apply 0 5 960 rfl (k0_pay3 x0 x1 x2) Facts₀.slices_S512x3072_o0_960_S512x64 Facts₀.inb_S1x16x512x64_S1x1x512x64_0_5_0_0 x
  · exact piece_apply 0 4 768 rfl (k0_pay3 x0 x1 x2) Facts₀.slices_S512x3072_o0_768_S512x64 Facts₀.inb_S1x16x512x64_S1x1x512x64_0_4_0_0 x
  · exact piece_apply 0 3 576 rfl (k0_pay3 x0 x1 x2) Facts₀.slices_S512x3072_o0_576_S512x64 Facts₀.inb_S1x16x512x64_S1x1x512x64_0_3_0_0 x
  · exact piece_apply 0 2 384 rfl (k0_pay3 x0 x1 x2) Facts₀.slices_S512x3072_o0_384_S512x64 Facts₀.inb_S1x16x512x64_S1x1x512x64_0_2_0_0 x
  · exact piece_apply 0 1 192 rfl (k0_pay3 x0 x1 x2) Facts₀.slices_S512x3072_o0_192_S512x64 Facts₀.inb_S1x16x512x64_S1x1x512x64_0_1_0_0 x
  · exact piece_apply 0 0 0 rfl (k0_pay3 x0 x1 x2) Facts₀.slices_S512x3072_o0_0_S512x64 Facts₀.inb_S1x16x512x64_S1x1x512x64_0_0_0_0 x

/-- The key block a grid point leaves: the sixteen head slabs tile the 1 × 16 × 512 × 64 block, and the slab of
    head h holds columns h·192 + 64 … + 63 of the fused matrix, so the whole block is part 1 of every head.
    The stores are listed last first: head 15 down to head 0. -/
theorem out4_apply (x0 : Vec Ideal S1x512x1024 .f32) (x1 : Vec Ideal S1024x3072 .bf16) (x2 : Vec Ideal S3072 .f32)
    (y : S1x16x512x64.Idx) : out0_4 (F := Ideal) x0 x1 x2 y = slab 1 (k0_pay3 x0 x1 x2) y := by
  unfold out0_4
  simp only [View.ld_unit_zero (S := S1x512x1024) zeros3, View.ld_unit_zero (S := S1024x3072) zeros2,
    View.ld_unit_zero (S := S3072) zeros1]
  refine View.canon_apply_of_pieces (Val := Elt Ideal) (S := S1x16x512x64) (e := .bf16) (slab 1 (k0_pay3 x0 x1 x2)) _ ?_ y
    (cover0_4 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact piece_apply 1 15 2944 rfl (k0_pay3 x0 x1 x2) Facts₀.slices_S512x3072_o0_2944_S512x64 Facts₀.inb_S1x16x512x64_S1x1x512x64_0_15_0_0 x
  · exact piece_apply 1 14 2752 rfl (k0_pay3 x0 x1 x2) Facts₀.slices_S512x3072_o0_2752_S512x64 Facts₀.inb_S1x16x512x64_S1x1x512x64_0_14_0_0 x
  · exact piece_apply 1 13 2560 rfl (k0_pay3 x0 x1 x2) Facts₀.slices_S512x3072_o0_2560_S512x64 Facts₀.inb_S1x16x512x64_S1x1x512x64_0_13_0_0 x
  · exact piece_apply 1 12 2368 rfl (k0_pay3 x0 x1 x2) Facts₀.slices_S512x3072_o0_2368_S512x64 Facts₀.inb_S1x16x512x64_S1x1x512x64_0_12_0_0 x
  · exact piece_apply 1 11 2176 rfl (k0_pay3 x0 x1 x2) Facts₀.slices_S512x3072_o0_2176_S512x64 Facts₀.inb_S1x16x512x64_S1x1x512x64_0_11_0_0 x
  · exact piece_apply 1 10 1984 rfl (k0_pay3 x0 x1 x2) Facts₀.slices_S512x3072_o0_1984_S512x64 Facts₀.inb_S1x16x512x64_S1x1x512x64_0_10_0_0 x
  · exact piece_apply 1 9 1792 rfl (k0_pay3 x0 x1 x2) Facts₀.slices_S512x3072_o0_1792_S512x64 Facts₀.inb_S1x16x512x64_S1x1x512x64_0_9_0_0 x
  · exact piece_apply 1 8 1600 rfl (k0_pay3 x0 x1 x2) Facts₀.slices_S512x3072_o0_1600_S512x64 Facts₀.inb_S1x16x512x64_S1x1x512x64_0_8_0_0 x
  · exact piece_apply 1 7 1408 rfl (k0_pay3 x0 x1 x2) Facts₀.slices_S512x3072_o0_1408_S512x64 Facts₀.inb_S1x16x512x64_S1x1x512x64_0_7_0_0 x
  · exact piece_apply 1 6 1216 rfl (k0_pay3 x0 x1 x2) Facts₀.slices_S512x3072_o0_1216_S512x64 Facts₀.inb_S1x16x512x64_S1x1x512x64_0_6_0_0 x
  · exact piece_apply 1 5 1024 rfl (k0_pay3 x0 x1 x2) Facts₀.slices_S512x3072_o0_1024_S512x64 Facts₀.inb_S1x16x512x64_S1x1x512x64_0_5_0_0 x
  · exact piece_apply 1 4 832 rfl (k0_pay3 x0 x1 x2) Facts₀.slices_S512x3072_o0_832_S512x64 Facts₀.inb_S1x16x512x64_S1x1x512x64_0_4_0_0 x
  · exact piece_apply 1 3 640 rfl (k0_pay3 x0 x1 x2) Facts₀.slices_S512x3072_o0_640_S512x64 Facts₀.inb_S1x16x512x64_S1x1x512x64_0_3_0_0 x
  · exact piece_apply 1 2 448 rfl (k0_pay3 x0 x1 x2) Facts₀.slices_S512x3072_o0_448_S512x64 Facts₀.inb_S1x16x512x64_S1x1x512x64_0_2_0_0 x
  · exact piece_apply 1 1 256 rfl (k0_pay3 x0 x1 x2) Facts₀.slices_S512x3072_o0_256_S512x64 Facts₀.inb_S1x16x512x64_S1x1x512x64_0_1_0_0 x
  · exact piece_apply 1 0 64 rfl (k0_pay3 x0 x1 x2) Facts₀.slices_S512x3072_o0_64_S512x64 Facts₀.inb_S1x16x512x64_S1x1x512x64_0_0_0_0 x

/-- The value block a grid point leaves: the sixteen head slabs tile the 1 × 16 × 512 × 64 block, and the slab of
    head h holds columns h·192 + 128 … + 63 of the fused matrix, so the whole block is part 2 of every head.
    The stores are listed last first: head 15 down to head 0. -/
theorem out5_apply (x0 : Vec Ideal S1x512x1024 .f32) (x1 : Vec Ideal S1024x3072 .bf16) (x2 : Vec Ideal S3072 .f32)
    (y : S1x16x512x64.Idx) : out0_5 (F := Ideal) x0 x1 x2 y = slab 2 (k0_pay3 x0 x1 x2) y := by
  unfold out0_5
  simp only [View.ld_unit_zero (S := S1x512x1024) zeros3, View.ld_unit_zero (S := S1024x3072) zeros2,
    View.ld_unit_zero (S := S3072) zeros1]
  refine View.canon_apply_of_pieces (Val := Elt Ideal) (S := S1x16x512x64) (e := .bf16) (slab 2 (k0_pay3 x0 x1 x2)) _ ?_ y
    (cover0_5 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact piece_apply 2 15 3008 rfl (k0_pay3 x0 x1 x2) Facts₀.slices_S512x3072_o0_3008_S512x64 Facts₀.inb_S1x16x512x64_S1x1x512x64_0_15_0_0 x
  · exact piece_apply 2 14 2816 rfl (k0_pay3 x0 x1 x2) Facts₀.slices_S512x3072_o0_2816_S512x64 Facts₀.inb_S1x16x512x64_S1x1x512x64_0_14_0_0 x
  · exact piece_apply 2 13 2624 rfl (k0_pay3 x0 x1 x2) Facts₀.slices_S512x3072_o0_2624_S512x64 Facts₀.inb_S1x16x512x64_S1x1x512x64_0_13_0_0 x
  · exact piece_apply 2 12 2432 rfl (k0_pay3 x0 x1 x2) Facts₀.slices_S512x3072_o0_2432_S512x64 Facts₀.inb_S1x16x512x64_S1x1x512x64_0_12_0_0 x
  · exact piece_apply 2 11 2240 rfl (k0_pay3 x0 x1 x2) Facts₀.slices_S512x3072_o0_2240_S512x64 Facts₀.inb_S1x16x512x64_S1x1x512x64_0_11_0_0 x
  · exact piece_apply 2 10 2048 rfl (k0_pay3 x0 x1 x2) Facts₀.slices_S512x3072_o0_2048_S512x64 Facts₀.inb_S1x16x512x64_S1x1x512x64_0_10_0_0 x
  · exact piece_apply 2 9 1856 rfl (k0_pay3 x0 x1 x2) Facts₀.slices_S512x3072_o0_1856_S512x64 Facts₀.inb_S1x16x512x64_S1x1x512x64_0_9_0_0 x
  · exact piece_apply 2 8 1664 rfl (k0_pay3 x0 x1 x2) Facts₀.slices_S512x3072_o0_1664_S512x64 Facts₀.inb_S1x16x512x64_S1x1x512x64_0_8_0_0 x
  · exact piece_apply 2 7 1472 rfl (k0_pay3 x0 x1 x2) Facts₀.slices_S512x3072_o0_1472_S512x64 Facts₀.inb_S1x16x512x64_S1x1x512x64_0_7_0_0 x
  · exact piece_apply 2 6 1280 rfl (k0_pay3 x0 x1 x2) Facts₀.slices_S512x3072_o0_1280_S512x64 Facts₀.inb_S1x16x512x64_S1x1x512x64_0_6_0_0 x
  · exact piece_apply 2 5 1088 rfl (k0_pay3 x0 x1 x2) Facts₀.slices_S512x3072_o0_1088_S512x64 Facts₀.inb_S1x16x512x64_S1x1x512x64_0_5_0_0 x
  · exact piece_apply 2 4 896 rfl (k0_pay3 x0 x1 x2) Facts₀.slices_S512x3072_o0_896_S512x64 Facts₀.inb_S1x16x512x64_S1x1x512x64_0_4_0_0 x
  · exact piece_apply 2 3 704 rfl (k0_pay3 x0 x1 x2) Facts₀.slices_S512x3072_o0_704_S512x64 Facts₀.inb_S1x16x512x64_S1x1x512x64_0_3_0_0 x
  · exact piece_apply 2 2 512 rfl (k0_pay3 x0 x1 x2) Facts₀.slices_S512x3072_o0_512_S512x64 Facts₀.inb_S1x16x512x64_S1x1x512x64_0_2_0_0 x
  · exact piece_apply 2 1 320 rfl (k0_pay3 x0 x1 x2) Facts₀.slices_S512x3072_o0_320_S512x64 Facts₀.inb_S1x16x512x64_S1x1x512x64_0_1_0_0 x
  · exact piece_apply 2 0 128 rfl (k0_pay3 x0 x1 x2) Facts₀.slices_S512x3072_o0_128_S512x64 Facts₀.inb_S1x16x512x64_S1x1x512x64_0_0_0_0 x

end Cert.KernelIdeal.Val.Proj
end
-- ==== Proof.Spec.lean ====
/-
  Causal multi-head attention, as functions of the five argument arrays.

  The fused projection: entry (b, t, e) of x · Wᵀ + bias. Its 3072 features are laid out head by head, 192 per
  head: 64 query lanes, then 64 key lanes, then 64 value lanes. A score is the query row against a key row times
  the scale; position s is visible from position t when s ≤ t; the attention output at (t, lane j) is the
  weighted mean of the visible value rows with weights exp(score). The result is the output projection of the
  heads laid side by side. Two spellings are kept: over the extended reals, with the invisible scores at -∞ and
  the softmax written with its row maximum; and over the reals, shift-free.
-/
import Idealize.ShloMosaic.PureOps.Ideal
import Idealize.ShloMosaic.Lib.ValueIdx
import Mathlib.Analysis.SpecialFunctions.Exp

noncomputable section

namespace Cert.Spec

open Idealize.ShloMosaic Idealize.ShloMosaic.ValueIdx

/-- Feature `h·192 + sel·64 + j` of the fused projection: head `h`, part `sel` (0 query, 1 key, 2 value), lane `j`. -/
def feat (h : Fin 16) (sel : Fin 3) (j : Fin 64) : Fin 3072 := ⟨h.val * 192 + sel.val * 64 + j.val, by omega⟩

/-- The head a model coordinate belongs to, and its lane in that head: `d = head·64 + lane`. -/
def headOf (d : Fin 1024) : Fin 16 := ⟨d.val / 64, by omega⟩
def laneOf (d : Fin 1024) : Fin 64 := ⟨d.val % 64, by omega⟩

/-- Batch and head of a flattened batch·head index: `bh = b·16 + h`. -/
def batchOf (bh : Fin 32) : Fin 2 := ⟨bh.val / 16, by omega⟩
def hOf (bh : Fin 32) : Fin 16 := ⟨bh.val % 16, by omega⟩
def bhOf (b : Fin 2) (h : Fin 16) : Fin 32 := ⟨b.val * 16 + h.val, by omega⟩

/-! ## Over the extended reals -/

/-- The scale of the scores, one eighth, as the float word both programs carry. -/
def scaleE : EReal := Ideal.ofBits .f32 0x3E000000#32

/-- Entry (b, t, e) of a dense layer with the weight stored output-major: the sum over d of x (b,t,d) · W (e,d), plus the bias. -/
def linE (x : (⟨3, ![2, 2048, 1024]⟩ : Shape).Idx → EReal) {E : Nat} (W : (⟨2, ![E, 1024]⟩ : Shape).Idx → EReal)
    (bias : (⟨1, ![E]⟩ : Shape).Idx → EReal) (b : Fin 2) (t : Fin 2048) (e : Fin E) : EReal :=
  (∑ d : Fin 1024, x (ix3 b t d) * W (ix2 e d)) + bias (ix1 e)

/-- The same with the weight stored input-major (already transposed): the sum over d of x (b,t,d) · Wt (d,e), plus the bias. -/
def linTE (x : (⟨3, ![2, 2048, 1024]⟩ : Shape).Idx → EReal) {E : Nat} (Wt : (⟨2, ![1024, E]⟩ : Shape).Idx → EReal)
    (bias : (⟨1, ![E]⟩ : Shape).Idx → EReal) (b : Fin 2) (t : Fin 2048) (e : Fin E) : EReal :=
  (∑ d : Fin 1024, x (ix3 b t d) * Wt (ix2 d e)) + bias (ix1 e)

/-- A row of scores with the positions after `t` at -∞. -/
def maskedE (sc : Fin 2048 → EReal) (t : Fin 2048) : Fin 2048 → EReal := fun s => if t.val < s.val then ⊥ else sc s

/-- The row maximum as the reference takes it: the maximum of -∞ and the fold of max from -∞ over the row. -/
def rowMaxE (z : Fin 2048 → EReal) : EReal := max ⊥ ((Finset.univ : Finset (Fin 2048)).fold max ⊥ z)

/-- The softmax-weighted mean of `vv` along a row `z` of scores, as the reference spells it: each weight is
    exp (z s - max) over (0 + the sum of the exponentials), and the weights multiply the values. -/
def attnRowE (z vv : Fin 2048 → EReal) : EReal :=
  ∑ s : Fin 2048, Ideal.div (Ideal.exp (z s - rowMaxE z)) (0 + ∑ s' : Fin 2048, Ideal.exp (z s' - rowMaxE z)) * vv s

/-- Query, key or value (sel = 0, 1, 2) of batch b, head h, position t, lane j. -/
def qkvE (x : (⟨3, ![2, 2048, 1024]⟩ : Shape).Idx → EReal) (W : (⟨2, ![3072, 1024]⟩ : Shape).Idx → EReal)
    (bias : (⟨1, ![3072]⟩ : Shape).Idx → EReal) (sel : Fin 3) (b : Fin 2) (h : Fin 16) (t : Fin 2048) (j : Fin 64) : EReal :=
  linE x W bias b t (feat h sel j)

/-- The score of query position t against key position s. -/
def scoreE (x : (⟨3, ![2, 2048, 1024]⟩ : Shape).Idx → EReal) (W : (⟨2, ![3072, 1024]⟩ : Shape).Idx → EReal)
    (bias : (⟨1, ![3072]⟩ : Shape).Idx → EReal) (b : Fin 2) (h : Fin 16) (t s : Fin 2048) : EReal :=
  (∑ j : Fin 64, qkvE x W bias 0 b h t j * qkvE x W bias 1 b h s j) * scaleE

/-- The attention output at batch b, head h, position t, lane j. -/
def attnE (x : (⟨3, ![2, 2048, 1024]⟩ : Shape).Idx → EReal) (W : (⟨2, ![3072, 1024]⟩ : Shape).Idx → EReal)
    (bias : (⟨1, ![3072]⟩ : Shape).Idx → EReal) (b : Fin 2) (h : Fin 16) (t : Fin 2048) (j : Fin 64) : EReal :=
  attnRowE (maskedE (fun s => scoreE x W bias b h t s) t) (fun s => qkvE x W bias 2 b h s j)

/-- The layer's result at (b, t, e): the heads side by side, projected. -/
def outE (x : (⟨3, ![2, 2048, 1024]⟩ : Shape).Idx → EReal) (W : (⟨2, ![3072, 1024]⟩ : Shape).Idx → EReal)
    (bias : (⟨1, ![3072]⟩ : Shape).Idx → EReal) (Wo : (⟨2, ![1024, 1024]⟩ : Shape).Idx → EReal)
    (bo : (⟨1, ![1024]⟩ : Shape).Idx → EReal) (b : Fin 2) (t : Fin 2048) (e : Fin 1024) : EReal :=
  (∑ d : Fin 1024, attnE x W bias b (headOf d) t (laneOf d) * Wo (ix2 e d)) + bo (ix1 e)

/-! ## Over the reals -/

/-- The positions visible from `t`. -/
def causal (t : Fin 2048) : Finset (Fin 2048) := Finset.univ.filter fun s => s.val ≤ t.val

/-- The exp-weighted mean of `v` over the positions `L`, for scores `a`. -/
def attnReal (a : Fin 2048 → ℝ) (L : Finset (Fin 2048)) (v : Fin 2048 → ℝ) : ℝ :=
  (∑ s ∈ L, Real.exp (a s) * v s) / ∑ s ∈ L, Real.exp (a s)

/-- A real score: query row t against key row s of the flattened batch·head `bh`, times the scale `σ`. -/
def scoreR (qr kr : (⟨3, ![32, 2048, 64]⟩ : Shape).Idx → ℝ) (σ : ℝ) (bh : Fin 32) (t s : Fin 2048) : ℝ :=
  (∑ j : Fin 64, qr (ix3 bh t j) * kr (ix3 bh s j)) * σ

/-- What one batch·head's attention leaves at position t, lane j, from real query, key and value arrays. -/
def flashR (qr kr vr : (⟨3, ![32, 2048, 64]⟩ : Shape).Idx → ℝ) (σ : ℝ) (bh : Fin 32) (t : Fin 2048) (j : Fin 64) : ℝ :=
  attnReal (fun s => scoreR qr kr σ bh t s) (causal t) (fun s => vr (ix3 bh s j))

end Cert.Spec

end
-- ==== Proof.Region0Arr.lean ====
/-
  From the blocks to the arrays: the three outputs of the fused projection after all eight grid points.

  The grid is 2 batches × 4 row tiles. At point (b, tt) the block of x is rows tt·512 … +511 of batch b, the weight
  and the bias are whole, and each output block is (b, all 16 heads, rows tt·512 … +511, all 64 lanes) of its
  2 × 16 × 2048 × 64 array. A block's coordinate in the array is the block index times the block size plus the
  coordinate inside the block, so what a point writes back is its block of ONE function of the array's index —
  entry (b, h, t, j) is the dense layer's entry (b, t, h·192 + part·64 + j) — and the eight blocks cover the array.
-/
import proofs.«175069_j80315888436070_2_alg».proof.Proof.Gen.KernelIdeal.Frame
import proofs.«175069_j80315888436070_2_alg».proof.Proof.Region0Out
import proofs.«175069_j80315888436070_2_alg».proof.Proof.Spec
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Val.Proj
open Cert.KernelIdeal Cert.KernelIdeal.Gen

/-- Part `sel` of the projection as one function of the whole 2 × 16 × 2048 × 64 array's index (b, h, t, j):
    the dense layer's entry (b, t, h·192 + sel·64 + j). -/
def projArr (sel : Fin 3) (x : S2x2048x1024.Idx → EReal) (Wt : S1024x3072.Idx → EReal) (bias : S3072.Idx → EReal) :
    S2x16x2048x64.Idx → EReal := fun i =>
  Spec.linTE x Wt bias (⟨(i 0).val, (i 0).isLt⟩ : Fin 2) (⟨(i 2).val, (i 2).isLt⟩ : Fin 2048)
    (Spec.feat (⟨(i 1).val, (i 1).isLt⟩ : Fin 16) sel (⟨(i 3).val, (i 3).isLt⟩ : Fin 64))

/-- A block computed from rows it·512 … +511 of batch ib of x, the whole weight and the whole bias is the block
    (ib, ·, it, ·) of the projection: the block's entry (·, h, r, j) is the array's entry (ib, h, it·512 + r, j). -/
theorem slab_block (sel : Fin 3) (X0 : Vec Ideal S1x512x1024 .f32) (X1 : Vec Ideal S1024x3072 .bf16) (X2 : Vec Ideal S3072 .f32)
    (x : S2x2048x1024.Idx → EReal) (Wt : S1024x3072.Idx → EReal) (bias : S3072.Idx → EReal)
    (ib it : Nat) (hib : ib < 2) (hit : it < 4)
    (h0 : ∀ (r : Fin 512) (d : Fin 1024),
      X0 (ix3 (0 : Fin 1) r d) = x (ix3 (⟨ib, hib⟩ : Fin 2) (⟨it * 512 + r.val, by omega⟩ : Fin 2048) d))
    (h1 : ∀ (d : Fin 1024) (e : Fin 3072), X1 (ix2 d e) = Wt (ix2 d e))
    (h2 : ∀ e : Fin 3072, X2 (ix1 e) = bias (ix1 e))
    (y : S1x16x512x64.Idx) (i : S2x16x2048x64.Idx)
    (e0 : (i 0).val = ib) (e1 : (i 1).val = (y 1).val) (e2 : (i 2).val = it * 512 + (y 2).val) (e3 : (i 3).val = (y 3).val) :
    slab sel (k0_pay3 X0 X1 X2) y = projArr sel x Wt bias i := by
  unfold slab projArr Spec.linTE
  refine (fused_apply X0 X1 X2 _ _).trans ?_
  have hb : (⟨ib, hib⟩ : Fin 2) = ⟨(i 0).val, (i 0).isLt⟩ := Fin.ext e0.symm
  have hr : (⟨it * 512 + (y 2).val, by have := (y 2).isLt; have : (y 2).val < 512 := this; omega⟩ : Fin 2048)
      = ⟨(i 2).val, (i 2).isLt⟩ := Fin.ext e2.symm
  have hf : (⟨(y 1).val * 192 + sel.val * 64 + (y 3).val, by
        have h1 : (y 1).val < 16 := (y 1).isLt
        have h3 : (y 3).val < 64 := (y 3).isLt
        have hs : sel.val < 3 := sel.isLt
        omega⟩ : Fin 3072)
      = Spec.feat (⟨(i 1).val, (i 1).isLt⟩ : Fin 16) sel (⟨(i 3).val, (i 3).isLt⟩ : Fin 64) :=
    Fin.ext (by show _ = (i 1).val * 192 + sel.val * 64 + (i 3).val; rw [e1, e3])
  rw [hf, h2]
  congr 1
  refine Finset.sum_congr rfl fun d _ => ?_
  rw [h0, h1, hb, hr]

variable (V : (c : Dev nD) → (b : Ref sig .tc) → Buf (Elt Ideal) ((c : Thread nD τ).loc b)) (c : Dev nD)

/-- The printed index maps, decided over the eight grid points: the query window's block index at a point is
    (batch, 0, row tile, 0), the block of x there is (batch, row tile, 0), and the weight and bias blocks are whole. -/
theorem idx_facts3 : ∀ t : Fin cfg0.N,
    win0_0.index t (0 : Fin 3) = win0_3.index t (0 : Fin 4) ∧ win0_0.index t (1 : Fin 3) = win0_3.index t (2 : Fin 4)
    ∧ win0_0.index t (2 : Fin 3) = 0 ∧ win0_1.index t (0 : Fin 2) = 0 ∧ win0_1.index t (1 : Fin 2) = 0
    ∧ win0_2.index t (0 : Fin 1) = 0 ∧ win0_3.index t (0 : Fin 4) < 2 ∧ win0_3.index t (1 : Fin 4) = 0
    ∧ win0_3.index t (2 : Fin 4) < 4 ∧ win0_3.index t (3 : Fin 4) = 0 :=
  (by decide +kernel : ∀ t : Fin grid0.N, _)

/-- Every (batch, row tile) is some grid point's block index. -/
theorem idx_onto3 : ∀ (q0 : Fin 2) (q2 : Fin 4), ∃ t : Fin cfg0.N, win0_3.index t = ![q0.val, 0, q2.val, 0] :=
  (by decide +kernel : ∀ (q0 : Fin 2) (q2 : Fin 4), ∃ t : Fin grid0.N, win0_3.index t = ![q0.val, 0, q2.val, 0])

/-- What a grid point writes back to the query array is its block of `projArr 0` of the arrays the region finds. -/
theorem flushed3_eq (t : Fin cfg0.N) :
    (dat0 (F := Ideal) V c).flushed 3 t
      = ((cfg0.win 3).blk t).view.read (Elt Ideal) (projArr 0 (V c main_arg0) (V c main_v1) (V c main_arg2)) := by
  obtain ⟨f0, f1, f2, f3, f4, f5, f6, f7, f8, f9⟩ := idx_facts3 t
  funext y
  show (dat0 (F := Ideal) V c).after 3 t ((cfg0.win 3).xinj (grid0.coords t) y)
    = projArr 0 (V c main_arg0) (V c main_v1) (V c main_arg2) (((cfg0.win 3).blk t).view.emb y)
  rw [after0_3]
  refine (out3_apply (iblk0 V c 0 t) (iblk0 V c 1 t) (iblk0 V c 2 t) _).trans ?_
  refine slab_block 0 (iblk0 V c 0 t) (iblk0 V c 1 t) (iblk0 V c 2 t) (V c main_arg0) (V c main_v1) (V c main_arg2)
    (win0_3.index t (0 : Fin 4)) (win0_3.index t (2 : Fin 4)) f6 f8 ?_ ?_ ?_ _ _ ?_ ?_ ?_ ?_
  · intro r d
    show V c main_arg0 (((cfg0.win 0).blk t).view.emb (ix3 (0 : Fin 1) r d)) = _
    refine congrArg (V c main_arg0) (funext fun a => Fin.ext ?_)
    match a with
    | ⟨0, _⟩ => show win0_0.index t (0 : Fin 3) * 1 + 1 * 0 = win0_3.index t (0 : Fin 4); omega
    | ⟨1, _⟩ => show win0_0.index t (1 : Fin 3) * 512 + 1 * r.val = win0_3.index t (2 : Fin 4) * 512 + r.val; omega
    | ⟨2, _⟩ => show win0_0.index t (2 : Fin 3) * 1024 + 1 * d.val = d.val; omega
  · intro d e
    show V c main_v1 (((cfg0.win 1).blk t).view.emb (ix2 d e)) = _
    refine congrArg (V c main_v1) (funext fun a => Fin.ext ?_)
    match a with
    | ⟨0, _⟩ => show win0_1.index t (0 : Fin 2) * 1024 + 1 * d.val = d.val; omega
    | ⟨1, _⟩ => show win0_1.index t (1 : Fin 2) * 3072 + 1 * e.val = e.val; omega
  · intro e
    show V c main_arg2 (((cfg0.win 2).blk t).view.emb (ix1 e)) = _
    refine congrArg (V c main_arg2) (funext fun a => Fin.ext ?_)
    match a with
    | ⟨0, _⟩ => show win0_2.index t (0 : Fin 1) * 3072 + 1 * e.val = e.val; omega
  · show win0_3.index t (0 : Fin 4) * 1 + 1 * (y 0).val = win0_3.index t (0 : Fin 4)
    have : (y 0).val < 1 := (y 0).isLt
    omega
  · show win0_3.index t (1 : Fin 4) * 16 + 1 * (y 1).val = (y 1).val; omega
  · show win0_3.index t (2 : Fin 4) * 512 + 1 * (y 2).val = win0_3.index t (2 : Fin 4) * 512 + (y 2).val; omega
  · show win0_3.index t (3 : Fin 4) * 64 + 1 * (y 3).val = (y 3).val; omega

/-- An index of the query array is in a point's block iff each coordinate is in the block's range on its axis. -/
theorem mem_blk3 (t : Fin cfg0.N) (i : S2x16x2048x64.Idx) :
    i ∈ ((cfg0.win 3).blk t).view.set ↔ ∀ a : Fin 4, win0_3.index t a * S1x16x512x64.size a ≤ (i a).val
      ∧ (i a).val < win0_3.index t a * S1x16x512x64.size a + S1x16x512x64.size a := by
  show i ∈ ((View.whole main_v4_0).slice (win0_3.rect t)).set ↔ _
  rw [View.set_slice_whole, Rect.mem_set_unit]
  exact Iff.rfl

/-- The blocks cover the query array: entry (b, h, t, j) lies in the block of batch b, row tile t / 512. -/
theorem cover3 (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto3 ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- So the query array ends holding `projArr 0`. -/
theorem final3 : (dat0 (F := Ideal) V c).arrAt 3 cfg0.N = projArr 0 (V c main_arg0) (V c main_v1) (V c main_arg2) :=
  (dat0 (F := Ideal) V c).arrAt_eq_of_cover 3 (projArr 0 (V c main_arg0) (V c main_v1) (V c main_arg2))
    (fun t _ => flushed3_eq V c t) cover3

/-- The printed index maps, decided over the eight grid points: the key window's block index at a point is
    (batch, 0, row tile, 0), the block of x there is (batch, row tile, 0), and the weight and bias blocks are whole. -/
theorem idx_facts4 : ∀ t : Fin cfg0.N,
    win0_0.index t (0 : Fin 3) = win0_4.index t (0 : Fin 4) ∧ win0_0.index t (1 : Fin 3) = win0_4.index t (2 : Fin 4)
    ∧ win0_0.index t (2 : Fin 3) = 0 ∧ win0_1.index t (0 : Fin 2) = 0 ∧ win0_1.index t (1 : Fin 2) = 0
    ∧ win0_2.index t (0 : Fin 1) = 0 ∧ win0_4.index t (0 : Fin 4) < 2 ∧ win0_4.index t (1 : Fin 4) = 0
    ∧ win0_4.index t (2 : Fin 4) < 4 ∧ win0_4.index t (3 : Fin 4) = 0 :=
  (by decide +kernel : ∀ t : Fin grid0.N, _)

/-- Every (batch, row tile) is some grid point's block index. -/
theorem idx_onto4 : ∀ (q0 : Fin 2) (q2 : Fin 4), ∃ t : Fin cfg0.N, win0_4.index t = ![q0.val, 0, q2.val, 0] :=
  (by decide +kernel : ∀ (q0 : Fin 2) (q2 : Fin 4), ∃ t : Fin grid0.N, win0_4.index t = ![q0.val, 0, q2.val, 0])

/-- What a grid point writes back to the key array is its block of `projArr 1` of the arrays the region finds. -/
theorem flushed4_eq (t : Fin cfg0.N) :
    (dat0 (F := Ideal) V c).flushed 4 t
      = ((cfg0.win 4).blk t).view.read (Elt Ideal) (projArr 1 (V c main_arg0) (V c main_v1) (V c main_arg2)) := by
  obtain ⟨f0, f1, f2, f3, f4, f5, f6, f7, f8, f9⟩ := idx_facts4 t
  funext y
  show (dat0 (F := Ideal) V c).after 4 t ((cfg0.win 4).xinj (grid0.coords t) y)
    = projArr 1 (V c main_arg0) (V c main_v1) (V c main_arg2) (((cfg0.win 4).blk t).view.emb y)
  rw [after0_4]
  refine (out4_apply (iblk0 V c 0 t) (iblk0 V c 1 t) (iblk0 V c 2 t) _).trans ?_
  refine slab_block 1 (iblk0 V c 0 t) (iblk0 V c 1 t) (iblk0 V c 2 t) (V c main_arg0) (V c main_v1) (V c main_arg2)
    (win0_4.index t (0 : Fin 4)) (win0_4.index t (2 : Fin 4)) f6 f8 ?_ ?_ ?_ _ _ ?_ ?_ ?_ ?_
  · intro r d
    show V c main_arg0 (((cfg0.win 0).blk t).view.emb (ix3 (0 : Fin 1) r d)) = _
    refine congrArg (V c main_arg0) (funext fun a => Fin.ext ?_)
    match a with
    | ⟨0, _⟩ => show win0_0.index t (0 : Fin 3) * 1 + 1 * 0 = win0_4.index t (0 : Fin 4); omega
    | ⟨1, _⟩ => show win0_0.index t (1 : Fin 3) * 512 + 1 * r.val = win0_4.index t (2 : Fin 4) * 512 + r.val; omega
    | ⟨2, _⟩ => show win0_0.index t (2 : Fin 3) * 1024 + 1 * d.val = d.val; omega
  · intro d e
    show V c main_v1 (((cfg0.win 1).blk t).view.emb (ix2 d e)) = _
    refine congrArg (V c main_v1) (funext fun a => Fin.ext ?_)
    match a with
    | ⟨0, _⟩ => show win0_1.index t (0 : Fin 2) * 1024 + 1 * d.val = d.val; omega
    | ⟨1, _⟩ => show win0_1.index t (1 : Fin 2) * 3072 + 1 * e.val = e.val; omega
  · intro e
    show V c main_arg2 (((cfg0.win 2).blk t).view.emb (ix1 e)) = _
    refine congrArg (V c main_arg2) (funext fun a => Fin.ext ?_)
    match a with
    | ⟨0, _⟩ => show win0_2.index t (0 : Fin 1) * 3072 + 1 * e.val = e.val; omega
  · show win0_4.index t (0 : Fin 4) * 1 + 1 * (y 0).val = win0_4.index t (0 : Fin 4)
    have : (y 0).val < 1 := (y 0).isLt
    omega
  · show win0_4.index t (1 : Fin 4) * 16 + 1 * (y 1).val = (y 1).val; omega
  · show win0_4.index t (2 : Fin 4) * 512 + 1 * (y 2).val = win0_4.index t (2 : Fin 4) * 512 + (y 2).val; omega
  · show win0_4.index t (3 : Fin 4) * 64 + 1 * (y 3).val = (y 3).val; omega

/-- An index of the key array is in a point's block iff each coordinate is in the block's range on its axis. -/
theorem mem_blk4 (t : Fin cfg0.N) (i : S2x16x2048x64.Idx) :
    i ∈ ((cfg0.win 4).blk t).view.set ↔ ∀ a : Fin 4, win0_4.index t a * S1x16x512x64.size a ≤ (i a).val
      ∧ (i a).val < win0_4.index t a * S1x16x512x64.size a + S1x16x512x64.size a := by
  show i ∈ ((View.whole main_v4_1).slice (win0_4.rect t)).set ↔ _
  rw [View.set_slice_whole, Rect.mem_set_unit]
  exact Iff.rfl

/-- The blocks cover the key array: entry (b, h, t, j) lies in the block of batch b, row tile t / 512. -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto4 ⟨(i 0).val, hi0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- So the key array ends holding `projArr 1`. -/
theorem final4 : (dat0 (F := Ideal) V c).arrAt 4 cfg0.N = projArr 1 (V c main_arg0) (V c main_v1) (V c main_arg2) :=
  (dat0 (F := Ideal) V c).arrAt_eq_of_cover 4 (projArr 1 (V c main_arg0) (V c main_v1) (V c main_arg2))
    (fun t _ => flushed4_eq V c t) cover4

/-- The printed index maps, decided over the eight grid points: the value window's block index at a point is
    (batch, 0, row tile, 0), the block of x there is (batch, row tile, 0), and the weight and bias blocks are whole. -/
theorem idx_facts5 : ∀ t : Fin cfg0.N,
    win0_0.index t (0 : Fin 3) = win0_5.index t (0 : Fin 4) ∧ win0_0.index t (1 : Fin 3) = win0_5.index t (2 : Fin 4)
    ∧ win0_0.index t (2 : Fin 3) = 0 ∧ win0_1.index t (0 : Fin 2) = 0 ∧ win0_1.index t (1 : Fin 2) = 0
    ∧ win0_2.index t (0 : Fin 1) = 0 ∧ win0_5.index t (0 : Fin 4) < 2 ∧ win0_5.index t (1 : Fin 4) = 0
    ∧ win0_5.index t (2 : Fin 4) < 4 ∧ win0_5.index t (3 : Fin 4) = 0 :=
  (by decide +kernel : ∀ t : Fin grid0.N, _)

/-- Every (batch, row tile) is some grid point's block index. -/
theorem idx_onto5 : ∀ (q0 : Fin 2) (q2 : Fin 4), ∃ t : Fin cfg0.N, win0_5.index t = ![q0.val, 0, q2.val, 0] :=
  (by decide +kernel : ∀ (q0 : Fin 2) (q2 : Fin 4), ∃ t : Fin grid0.N, win0_5.index t = ![q0.val, 0, q2.val, 0])

/-- What a grid point writes back to the value array is its block of `projArr 2` of the arrays the region finds. -/
theorem flushed5_eq (t : Fin cfg0.N) :
    (dat0 (F := Ideal) V c).flushed 5 t
      = ((cfg0.win 5).blk t).view.read (Elt Ideal) (projArr 2 (V c main_arg0) (V c main_v1) (V c main_arg2)) := by
  obtain ⟨f0, f1, f2, f3, f4, f5, f6, f7, f8, f9⟩ := idx_facts5 t
  funext y
  show (dat0 (F := Ideal) V c).after 5 t ((cfg0.win 5).xinj (grid0.coords t) y)
    = projArr 2 (V c main_arg0) (V c main_v1) (V c main_arg2) (((cfg0.win 5).blk t).view.emb y)
  rw [after0_5]
  refine (out5_apply (iblk0 V c 0 t) (iblk0 V c 1 t) (iblk0 V c 2 t) _).trans ?_
  refine slab_block 2 (iblk0 V c 0 t) (iblk0 V c 1 t) (iblk0 V c 2 t) (V c main_arg0) (V c main_v1) (V c main_arg2)
    (win0_5.index t (0 : Fin 4)) (win0_5.index t (2 : Fin 4)) f6 f8 ?_ ?_ ?_ _ _ ?_ ?_ ?_ ?_
  · intro r d
    show V c main_arg0 (((cfg0.win 0).blk t).view.emb (ix3 (0 : Fin 1) r d)) = _
    refine congrArg (V c main_arg0) (funext fun a => Fin.ext ?_)
    match a with
    | ⟨0, _⟩ => show win0_0.index t (0 : Fin 3) * 1 + 1 * 0 = win0_5.index t (0 : Fin 4); omega
    | ⟨1, _⟩ => show win0_0.index t (1 : Fin 3) * 512 + 1 * r.val = win0_5.index t (2 : Fin 4) * 512 + r.val; omega
    | ⟨2, _⟩ => show win0_0.index t (2 : Fin 3) * 1024 + 1 * d.val = d.val; omega
  · intro d e
    show V c main_v1 (((cfg0.win 1).blk t).view.emb (ix2 d e)) = _
    refine congrArg (V c main_v1) (funext fun a => Fin.ext ?_)
    match a with
    | ⟨0, _⟩ => show win0_1.index t (0 : Fin 2) * 1024 + 1 * d.val = d.val; omega
    | ⟨1, _⟩ => show win0_1.index t (1 : Fin 2) * 3072 + 1 * e.val = e.val; omega
  · intro e
    show V c main_arg2 (((cfg0.win 2).blk t).view.emb (ix1 e)) = _
    refine congrArg (V c main_arg2) (funext fun a => Fin.ext ?_)
    match a with
    | ⟨0, _⟩ => show win0_2.index t (0 : Fin 1) * 3072 + 1 * e.val = e.val; omega
  · show win0_5.index t (0 : Fin 4) * 1 + 1 * (y 0).val = win0_5.index t (0 : Fin 4)
    have : (y 0).val < 1 := (y 0).isLt
    omega
  · show win0_5.index t (1 : Fin 4) * 16 + 1 * (y 1).val = (y 1).val; omega
  · show win0_5.index t (2 : Fin 4) * 512 + 1 * (y 2).val = win0_5.index t (2 : Fin 4) * 512 + (y 2).val; omega
  · show win0_5.index t (3 : Fin 4) * 64 + 1 * (y 3).val = (y 3).val; omega

/-- An index of the value array is in a point's block iff each coordinate is in the block's range on its axis. -/
theorem mem_blk5 (t : Fin cfg0.N) (i : S2x16x2048x64.Idx) :
    i ∈ ((cfg0.win 5).blk t).view.set ↔ ∀ a : Fin 4, win0_5.index t a * S1x16x512x64.size a ≤ (i a).val
      ∧ (i a).val < win0_5.index t a * S1x16x512x64.size a + S1x16x512x64.size a := by
  show i ∈ ((View.whole main_v4_2).slice (win0_5.rect t)).set ↔ _
  rw [View.set_slice_whole, Rect.mem_set_unit]
  exact Iff.rfl

/-- The blocks cover the value array: entry (b, h, t, j) lies in the block of batch b, row tile t / 512. -/
theorem cover5 (i : S2x16x2048x64.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto5 ⟨(i 0).val, hi0⟩ ⟨(i 2).val / 512, by omega⟩
  have q0 : win0_5.index t (0 : Fin 4) = (i 0).val := congrFun ht 0
  have q1 : win0_5.index t (1 : Fin 4) = 0 := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-- So the value array ends holding `projArr 2`. -/
theorem final5 : (dat0 (F := Ideal) V c).arrAt 5 cfg0.N = projArr 2 (V c main_arg0) (V c main_v1) (V c main_arg2) :=
  (dat0 (F := Ideal) V c).arrAt_eq_of_cover 5 (projArr 2 (V c main_arg0) (V c main_v1) (V c main_arg2))
    (fun t _ => flushed5_eq V c t) cover5

end Cert.KernelIdeal.Val.Proj
end
-- ==== Proof.Region0.lean ====
/-
  The fused query–key–value projection, whatever the region finds in its arrays.

  After the eight grid points, entry (b, h, t, j) of the query, key and value arrays is the dense layer
  x·Wt + bias at (b, t, h·192 + part·64 + j) with part 0, 1, 2: the sum over the 1024 model coordinates d of
  x(b, t, d)·Wt(d, ·) plus the bias entry.
-/
import proofs.«175069_j80315888436070_2_alg».proof.Proof.Region0Arr

noncomputable section

open Idealize.ShloMosaic Idealize.ShloMosaic.TcCoe Idealize.ShloMosaic.ValueIdx Idealize.SL.Sem

namespace Cert.KernelIdeal.Val
open Cert.KernelIdeal Cert.KernelIdeal.Gen

variable (V : (c : Dev nD) → (b : Ref sig .tc) → Buf (Elt Ideal) ((c : Thread nD τ).loc b)) (c : Dev nD)

/-- The query array after all eight grid points: entry (b, h, t, j) is the dense layer's entry (b, t, h·192 + j). -/
theorem proj_q (b : Fin 2) (h : Fin 16) (t : Fin 2048) (j : Fin 64) :
    (dat0 (F := Ideal) V c).arrAt 3 cfg0.N (ix4 b h t j)
      = Spec.linTE (V c main_arg0) (V c main_v1) (V c main_arg2) b t (Spec.feat h 0 j) := by
  rw [Proj.final3]; rfl
/-- The key array: entry (b, h, t, j) is the dense layer's entry (b, t, h·192 + 64 + j). -/
theorem proj_k (b : Fin 2) (h : Fin 16) (t : Fin 2048) (j : Fin 64) :
    (dat0 (F := Ideal) V c).arrAt 4 cfg0.N (ix4 b h t j)
      = Spec.linTE (V c main_arg0) (V c main_v1) (V c main_arg2) b t (Spec.feat h 1 j) := by
  rw [Proj.final4]; rfl
/-- The value array: entry (b, h, t, j) is the dense layer's entry (b, t, h·192 + 128 + j). -/
theorem proj_v (b : Fin 2) (h : Fin 16) (t : Fin 2048) (j : Fin 64) :
    (dat0 (F := Ideal) V c).arrAt 5 cfg0.N (ix4 b h t j)
      = Spec.linTE (V c main_arg0) (V c main_v1) (V c main_arg2) b t (Spec.feat h 2 j) := by
  rw [Proj.final5]; rfl

end Cert.KernelIdeal.Val
end
-- ==== Proof.FlashDefs.lean ====
/-
  One query tile of the attention kernel as a recurrence.

  The kernel handles 256 query rows at a time. For each of the key tiles at or before the query tile it forms the
  256 × 256 block of scaled scores, and carries three things per query row: the largest score seen so far, the sum of
  exp (score - largest), and the 64 sums of exp (score - largest) · value. A new block rescales the carried sums by
  exp (old largest - new largest). On the block where the key tile is the query tile itself the scores of later keys
  are replaced by the named -∞ first. At the end the 64 sums are divided by the sum of exponentials.
  Here the steps are written once, as functions of the blocks, and each of the eight stores of the kernel body is
  shown to be the recurrence run over its key tiles.
-/
import proofs.«175069_j80315888436070_2_alg».proof.Proof.Gen.KernelIdeal.Frame

set_option maxRecDepth 16384

noncomputable section

namespace Cert.KernelIdeal.Flash

open Idealize.ShloMosaic Idealize.ShloMosaic.TcCoe Idealize.SL.Sem Cert.KernelIdeal Cert.KernelIdeal.Gen

variable {F : FTy → Type} [FloatOps F] [Named F]

/-- A [1, 256, 64] block as a 256 × 64 matrix. -/
def mat (v : Vec F S1x256x64 .bf16) : FVec F S256x64 .bf16 := shapeCast S256x64 v shapeCasts_S1x256x64_S256x64

/-- The scaled scores of 256 query rows against 256 key rows: q · kᵀ times one eighth. -/
def scores (q k : FVec F S256x64 .bf16) : FVec F S256x256 .f32 :=
  mulf (matmul dot_S256x64_S64x256_S256x256_1_0_0_1_n_n none q (transpose S64x256 [1, 0] k transposes_S256x64_p1_0_S64x256)
      (constant S256x256 .f32 0x00000000#32))
    (broadcast S256x256 (Scalar.ofBits .f32 0x3E000000#32))

/-- On the diagonal block (query tile = key tile, both starting at position `off`): the score of a key after the
    query is replaced by the named -∞. -/
def diag (off : BitVec 32) (s : FVec F S256x256 .f32) : FVec F S256x256 .f32 :=
  select (cmpi .sgt (addi (broadcast S256x256 off) (iota .tc S256x256 32 [1] iota_S256x256_d1_w32))
      (addi (broadcast S256x256 off) (iota .tc S256x256 32 [0] iota_S256x256_d0_w32)))
    (broadcast S256x256 (Named.named κ "neg_big" 0xFF333332#32)) s

/-- The carried triple: row maximum, row sum of exponentials, and the 64 weighted sums per row. -/
abbrev St (F : FTy → Type) [FloatOps F] := FVec F S256x1 .f32 × FVec F S256x1 .f32 × FVec F S256x64 .f32

/-- The new row maximum after a block of scores. -/
def mNew (m : FVec F S256x1 .f32) (s : FVec F S256x256 .f32) : FVec F S256x1 .f32 :=
  maximumf m (shapeCast S256x1 (multiReduction .maximumf [1] S256 s 0xFF800000#32 reduces_S256x256_S256 (.inl rfl) rfl) shapeCasts_S256_S256x1)

/-- The factor exp (old maximum - new maximum) that rescales what was carried. -/
def alpha (m mn : FVec F S256x1 .f32) : FVec F S256x1 .f32 := exp (subf m mn)

/-- The block's exponentials exp (score - new maximum). -/
def pTile (s : FVec F S256x256 .f32) (mn : FVec F S256x1 .f32) : FVec F S256x256 .f32 :=
  exp (subf s (broadcastTo S256x256 mn broadcasts_S256x1_S256x256))

/-- One block: new maximum, rescaled sum plus the block's exponentials, rescaled weighted sums plus exponentials · values. -/
def step (s : FVec F S256x256 .f32) (v : FVec F S256x64 .bf16) (st : St F) : St F :=
  (mNew st.1 s,
   addf (mulf (alpha st.1 (mNew st.1 s)) st.2.1)
     (shapeCast S256x1 (multiReduction .add [1] S256 (pTile s (mNew st.1 s)) 0x00000000#32 reduces_S256x256_S256 (.inl rfl) rfl) shapeCasts_S256_S256x1),
   addf (mulf (broadcastTo S256x64 (alpha st.1 (mNew st.1 s)) broadcasts_S256x1_S256x64) st.2.2)
     (matmul dot_S256x256_S256x64_S256x64_1_0_0_1_n_n none (truncf .bf16 (pTile s (mNew st.1 s)) bitsLt_bf16_f32) v (constant S256x64 .f32 0x00000000#32)))

/-- The start: maximum at the named -∞, both sums zero. -/
def init : St F :=
  (broadcast S256x1 (Named.named κ "neg_big" 0xFF333332#32), broadcast S256x1 (Scalar.ofBits .f32 0x00000000#32),
   broadcast S256x64 (Scalar.ofBits .f32 0x00000000#32))

/-- The end: weighted sums over the sum of exponentials, as a [1, 256, 64] block. -/
def fin (st : St F) : FVec F S1x256x64 .f32 :=
  shapeCast S1x256x64 (divf st.2.2 (broadcastTo S256x64 st.2.1 broadcasts_S256x1_S256x64)) shapeCasts_S256x64_S1x256x64

/-- The recurrence over the first `n` key tiles, none of them the diagonal one. -/
def run (q : FVec F S256x64 .bf16) (kb vb : ℕ → Vec F S1x256x64 .bf16) : ℕ → St F
  | 0 => init
  | n + 1 => step (scores q (mat (kb n))) (mat (vb n)) (run q kb vb n)

/-- Query tile `n`: the first `n` key tiles in full, then the diagonal tile, then the division. -/
def tile (n : ℕ) (off : BitVec 32) (q : Vec F S1x256x64 .bf16) (kb vb : ℕ → Vec F S1x256x64 .bf16) : FVec F S1x256x64 .f32 :=
  fin (step (diag off (scores (mat q) (mat (kb n)))) (mat (vb n)) (run (mat q) kb vb n))

/-- The eight row tiles of a [1, 2048, 64] block, by number. -/
def blk (x : Vec F S1x2048x64 .bf16) : ℕ → Vec F S1x256x64 .bf16
  | 0 => View.ld x r1_0 | 1 => View.ld x r1_1 | 2 => View.ld x r1_2 | 3 => View.ld x r1_3
  | 4 => View.ld x r1_4 | 5 => View.ld x r1_5 | 6 => View.ld x r1_6 | _ => View.ld x r1_7

/-- What the body leaves in the output block: the eight query tiles, each the recurrence over its key tiles. -/
theorem out1_3_eq (x0 x1 x2 : Vec F S1x2048x64 .bf16) :
    out1_3 x0 x1 x2 = View.canon [
      ⟨r1_7, tile 7 1792#32 (blk x0 7) (blk x1) (blk x2)⟩, ⟨r1_6, tile 6 1536#32 (blk x0 6) (blk x1) (blk x2)⟩,
      ⟨r1_5, tile 5 1280#32 (blk x0 5) (blk x1) (blk x2)⟩, ⟨r1_4, tile 4 1024#32 (blk x0 4) (blk x1) (blk x2)⟩,
      ⟨r1_3, tile 3 768#32 (blk x0 3) (blk x1) (blk x2)⟩, ⟨r1_2, tile 2 512#32 (blk x0 2) (blk x1) (blk x2)⟩,
      ⟨r1_1, tile 1 256#32 (blk x0 1) (blk x1) (blk x2)⟩, ⟨r1_0, tile 0 0#32 (blk x0 0) (blk x1) (blk x2)⟩] := rfl

end Cert.KernelIdeal.Flash

end
-- ==== Proof.LibColumns.lean ====
/-
  Column vectors among matrices, read at explicit coordinates.

  A sum or a maximum taken along the rows of a matrix with the reduced axis kept comes back as an `a × 1` column:
  the length-`a` result reshaped to a column, and later spread across the columns of a matrix again. Read at an
  index: the reshaped column's entry `(i, u)` is the vector's entry `i`; the column spread to `a × b` has, at
  `(p, c)`, the column's entry `(p, 0)`. Also here: the sum over the one index of a single-axis contraction, with
  the two operands' indices along the contracted axis named by the caller.
-/
import Idealize.ShloMosaic.Lib.ValueIdx
import Idealize.ShloMosaic.Lib.Pipeline.Value
import Idealize.ShloMosaic.PureOps.Ideal.Laws

namespace Cert.LibColumns

open Idealize.ShloMosaic Idealize.ShloMosaic.ValueIdx

variable {α : Type}

/-- A length-`a` vector reshaped to an `a × 1` column: entry `(i, u)` is the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over a one-axis contraction's index, re-indexed by the contracted coordinate `k`: the caller names the
    two operands' indices at each `k`. -/
theorem sum_contr1 {sl sr so : Shape} (D : DotDims sl sr so) (K : ℕ) (hr : D.contr.rank = 1)
    (hs : D.contr.size ⟨0, by omega⟩ = K) (l : sl.Idx → EReal) (r : sr.Idx → EReal) (j : so.Idx)
    (L : Fin K → sl.Idx) (R : Fin K → sr.Idx)
    (hl : ∀ k : Fin K, D.lhsIdx j ((contrEquiv1 D K hr hs).symm k) = L k)
    (hr' : ∀ k : Fin K, D.rhsIdx j ((contrEquiv1 D K hr hs).symm k) = R k) :
    ∑ q : D.contr.Idx, l (D.lhsIdx j q) * r (D.rhsIdx j q) = ∑ k : Fin K, l (L k) * r (R k) := by
  rw [← Equiv.sum_comp (contrEquiv1 D K hr hs).symm]
  exact Finset.sum_congr rfl fun k _ => by rw [hl k, hr' k]

end Cert.LibColumns
-- ==== Proof.FlashRead.lean ====
/-
  The steps of a query tile read one entry at a time, on the extended reals.

  Row r of a block of scores is the query row r against the 256 key rows, times the scale. On the diagonal block
  the entry (r, c) is -∞ when c > r. The new maximum of row r is the larger of the old one and the row's maximum;
  the rescaling factor is exp (old - new); the block's exponentials are exp (score - new); the carried sum becomes
  factor · sum + the row's exponentials; the carried weighted sums become factor · sums + exponentials · value rows;
  and the end divides entry (r, j) of the weighted sums by row r's sum.
-/
import proofs.«175069_j80315888436070_2_alg».proof.Proof.FlashDefs
import proofs.«175069_j80315888436070_2_alg».proof.Proof.LibDotRows
import proofs.«175069_j80315888436070_2_alg».proof.Proof.LibColumns
import proofs.«175069_j80315888436070_2_alg».proof.Proof.Spec
import Idealize.ShloMosaic.Lib.Pipeline.Value
import Idealize.ShloMosaic.Lib.ValueIdx
import Idealize.ShloMosaic.PureOps.Ideal.Laws
import Idealize.ShloMosaic.PureOps.IdealRules
import Idealize.ShloMosaic.Lib.Affine

set_option maxRecDepth 16384

noncomputable section

namespace Cert.KernelIdeal.Flash

open Idealize.ShloMosaic Idealize.ShloMosaic.TcCoe Idealize.ShloMosaic.ValueIdx Idealize.SL.Sem Cert.KernelIdeal Cert.KernelIdeal.Gen

/-- A block viewed as a matrix: row r, lane d is the block's (0, r, d). -/
theorem mat_apply (v : Vec Ideal S1x256x64 .bf16) (r : Fin 256) (d : Fin 64) : mat v (ix2 r d) = v (ix3 (0 : Fin 1) r d) :=
  shapeCast_apply v _ (ix2 r d) (ix3 (0 : Fin 1) r d) (by
    rw [Shape.rowMajor_val_three, Shape.rowMajor_val_two]
    show ((0 : ℕ) * 256 + r.val) * 64 + d.val = r.val * 64 + d.val
    omega)

/-- The plain 256 × 64 by 64 × 256 contraction: a row of the left against a column of the right. -/
theorem sum_qk (l : FVec Ideal S256x64 .bf16) (rr : FVec Ideal S64x256 .bf16) (r c : Fin 256) :
    ∑ k : dot_S256x64_S64x256_S256x256_1_0_0_1_n_n.contr.Idx,
        l (dot_S256x64_S64x256_S256x256_1_0_0_1_n_n.lhsIdx (ix2 r c) k) * rr (dot_S256x64_S64x256_S256x256_1_0_0_1_n_n.rhsIdx (ix2 r c) k)
      = ∑ d : Fin 64, l (ix2 r d) * rr (ix2 d c) :=
  Cert.LibDotRows.sum_contr_eq_rowDot (M := 256) (K := 64) (N := 256) dot_S256x64_S64x256_S256x256_1_0_0_1_n_n rfl rfl
    (fun i q => by
      unfold DotDims.lhsIdx
      rw [dif_neg (show ¬(0 : Fin S256x64.rank) ∈ dot_S256x64_S64x256_S256x256_1_0_0_1_n_n.lhsBatch by decide),
        dif_pos (show (0 : Fin S256x64.rank) ∈ dot_S256x64_S64x256_S256x256_1_0_0_1_n_n.lhsNonContracting by decide)]
      rfl)
    (fun i q => dot_S256x64_S64x256_S256x256_1_0_0_1_n_n.lhsIdx_val_of_single rfl i q)
    (fun i q => dot_S256x64_S64x256_S256x256_1_0_0_1_n_n.rhsIdx_val_of_single rfl i q)
    (fun i q => by
      unfold DotDims.rhsIdx
      rw [dif_neg (show ¬(1 : Fin S64x256.rank) ∈ dot_S256x64_S64x256_S256x256_1_0_0_1_n_n.rhsBatch by decide),
        dif_pos (show (1 : Fin S64x256.rank) ∈ dot_S256x64_S64x256_S256x256_1_0_0_1_n_n.rhsNonContracting by decide)]
      rfl)
    l rr (ix2 r c)

/-- The plain 256 × 256 by 256 × 64 contraction likewise. -/
theorem sum_pv (l : FVec Ideal S256x256 .bf16) (rr : FVec Ideal S256x64 .bf16) (r : Fin 256) (j : Fin 64) :
    ∑ k : dot_S256x256_S256x64_S256x64_1_0_0_1_n_n.contr.Idx,
        l (dot_S256x256_S256x64_S256x64_1_0_0_1_n_n.lhsIdx (ix2 r j) k) * rr (dot_S256x256_S256x64_S256x64_1_0_0_1_n_n.rhsIdx (ix2 r j) k)
      = ∑ c : Fin 256, l (ix2 r c) * rr (ix2 c j) :=
  Cert.LibDotRows.sum_contr_eq_rowDot (M := 256) (K := 256) (N := 64) dot_S256x256_S256x64_S256x64_1_0_0_1_n_n rfl rfl
    (fun i q => by
      unfold DotDims.lhsIdx
      rw [dif_neg (show ¬(0 : Fin S256x256.rank) ∈ dot_S256x256_S256x64_S256x64_1_0_0_1_n_n.lhsBatch by decide),
        dif_pos (show (0 : Fin S256x256.rank) ∈ dot_S256x256_S256x64_S256x64_1_0_0_1_n_n.lhsNonContracting by decide)]
      rfl)
    (fun i q => dot_S256x256_S256x64_S256x64_1_0_0_1_n_n.lhsIdx_val_of_single rfl i q)
    (fun i q => dot_S256x256_S256x64_S256x64_1_0_0_1_n_n.rhsIdx_val_of_single rfl i q)
    (fun i q => by
      unfold DotDims.rhsIdx
      rw [dif_neg (show ¬(1 : Fin S256x64.rank) ∈ dot_S256x256_S256x64_S256x64_1_0_0_1_n_n.rhsBatch by decide),
        dif_pos (show (1 : Fin S256x64.rank) ∈ dot_S256x256_S256x64_S256x64_1_0_0_1_n_n.rhsNonContracting by decide)]
      rfl)
    l rr (ix2 r j)

/-- A score: query row r against key row c, times the scale. -/
theorem scores_apply (q k : FVec Ideal S256x64 .bf16) (r c : Fin 256) :
    scores q k (ix2 r c) = (∑ d : Fin 64, q (ix2 r d) * k (ix2 c d)) * Spec.scaleE := by
  unfold scores
  show FloatOps.matmul _ none q _ (constant S256x256 .f32 0x00000000#32) (ix2 r c) * Spec.scaleE = _
  rw [Ideal.matmul_constant_zero_apply, sum_qk]
  refine congrArg (· * Spec.scaleE) (Finset.sum_congr rfl fun d _ => ?_)
  exact congrArg (q (ix2 r d) * ·) (transpose_apply [1, 0] k _ (ix2 d c) (ix2 c d) fun b => by
    match b with
    | ⟨0, _⟩ => rfl
    | ⟨1, _⟩ => rfl)

/-- Signed comparison of two small offsets from a common small base is the comparison of the offsets. -/
theorem sgt_iff (n r c : ℕ) (hn : n ≤ 1792) (hr : r < 256) (hc : c < 256) :
    IntOp.cmpi .sgt (BitVec.ofNat 32 n + BitVec.ofNat 32 c) (BitVec.ofNat 32 n + BitVec.ofNat 32 r) = 1#1 ↔ r < c := by
  have e : ∀ x : ℕ, x < 256 → (BitVec.ofNat 32 n + BitVec.ofNat 32 x).toInt = ((n + x : ℕ) : ℤ) := by
    intro x hx
    have h1 : (BitVec.ofNat 32 n + BitVec.ofNat 32 x).toNat = n + x := by
      rw [BitVec.toNat_add, BitVec.toNat_ofNat, BitVec.toNat_ofNat]; omega
    rw [BitVec.toInt_eq_toNat_of_lt (by rw [h1]; omega), h1]
  rw [IntOp.cmpi_sgt, e c hc, e r hr]
  omega

/-- The diagonal block: entry (r, c) is -∞ when c > r, else the score. -/
theorem diag_apply (n : ℕ) (hn : n ≤ 1792) (s : FVec Ideal S256x256 .f32) (r c : Fin 256) :
    diag (BitVec.ofNat 32 n) s (ix2 r c) = if r.val < c.val then ⊥ else s (ix2 r c) := by
  unfold diag
  rw [select_apply]
  have hb : (broadcast S256x256 (Named.named (F := Ideal) κ "neg_big" (φ := .f32) 0xFF333332#32) : FVec Ideal S256x256 .f32) (ix2 r c) = ⊥ :=
    IdealRules.named_const.ideal_named_scalar _ _ _ _ rfl
  rw [hb]
  have hcnd : (cmpi .sgt (addi (broadcast S256x256 (BitVec.ofNat 32 n)) (iota .tc S256x256 32 [1] iota_S256x256_d1_w32))
      (addi (broadcast S256x256 (BitVec.ofNat 32 n)) (iota .tc S256x256 32 [0] iota_S256x256_d0_w32))) (ix2 r c)
      = IntOp.cmpi .sgt (BitVec.ofNat 32 n + BitVec.ofNat 32 c.val) (BitVec.ofNat 32 n + BitVec.ofNat 32 r.val) := by
    show IntOp.cmpi .sgt (BitVec.ofNat 32 n + iota .tc S256x256 32 [1] iota_S256x256_d1_w32 (ix2 r c))
      (BitVec.ofNat 32 n + iota .tc S256x256 32 [0] iota_S256x256_d0_w32 (ix2 r c)) = _
    rw [iota_single_apply, iota_single_apply]
  rw [hcnd]
  by_cases h : r.val < c.val
  · rw [if_pos h, (sgt_iff n r.val c.val hn r.isLt c.isLt).mpr h, select_one]
  · rw [if_neg h, eq_zero_of_ne_one (fun hh => h ((sgt_iff n r.val c.val hn r.isLt c.isLt).mp hh)), select_zero]

/-- The new maximum of row r: the larger of the old one and the fold of max over the row from -∞'s word. -/
theorem mNew_apply (m : FVec Ideal S256x1 .f32) (s : FVec Ideal S256x256 .f32) (r : Fin 256) :
    mNew m s (ix2 r (0 : Fin 1))
      = max (m (ix2 r (0 : Fin 1))) ((Finset.univ : Finset (Fin 256)).fold max (Ideal.ofBits .f32 0xFF800000#32) (fun c => s (ix2 r c))) := by
  unfold mNew
  show max (m (ix2 r (0 : Fin 1))) (shapeCast S256x1 _ shapeCasts_S256_S256x1 (ix2 r (0 : Fin 1))) = _
  refine congrArg (max (m (ix2 r (0 : Fin 1)))) ?_
  refine (Cert.LibColumns.shapeCast_a_a1_apply _ shapeCasts_S256_S256x1 r (0 : Fin 1)).trans ?_
  refine (Ideal.multiReduction_maximumf_single s 0xFF800000#32 reduces_S256x256_S256 (.inl rfl) rfl (ix1 r)).trans ?_
  refine congrArg (Finset.fold max _ · Finset.univ) (funext fun c => ?_)
  exact congrArg s (funext fun a => Fin.ext (by
    match a with
    | ⟨0, _⟩ => rfl
    | ⟨1, _⟩ => rfl))

/-- The rescaling factor. -/
theorem alpha_apply (m mn : FVec Ideal S256x1 .f32) (i : S256x1.Idx) : alpha m mn i = Ideal.exp (m i - mn i) := rfl

/-- A block exponential. -/
theorem pTile_apply (s : FVec Ideal S256x256 .f32) (mn : FVec Ideal S256x1 .f32) (r c : Fin 256) :
    pTile s mn (ix2 r c) = Ideal.exp (s (ix2 r c) - mn (ix2 r (0 : Fin 1))) := by
  unfold pTile
  show Ideal.exp (s (ix2 r c) - broadcastTo S256x256 mn broadcasts_S256x1_S256x256 (ix2 r c)) = _
  rw [Cert.LibColumns.broadcastTo_a1_ab_apply mn broadcasts_S256x1_S256x256 r c]

/-- The new maximum is the first component. -/
theorem step_fst (s : FVec Ideal S256x256 .f32) (v : FVec Ideal S256x64 .bf16) (st : St Ideal) : (step s v st).1 = mNew st.1 s := rfl

/-- The carried sum of row r after a block. -/
theorem step_sum_apply (s : FVec Ideal S256x256 .f32) (v : FVec Ideal S256x64 .bf16) (st : St Ideal) (r : Fin 256) :
    (step s v st).2.1 (ix2 r (0 : Fin 1))
      = Ideal.exp (st.1 (ix2 r (0 : Fin 1)) - mNew st.1 s (ix2 r (0 : Fin 1))) * st.2.1 (ix2 r (0 : Fin 1))
        + ∑ c : Fin 256, Ideal.exp (s (ix2 r c) - mNew st.1 s (ix2 r (0 : Fin 1))) := by
  show alpha st.1 (mNew st.1 s) (ix2 r (0 : Fin 1)) * st.2.1 (ix2 r (0 : Fin 1))
      + shapeCast S256x1 _ shapeCasts_S256_S256x1 (ix2 r (0 : Fin 1)) = _
  refine congrArg (alpha st.1 (mNew st.1 s) (ix2 r (0 : Fin 1)) * st.2.1 (ix2 r (0 : Fin 1)) + ·) ?_
  refine (Cert.LibColumns.shapeCast_a_a1_apply _ shapeCasts_S256_S256x1 r (0 : Fin 1)).trans ?_
  refine (Ideal.multiReduction_add_single (pTile s (mNew st.1 s)) 0x00000000#32 reduces_S256x256_S256 (.inl rfl) rfl (ix1 r)).trans ?_
  refine Finset.sum_congr rfl fun c _ => ?_
  refine Eq.trans (congrArg (pTile s (mNew st.1 s)) (funext fun a => Fin.ext (by
    match a with
    | ⟨0, _⟩ => rfl
    | ⟨1, _⟩ => rfl))) (pTile_apply s (mNew st.1 s) r c)

/-- The carried weighted sum (r, j) after a block. -/
theorem step_acc_apply (s : FVec Ideal S256x256 .f32) (v : FVec Ideal S256x64 .bf16) (st : St Ideal) (r : Fin 256) (j : Fin 64) :
    (step s v st).2.2 (ix2 r j)
      = Ideal.exp (st.1 (ix2 r (0 : Fin 1)) - mNew st.1 s (ix2 r (0 : Fin 1))) * st.2.2 (ix2 r j)
        + ∑ c : Fin 256, Ideal.exp (s (ix2 r c) - mNew st.1 s (ix2 r (0 : Fin 1))) * v (ix2 c j) := by
  show broadcastTo S256x64 (alpha st.1 (mNew st.1 s)) broadcasts_S256x1_S256x64 (ix2 r j) * st.2.2 (ix2 r j)
      + FloatOps.matmul _ none (truncf .bf16 (pTile s (mNew st.1 s)) bitsLt_bf16_f32) v (constant S256x64 .f32 0x00000000#32) (ix2 r j) = _
  rw [Cert.LibColumns.broadcastTo_a1_ab_apply _ broadcasts_S256x1_S256x64 r j, Ideal.matmul_constant_zero_apply, sum_pv]
  refine congrArg (alpha st.1 (mNew st.1 s) (ix2 r (0 : Fin 1)) * st.2.2 (ix2 r j) + ·) ?_
  exact Finset.sum_congr rfl fun c _ => congrArg (· * v (ix2 c j)) (pTile_apply s (mNew st.1 s) r c)

/-- The start at row r. -/
theorem init_apply (r : Fin 256) (j : Fin 64) :
    (init (F := Ideal)).1 (ix2 r (0 : Fin 1)) = ⊥ ∧ (init (F := Ideal)).2.1 (ix2 r (0 : Fin 1)) = 0
      ∧ (init (F := Ideal)).2.2 (ix2 r j) = 0 :=
  ⟨IdealRules.named_const.ideal_named_scalar _ _ _ _ rfl, Ideal.ofBits_zero_f32, Ideal.ofBits_zero_f32⟩

/-- The end: entry (0, r, j) is the weighted sum (r, j) over row r's sum. -/
theorem fin_apply (st : St Ideal) (r : Fin 256) (j : Fin 64) :
    fin st (ix3 (0 : Fin 1) r j) = Ideal.div (st.2.2 (ix2 r j)) (st.2.1 (ix2 r (0 : Fin 1))) := by
  unfold fin
  refine (shapeCast_apply _ shapeCasts_S256x64_S1x256x64 (ix3 (0 : Fin 1) r j) (ix2 r j) (by
    rw [Shape.rowMajor_val_three, Shape.rowMajor_val_two]
    show r.val * 64 + j.val = ((0 : ℕ) * 256 + r.val) * 64 + j.val
    omega)).trans ?_
  show Ideal.div (st.2.2 (ix2 r j)) (broadcastTo S256x64 st.2.1 broadcasts_S256x1_S256x64 (ix2 r j)) = _
  rw [Cert.LibColumns.broadcastTo_a1_ab_apply st.2.1 broadcasts_S256x1_S256x64 r j]

end Cert.KernelIdeal.Flash

end
-- ==== Proof.LibOnlineSoftmax.lean ====
/-
  Online softmax on the extended reals.

  A running pair (M, Z) starts at (-∞, 0). A tile of scores with maximum c updates it to
      M' = max M c,      Z' = Z · exp (M - M') + ∑ₖ exp (sₖ - M').
  By induction on the number of tiles, M is the maximum m of all the scores seen and
  Z = ∑ exp (s - m) over them; the start is covered because exp (-∞) = 0 and 0 · 0 = 0 in the
  extended reals. At the end M + log Z = log ∑ exp s, since m + log ∑ exp (s - m) = log ∑ exp s for
  every real m. So a weight exp (a - (M + log Z)) is the real exp a / ∑ exp s, which is also what
  exp (a - mx) / ∑ exp (s - mx) is for every real shift mx.

  Everything is stated with the scalar operations of the extended-real float model:
  `Idealize.ShloMosaic.Ideal.exp`, `Ideal.log`, `Ideal.div`, and EReal's own `+ - * max`.
-/
import Idealize.ShloMosaic.PureOps.Ideal
import Mathlib.Analysis.SpecialFunctions.Log.Basic
import Mathlib.Algebra.BigOperators.Fin
import Mathlib.Algebra.Order.BigOperators.Ring.Finset

noncomputable section

namespace Cert.Lib.OnlineSoftmax

open Idealize.ShloMosaic
open scoped BigOperators

/-! ## (A) Values of the scalar operations, and the embedding of the reals -/

/-- The exponential of a finite extended real is the real exponential. -/
theorem exp_coe (a : ℝ) : Ideal.exp (a : EReal) = ((Real.exp a : ℝ) : EReal) := rfl

/-- The exponential of `-∞` is `0`. -/
theorem exp_bot : Ideal.exp (⊥ : EReal) = 0 := rfl

/-- The logarithm of a positive real is the real logarithm. -/
theorem log_coe_of_pos {z : ℝ} (hz : 0 < z) : Ideal.log (z : EReal) = ((Real.log z : ℝ) : EReal) := by
  rw [Ideal.log_coe, if_neg (not_le.2 hz)]

/-- `-∞` minus a real is `-∞`. -/
theorem ereal_bot_sub_coe (a : ℝ) : (⊥ : EReal) - (a : EReal) = ⊥ := EReal.bot_sub _

/-- `-∞` is neutral for `max`. -/
theorem ereal_max_bot (x : EReal) : max ⊥ x = x := max_eq_right bot_le

/-- The embedding of the reals commutes with `max`. -/
theorem ereal_coe_max (a b : ℝ) : ((max a b : ℝ) : EReal) = max (a : EReal) (b : EReal) :=
  EReal.coe_strictMono.monotone.map_max

/-- The embedding of the reals commutes with finite sums. -/
theorem ereal_coe_sum {ι : Type*} (S : Finset ι) (f : ι → ℝ) :
    ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- A finite sum of exponentials of shifted reals, computed in the extended reals, is the real sum. -/
theorem sum_exp_sub_coe {ι : Type*} (S : Finset ι) (b : ι → ℝ) (m : ℝ) :
    ∑ i ∈ S, Ideal.exp ((b i : EReal) - (m : EReal)) = ((∑ i ∈ S, Real.exp (b i - m) : ℝ) : EReal) := by
  rw [ereal_coe_sum]
  exact Finset.sum_congr rfl (fun i _ => rfl)

/-! ## Real identities behind the recurrence -/

/-- A nonempty finite sum of exponentials is positive. -/
theorem real_sum_exp_pos {ι : Type*} {S : Finset ι} (hS : S.Nonempty) (b : ι → ℝ) :
    0 < ∑ i ∈ S, Real.exp (b i) :=
  Finset.sum_pos (fun i _ => Real.exp_pos _) hS

/-- Shifting every exponent by `m` divides the sum of exponentials by `exp m`. -/
theorem real_sum_exp_sub {ι : Type*} (S : Finset ι) (b : ι → ℝ) (m : ℝ) :
    ∑ i ∈ S, Real.exp (b i - m) = (∑ i ∈ S, Real.exp (b i)) / Real.exp m := by
  rw [Finset.sum_div]
  exact Finset.sum_congr rfl (fun i _ => Real.exp_sub _ _)

/-- Rescaling a sum of exponentials shifted by `m` to the shift `m'`: multiply by `exp (m - m')`. -/
theorem real_rescale {ι : Type*} (S : Finset ι) (b : ι → ℝ) (m m' : ℝ) :
    (∑ i ∈ S, Real.exp (b i - m)) * Real.exp (m - m') = ∑ i ∈ S, Real.exp (b i - m') := by
  rw [Finset.sum_mul]
  refine Finset.sum_congr rfl (fun i _ => ?_)
  rw [← Real.exp_add]
  congr 1
  ring

/-- Log-sum-exp does not depend on the shift: `m + log ∑ exp (b i - m) = log ∑ exp (b i)`. -/
theorem real_lse {ι : Type*} {S : Finset ι} (hS : S.Nonempty) (b : ι → ℝ) (m : ℝ) :
    m + Real.log (∑ i ∈ S, Real.exp (b i - m)) = Real.log (∑ i ∈ S, Real.exp (b i)) := by
  rw [real_sum_exp_sub, Real.log_div (ne_of_gt (real_sum_exp_pos hS b)) (Real.exp_ne_zero m), Real.log_exp]
  ring

/-! ## (C), direct form -/

/-- Log-sum-exp from a finite running pair: if the maximum slot holds a real `m` and the sum slot holds
    `∑ exp (b i - m)` over a nonempty finite set, then `M + log Z` is `log ∑ exp (b i)`, whatever `m` is. -/
theorem lse_direct {ι : Type*} {S : Finset ι} (hS : S.Nonempty) (b : ι → ℝ) (m : ℝ) :
    (m : EReal) + Ideal.log (((∑ i ∈ S, Real.exp (b i - m) : ℝ)) : EReal)
      = ((Real.log (∑ i ∈ S, Real.exp (b i)) : ℝ) : EReal) := by
  rw [log_coe_of_pos (real_sum_exp_pos hS (fun i => b i - m)), ← EReal.coe_add, real_lse hS]

/-- The same with the sum computed in the extended reals. -/
theorem lse_direct' {ι : Type*} {S : Finset ι} (hS : S.Nonempty) (b : ι → ℝ) (m : ℝ) :
    (m : EReal) + Ideal.log (∑ i ∈ S, Ideal.exp ((b i : EReal) - (m : EReal)))
      = ((Real.log (∑ i ∈ S, Real.exp (b i)) : ℝ) : EReal) := by
  rw [sum_exp_sub_coe, lse_direct hS]

/-! ## (D) The two forms of a softmax weight -/

/-- Kernel form of a softmax weight: `exp (a - log ∑ exp (b i))` is the real `exp a / ∑ exp (b i)`. -/
theorem weight_kernel {ι : Type*} {S : Finset ι} (hS : S.Nonempty) (a : ℝ) (b : ι → ℝ) :
    Ideal.exp ((a : EReal) - ((Real.log (∑ i ∈ S, Real.exp (b i)) : ℝ) : EReal))
      = ((Real.exp a / ∑ i ∈ S, Real.exp (b i) : ℝ) : EReal) := by
  rw [← EReal.coe_sub, exp_coe, Real.exp_sub, Real.exp_log (real_sum_exp_pos hS b)]

/-- Reference form of a softmax weight: `exp (a - mx) / ∑ exp (b i - mx)`, for ANY real shift `mx`,
    is the same real `exp a / ∑ exp (b i)`. -/
theorem weight_reference {ι : Type*} {S : Finset ι} (hS : S.Nonempty) (a mx : ℝ) (b : ι → ℝ) :
    Ideal.div (Ideal.exp ((a : EReal) - (mx : EReal))) (∑ i ∈ S, Ideal.exp ((b i : EReal) - (mx : EReal)))
      = ((Real.exp a / ∑ i ∈ S, Real.exp (b i) : ℝ) : EReal) := by
  have hpos := real_sum_exp_pos hS (fun i => b i - mx)
  have hpos' := real_sum_exp_pos hS b
  rw [sum_exp_sub_coe, Ideal.div_coe (ne_of_gt hpos), ← EReal.coe_sub, exp_coe, ← EReal.coe_mul]
  congr 1
  rw [real_sum_exp_sub, Real.exp_sub]
  have h1 := Real.exp_pos mx
  field_simp

/-- Reference form with the host's `0 +` in front of the sum. -/
theorem weight_reference_zero_add {ι : Type*} {S : Finset ι} (hS : S.Nonempty) (a mx : ℝ) (b : ι → ℝ) :
    Ideal.div (Ideal.exp ((a : EReal) - (mx : EReal)))
        (0 + ∑ i ∈ S, Ideal.exp ((b i : EReal) - (mx : EReal)))
      = ((Real.exp a / ∑ i ∈ S, Real.exp (b i) : ℝ) : EReal) := by
  rw [zero_add, weight_reference hS]

/-- The two forms agree. -/
theorem weight_kernel_eq_reference {ι : Type*} {S : Finset ι} (hS : S.Nonempty) (a mx : ℝ) (b : ι → ℝ) :
    Ideal.exp ((a : EReal) - ((Real.log (∑ i ∈ S, Real.exp (b i)) : ℝ) : EReal))
      = Ideal.div (Ideal.exp ((a : EReal) - (mx : EReal)))
          (0 + ∑ i ∈ S, Ideal.exp ((b i : EReal) - (mx : EReal))) := by
  rw [weight_kernel hS, weight_reference_zero_add hS]

/-! ## (E) Reindexing a sum over `Fin (T * K)` by tiles -/

/-- The flat index of position `k` in tile `j` is in range. -/
theorem idx_lt {T K : ℕ} (j : Fin T) (k : Fin K) : j.val * K + k.val < T * K := by
  calc j.val * K + k.val < j.val * K + K := Nat.add_lt_add_left k.isLt _
    _ = (j.val + 1) * K := by ring
    _ ≤ T * K := Nat.mul_le_mul_right K j.isLt

/-- A sum over `Fin (T * K)` is the sum over the `T` tiles of the sums over the `K` positions of a tile. -/
theorem sum_fin_mul {M : Type*} [AddCommMonoid M] (T K : ℕ) (f : Fin (T * K) → M) :
    ∑ i : Fin (T * K), f i = ∑ j : Fin T, ∑ k : Fin K, f ⟨j.val * K + k.val, idx_lt j k⟩ := by
  rw [← Equiv.sum_comp finProdFinEquiv f, Fintype.sum_prod_type]
  refine Finset.sum_congr rfl (fun j _ => Finset.sum_congr rfl (fun k _ => ?_))
  congr 1
  apply Fin.ext
  rw [finProdFinEquiv_apply_val]
  show k.val + K * j.val = j.val * K + k.val
  ring

/-- The same for a function of the flat natural-number index. -/
theorem sum_fin_mul_nat {M : Type*} [AddCommMonoid M] (T K : ℕ) (g : ℕ → M) :
    ∑ i : Fin (T * K), g i.val = ∑ j : Fin T, ∑ k : Fin K, g (j.val * K + k.val) :=
  sum_fin_mul T K (fun i => g i.val)

/-- Four tiles, summed left-nested from `0` as a grid of four steps accumulates them. -/
theorem sum_four_tiles {M : Type*} [AddCommMonoid M] (K : ℕ) (f : Fin (4 * K) → M) :
    (((0 + ∑ k : Fin K, f ⟨0 * K + k.val, idx_lt (0 : Fin 4) k⟩)
        + ∑ k : Fin K, f ⟨1 * K + k.val, idx_lt (1 : Fin 4) k⟩)
        + ∑ k : Fin K, f ⟨2 * K + k.val, idx_lt (2 : Fin 4) k⟩)
        + ∑ k : Fin K, f ⟨3 * K + k.val, idx_lt (3 : Fin 4) k⟩
      = ∑ i : Fin (4 * K), f i := by
  rw [sum_fin_mul 4 K f, Fin.sum_univ_four, zero_add]
  rfl

/-- The literal case: 2048 terms in four tiles of 512. -/
theorem sum_2048_four_tiles {M : Type*} [AddCommMonoid M] (f : Fin 2048 → M) :
    (((0 + ∑ k : Fin 512, f ⟨k.val, by omega⟩)
        + ∑ k : Fin 512, f ⟨512 + k.val, by omega⟩)
        + ∑ k : Fin 512, f ⟨1024 + k.val, by omega⟩)
        + ∑ k : Fin 512, f ⟨1536 + k.val, by omega⟩
      = ∑ i : Fin 2048, f i := by
  have h := sum_four_tiles 512 (fun i : Fin (4 * 512) => f ⟨i.val, i.isLt⟩)
  rw [← h]
  simp only [Nat.zero_mul, Nat.zero_add, Nat.one_mul]

/-! ## (B) The online recurrence -/

section Step

variable {ι : Type*} [DecidableEq ι]

/-- The running pair `(M, Z)` after the reals `a i`, `i ∈ S`, have been seen: nothing seen and the pair is
    `(-∞, 0)`, or `S` is nonempty, `M` is the real maximum `m` of `a` over `S`, and `Z` is the real
    `∑ i ∈ S, exp (a i - m)`. -/
def Inv (a : ι → ℝ) (S : Finset ι) (M Z : EReal) : Prop :=
  (S = ∅ ∧ M = ⊥ ∧ Z = 0) ∨
    ∃ h : S.Nonempty, M = ((S.sup' h a : ℝ) : EReal) ∧
      Z = ((∑ i ∈ S, Real.exp (a i - S.sup' h a) : ℝ) : EReal)

/-- The start: nothing seen, the pair `(-∞, 0)`. -/
theorem inv_init (a : ι → ℝ) : Inv a ∅ ⊥ 0 := Or.inl ⟨rfl, rfl, rfl⟩

/-- The invariant at a nonempty set, unfolded. -/
theorem inv_of_nonempty {a : ι → ℝ} {S : Finset ι} {M Z : EReal} (h : Inv a S M Z) (hS : S.Nonempty) :
    M = ((S.sup' hS a : ℝ) : EReal) ∧ Z = ((∑ i ∈ S, Real.exp (a i - S.sup' hS a) : ℝ) : EReal) := by
  rcases h with ⟨h0, -, -⟩ | ⟨_, hM, hZ⟩
  · exact absurd h0 hS.ne_empty
  · exact ⟨hM, hZ⟩

/-- The maximum over a set does not depend on how the set is written. -/
theorem sup'_congr_set {a : ι → ℝ} {A B : Finset ι} (hA : A.Nonempty) (hB : B.Nonempty) (h : A = B) :
    A.sup' hA a = B.sup' hB a := by
  subst h; rfl

/-- ONE STEP of the online recurrence. From a pair satisfying the invariant on the seen set `S`, a new nonempty
    tile `N` disjoint from `S`, with tile maximum `c`: the new maximum `max M c` and the rescaled sum
    `Z * exp (M - max M c) + ∑ i ∈ N, exp (a i - max M c)` satisfy the invariant on `S ∪ N`. The start
    `(-∞, 0)` is covered: there `exp (-∞ - c) = 0` and `0 * 0 = 0`. -/
theorem inv_step {a : ι → ℝ} {S N : Finset ι} {M Z c : EReal} (h : Inv a S M Z) (hN : N.Nonempty)
    (hd : Disjoint S N) (hc : c = ((N.sup' hN a : ℝ) : EReal)) :
    Inv a (S ∪ N) (max M c)
      (Z * Ideal.exp (M - max M c) + ∑ i ∈ N, Ideal.exp ((a i : EReal) - max M c)) := by
  subst hc
  rcases h with ⟨hS, hM, hZ⟩ | ⟨hS, hM, hZ⟩
  · subst hS hM hZ
    have hU : (∅ ∪ N).Nonempty := by rw [Finset.empty_union]; exact hN
    have hm : N.sup' hN a = (∅ ∪ N).sup' hU a := sup'_congr_set hN hU (Finset.empty_union N).symm
    refine Or.inr ⟨hU, ?_, ?_⟩
    · rw [ereal_max_bot, hm]
    · rw [ereal_max_bot, zero_mul, zero_add, sum_exp_sub_coe, hm]
      congr 1
      exact Finset.sum_congr (Finset.empty_union N).symm (fun _ _ => rfl)
  · subst hM hZ
    have hU : (S ∪ N).Nonempty := hS.mono Finset.subset_union_left
    have hmax : max ((S.sup' hS a : ℝ) : EReal) ((N.sup' hN a : ℝ) : EReal)
        = (((S ∪ N).sup' hU a : ℝ) : EReal) := by
      rw [← ereal_coe_max, Finset.sup'_union hS hN]
    refine Or.inr ⟨hU, hmax, ?_⟩
    rw [hmax, sum_exp_sub_coe, ← EReal.coe_sub, exp_coe, ← EReal.coe_mul, ← EReal.coe_add, real_rescale,
      Finset.sum_union hd]

/-- The step with the host's `0 +` in front of the tile's sum. -/
theorem inv_step_zero_add {a : ι → ℝ} {S N : Finset ι} {M Z c : EReal} (h : Inv a S M Z) (hN : N.Nonempty)
    (hd : Disjoint S N) (hc : c = ((N.sup' hN a : ℝ) : EReal)) :
    Inv a (S ∪ N) (max M c)
      (Z * Ideal.exp (M - max M c) + (0 + ∑ i ∈ N, Ideal.exp ((a i : EReal) - max M c))) := by
  rw [zero_add]; exact inv_step h hN hd hc

/-- (C) from the invariant: once something has been seen, `M + log Z` is the log-sum-exp of what was seen. -/
theorem inv_lse {a : ι → ℝ} {S : Finset ι} {M Z : EReal} (h : Inv a S M Z) (hS : S.Nonempty) :
    M + Ideal.log Z = ((Real.log (∑ i ∈ S, Real.exp (a i)) : ℝ) : EReal) := by
  obtain ⟨hM, hZ⟩ := inv_of_nonempty h hS
  rw [hM, hZ, lse_direct hS]

end Step

/-! ## The tile maximum as a fold of `max` from `-∞` -/

/-- The embedding of the reals commutes with the maximum over a nonempty finite set. -/
theorem ereal_coe_sup' {κ : Type*} {S : Finset κ} (hS : S.Nonempty) (r : κ → ℝ) :
    ((S.sup' hS r : ℝ) : EReal) = S.sup' hS (fun k => (r k : EReal)) :=
  Finset.comp_sup'_eq_sup'_comp hS (fun x : ℝ => (x : EReal)) ereal_coe_max

/-- The supremum (from `-∞`) of finitely many reals, taken in the extended reals, is their real maximum. -/
theorem sup_coe_eq {κ : Type*} {S : Finset κ} (hS : S.Nonempty) (r : κ → ℝ) :
    S.sup (fun k => (r k : EReal)) = ((S.sup' hS r : ℝ) : EReal) := by
  rw [ereal_coe_sup' hS, Finset.sup'_eq_sup]

/-- The fold of `max` from `-∞` over finitely many reals is their real maximum. -/
theorem fold_max_coe_eq {κ : Type*} {S : Finset κ} (hS : S.Nonempty) (r : κ → ℝ) :
    S.fold max (⊥ : EReal) (fun k => (r k : EReal)) = ((S.sup' hS r : ℝ) : EReal) :=
  sup_coe_eq hS r

/-- A row of `0 < K` positions is nonempty. -/
theorem row_nonempty {K : ℕ} (hK : 0 < K) : (Finset.univ : Finset (Fin K)).Nonempty :=
  ⟨⟨0, hK⟩, Finset.mem_univ _⟩

/-- The row form: the fold of `max` from `-∞` over a whole row `Fin K`, `0 < K`. -/
theorem fold_max_row {K : ℕ} (hK : 0 < K) (r : Fin K → ℝ) :
    (Finset.univ : Finset (Fin K)).fold max (⊥ : EReal) (fun k => (r k : EReal))
      = ((Finset.univ.sup' (row_nonempty hK) r : ℝ) : EReal) :=
  fold_max_coe_eq _ r

/-- The row form with `Finset.sup`. -/
theorem sup_row {K : ℕ} (hK : 0 < K) (r : Fin K → ℝ) :
    (Finset.univ : Finset (Fin K)).sup (fun k => (r k : EReal))
      = ((Finset.univ.sup' (row_nonempty hK) r : ℝ) : EReal) :=
  sup_coe_eq _ r

/-! ## Tiles of a `T × K` array of scores -/

section Tiles

variable {T K : ℕ}

/-- Tile `j`: the positions `(j, k)`, `k : Fin K`. -/
def tile (T K : ℕ) (j : Fin T) : Finset (Fin T × Fin K) := Finset.univ.image (fun k => (j, k))

/-- The positions of the first `n` tiles. -/
def seen (T K n : ℕ) : Finset (Fin T × Fin K) := Finset.univ.filter (fun p => p.1.val < n)

/-- Membership in a tile. -/
theorem mem_tile {j : Fin T} {p : Fin T × Fin K} : p ∈ tile T K j ↔ p.1 = j := by
  constructor
  · intro h
    obtain ⟨k, -, rfl⟩ := Finset.mem_image.1 h
    rfl
  · intro h
    exact Finset.mem_image.2 ⟨p.2, Finset.mem_univ _, by rw [← h]⟩

/-- Membership in the first `n` tiles. -/
theorem mem_seen {n : ℕ} {p : Fin T × Fin K} : p ∈ seen T K n ↔ p.1.val < n := by
  rw [seen, Finset.mem_filter]
  exact ⟨fun h => h.2, fun h => ⟨Finset.mem_univ _, h⟩⟩

/-- A tile with `0 < K` positions is nonempty. -/
theorem tile_nonempty (hK : 0 < K) (j : Fin T) : (tile T K j).Nonempty :=
  ⟨(j, ⟨0, hK⟩), mem_tile.2 rfl⟩

/-- Before any tile nothing is seen. -/
theorem seen_zero : seen T K 0 = ∅ := by
  apply Finset.eq_empty_of_forall_notMem
  intro p hp
  exact absurd (mem_seen.1 hp) (Nat.not_lt_zero _)

/-- After tile `n` the seen positions are those before, and tile `n`. -/
theorem seen_succ {n : ℕ} (h : n < T) : seen T K (n + 1) = seen T K n ∪ tile T K ⟨n, h⟩ := by
  ext p
  rw [Finset.mem_union, mem_seen, mem_seen, mem_tile]
  constructor
  · intro hp
    rcases Nat.lt_succ_iff_lt_or_eq.1 hp with h1 | h1
    · exact Or.inl h1
    · exact Or.inr (Fin.ext h1)
  · rintro (h1 | h1)
    · exact Nat.lt_succ_of_lt h1
    · rw [h1]; exact Nat.lt_succ_self n

/-- Tile `n` is new. -/
theorem seen_disjoint_tile {n : ℕ} (h : n < T) : Disjoint (seen T K n) (tile T K ⟨n, h⟩) := by
  rw [Finset.disjoint_left]
  intro p hp hq
  have h1 := mem_seen.1 hp
  have h2 := mem_tile.1 hq
  rw [h2] at h1
  exact absurd h1 (lt_irrefl n)

/-- After all `T` tiles every position is seen. -/
theorem seen_all : seen T K T = Finset.univ := by
  ext p
  rw [mem_seen]
  exact ⟨fun _ => Finset.mem_univ _, fun _ => p.1.isLt⟩

/-- A sum over a tile is the sum over its `K` positions. -/
theorem sum_tile {M : Type*} [AddCommMonoid M] (j : Fin T) (g : Fin T × Fin K → M) :
    ∑ p ∈ tile T K j, g p = ∑ k : Fin K, g (j, k) :=
  Finset.sum_image (fun x _ y _ hxy => (Prod.mk.inj hxy).2)

/-- The maximum over a tile is the maximum over its `K` positions. -/
theorem sup'_tile (hK : 0 < K) (j : Fin T) (a : Fin T × Fin K → ℝ) :
    (tile T K j).sup' (tile_nonempty hK j) a
      = Finset.univ.sup' (row_nonempty hK) (fun k : Fin K => a (j, k)) := by
  apply le_antisymm
  · refine Finset.sup'_le _ _ (fun p hp => ?_)
    have hp1 : p = (j, p.2) := by rw [← mem_tile.1 hp]
    rw [hp1]
    exact Finset.le_sup' (fun k : Fin K => a (j, k)) (Finset.mem_univ p.2)
  · refine Finset.sup'_le _ _ (fun k _ => ?_)
    exact Finset.le_sup' a (mem_tile.2 rfl)

end Tiles

/-! ## The recurrence over the tiles, and its result -/

section Recurrence

variable {T K : ℕ}

/-- The scores as one family on the positions `(j, k)`. -/
def flat (s : Fin T → Fin K → ℝ) : Fin T × Fin K → ℝ := fun p => s p.1 p.2

/-- After at least one tile something has been seen. -/
theorem seen_nonempty (hK : 0 < K) {n : ℕ} (hn : 0 < n) (hnT : n ≤ T) : (seen T K n).Nonempty :=
  ⟨(⟨0, lt_of_lt_of_le hn hnT⟩, ⟨0, hK⟩), mem_seen.2 hn⟩

/-- THE INVARIANT OF THE ONLINE RECURRENCE, for any two sequences that satisfy it. `M 0 = -∞`, `Z 0 = 0`;
    tile `n` has maximum `c n` (the real maximum of its `K` scores); `M (n+1) = max (M n) (c n)` and
    `Z (n+1) = Z n * exp (M n - M (n+1)) + ∑ k, exp (s n k - M (n+1))`. Then after `n ≤ T` tiles the pair
    `(M n, Z n)` satisfies `Inv` on the positions of the first `n` tiles: `M n` is the real maximum `mₙ` of the
    scores seen and `Z n` is the real sum of `exp (s j k - mₙ)` over them. -/
theorem online_inv (hK : 0 < K) (s : Fin T → Fin K → ℝ) (M Z : ℕ → EReal) (c : ∀ n, n < T → EReal)
    (hc : ∀ n (h : n < T), c n h = ((Finset.univ.sup' (row_nonempty hK) (s ⟨n, h⟩) : ℝ) : EReal))
    (hM0 : M 0 = ⊥) (hZ0 : Z 0 = 0)
    (hM : ∀ n (h : n < T), M (n + 1) = max (M n) (c n h))
    (hZ : ∀ n (h : n < T), Z (n + 1) = Z n * Ideal.exp (M n - M (n + 1))
      + ∑ k : Fin K, Ideal.exp ((s ⟨n, h⟩ k : EReal) - M (n + 1))) :
    ∀ n, n ≤ T → Inv (flat s) (seen T K n) (M n) (Z n) := by
  intro n
  induction n with
  | zero =>
    intro _
    rw [seen_zero, hM0, hZ0]
    exact inv_init _
  | succ n ih =>
    intro hn
    have h : n < T := hn
    have ih' := ih (le_of_lt h)
    have hc' : c n h = (((tile T K ⟨n, h⟩).sup' (tile_nonempty hK _) (flat s) : ℝ) : EReal) := by
      rw [hc n h]
      exact congrArg _ (sup'_tile hK ⟨n, h⟩ (flat s)).symm
    have key := inv_step ih' (tile_nonempty hK ⟨n, h⟩) (seen_disjoint_tile h) hc'
    rw [sum_tile] at key
    rw [seen_succ h, hZ n h, hM n h]
    exact key

/-- The running maximum and sum after `n` tiles, `1 ≤ n ≤ T`, as reals. -/
theorem online_values (hK : 0 < K) (s : Fin T → Fin K → ℝ) (M Z : ℕ → EReal) (c : ∀ n, n < T → EReal)
    (hc : ∀ n (h : n < T), c n h = ((Finset.univ.sup' (row_nonempty hK) (s ⟨n, h⟩) : ℝ) : EReal))
    (hM0 : M 0 = ⊥) (hZ0 : Z 0 = 0)
    (hM : ∀ n (h : n < T), M (n + 1) = max (M n) (c n h))
    (hZ : ∀ n (h : n < T), Z (n + 1) = Z n * Ideal.exp (M n - M (n + 1))
      + ∑ k : Fin K, Ideal.exp ((s ⟨n, h⟩ k : EReal) - M (n + 1)))
    {n : ℕ} (hn : 0 < n) (hnT : n ≤ T) :
    M n = (((seen T K n).sup' (seen_nonempty hK hn hnT) (flat s) : ℝ) : EReal) ∧
      Z n = ((∑ p ∈ seen T K n,
        Real.exp (flat s p - (seen T K n).sup' (seen_nonempty hK hn hnT) (flat s)) : ℝ) : EReal) :=
  inv_of_nonempty (online_inv hK s M Z c hc hM0 hZ0 hM hZ n hnT) (seen_nonempty hK hn hnT)

/-- (C) THE RESULT: after all `T` tiles, `M T + log (Z T)` is the log-sum-exp of all `T * K` scores. -/
theorem online_lse (hT : 0 < T) (hK : 0 < K) (s : Fin T → Fin K → ℝ) (M Z : ℕ → EReal)
    (c : ∀ n, n < T → EReal)
    (hc : ∀ n (h : n < T), c n h = ((Finset.univ.sup' (row_nonempty hK) (s ⟨n, h⟩) : ℝ) : EReal))
    (hM0 : M 0 = ⊥) (hZ0 : Z 0 = 0)
    (hM : ∀ n (h : n < T), M (n + 1) = max (M n) (c n h))
    (hZ : ∀ n (h : n < T), Z (n + 1) = Z n * Ideal.exp (M n - M (n + 1))
      + ∑ k : Fin K, Ideal.exp ((s ⟨n, h⟩ k : EReal) - M (n + 1))) :
    M T + Ideal.log (Z T) = ((Real.log (∑ j : Fin T, ∑ k : Fin K, Real.exp (s j k)) : ℝ) : EReal) := by
  have h := online_inv hK s M Z c hc hM0 hZ0 hM hZ T le_rfl
  rw [seen_all] at h
  have hne : (Finset.univ : Finset (Fin T × Fin K)).Nonempty :=
    ⟨(⟨0, hT⟩, ⟨0, hK⟩), Finset.mem_univ _⟩
  rw [inv_lse h hne, Fintype.sum_prod_type]
  rfl

/-! ### The recurrence as a function -/

/-- One step on a pair `p = (M, Z)` with tile maximum `c` and the tile's scores `row`. -/
def stepWith (c : EReal) (row : Fin K → ℝ) (p : EReal × EReal) : EReal × EReal :=
  (max p.1 c,
    p.2 * Ideal.exp (p.1 - max p.1 c) + ∑ k : Fin K, Ideal.exp ((row k : EReal) - max p.1 c))

/-- One step with the tile maximum computed as the fold of `max` from `-∞`. -/
def step (row : Fin K → ℝ) (p : EReal × EReal) : EReal × EReal :=
  stepWith ((Finset.univ : Finset (Fin K)).fold max (⊥ : EReal) (fun k => (row k : EReal))) row p

/-- The pair after `n` tiles, from `(-∞, 0)`; past the last tile it stays. -/
def run (s : Fin T → Fin K → ℝ) : ℕ → EReal × EReal
  | 0 => (⊥, 0)
  | n + 1 => if h : n < T then step (s ⟨n, h⟩) (run s n) else run s n

/-- The start of the run. -/
theorem run_zero (s : Fin T → Fin K → ℝ) : run s 0 = (⊥, 0) := rfl

/-- One more tile of the run. -/
theorem run_succ (s : Fin T → Fin K → ℝ) {n : ℕ} (h : n < T) :
    run s (n + 1) = step (s ⟨n, h⟩) (run s n) := by
  rw [run, dif_pos h]

/-- The run satisfies the invariant after every `n ≤ T` tiles. -/
theorem run_inv (hK : 0 < K) (s : Fin T → Fin K → ℝ) :
    ∀ n, n ≤ T → Inv (flat s) (seen T K n) (run s n).1 (run s n).2 :=
  online_inv hK s (fun n => (run s n).1) (fun n => (run s n).2)
    (fun n h => (Finset.univ : Finset (Fin K)).fold max (⊥ : EReal) (fun k => (s ⟨n, h⟩ k : EReal)))
    (fun n h => fold_max_row hK (s ⟨n, h⟩)) rfl rfl
    (fun n h => by show (run s (n + 1)).1 = _; rw [run_succ s h]; rfl)
    (fun n h => by
      show (run s (n + 1)).2 = _ * Ideal.exp (_ - (run s (n + 1)).1) + ∑ k : Fin K, Ideal.exp (_ - (run s (n + 1)).1)
      rw [run_succ s h]; rfl)

/-- (C) for the run: after all tiles, `M + log Z` is the log-sum-exp of all the scores. -/
theorem run_lse (hT : 0 < T) (hK : 0 < K) (s : Fin T → Fin K → ℝ) :
    (run s T).1 + Ideal.log (run s T).2
      = ((Real.log (∑ j : Fin T, ∑ k : Fin K, Real.exp (s j k)) : ℝ) : EReal) := by
  have h := run_inv hK s T le_rfl
  rw [seen_all] at h
  have hne : (Finset.univ : Finset (Fin T × Fin K)).Nonempty :=
    ⟨(⟨0, hT⟩, ⟨0, hK⟩), Finset.mem_univ _⟩
  rw [inv_lse h hne, Fintype.sum_prod_type]
  rfl

/-- Four tiles, unrolled. -/
theorem run_four (s : Fin 4 → Fin K → ℝ) :
    run s 4 = step (s 3) (step (s 2) (step (s 1) (step (s 0) (⊥, 0)))) := by
  rw [run_succ s (by norm_num : 3 < 4), run_succ s (by norm_num : 2 < 4), run_succ s (by norm_num : 1 < 4),
    run_succ s (by norm_num : 0 < 4), run_zero]
  rfl

/-- (C) for four unrolled tiles. -/
theorem lse_four (hK : 0 < K) (s : Fin 4 → Fin K → ℝ) :
    (step (s 3) (step (s 2) (step (s 1) (step (s 0) (⊥, 0))))).1
        + Ideal.log (step (s 3) (step (s 2) (step (s 1) (step (s 0) (⊥, 0))))).2
      = ((Real.log (∑ j : Fin 4, ∑ k : Fin K, Real.exp (s j k)) : ℝ) : EReal) := by
  rw [← run_four, run_lse (by norm_num) hK]

end Recurrence

/-! ## The kernel's and the reference's softmax weight, over tiles -/

/-- A sum over `Fin 2048` is the sum over four tiles of 512 positions. -/
theorem sum_fin_2048 {M : Type*} [AddCommMonoid M] (f : Fin 2048 → M) :
    ∑ i : Fin 2048, f i
      = ∑ j : Fin 4, ∑ k : Fin 512, f ⟨j.val * 512 + k.val, idx_lt (T := 4) (K := 512) j k⟩ :=
  sum_fin_mul 4 512 (fun i : Fin (4 * 512) => f ⟨i.val, i.isLt⟩)

/-- The weight `exp (a - L)`, with `L` the log-sum-exp accumulated tile by tile over `T` tiles of `K` scores
    `b`, is the reference's `exp (a - mx) / (0 + ∑ exp (b i - mx))` over all `T * K` scores at once, for any
    real shift `mx`. -/
theorem weight_tiles_eq_reference {T K : ℕ} (hT : 0 < T) (hK : 0 < K) (a mx : ℝ) (b : Fin (T * K) → ℝ) :
    Ideal.exp ((a : EReal)
        - ((Real.log (∑ j : Fin T, ∑ k : Fin K, Real.exp (b ⟨j.val * K + k.val, idx_lt j k⟩)) : ℝ) : EReal))
      = Ideal.div (Ideal.exp ((a : EReal) - (mx : EReal)))
          (0 + ∑ i : Fin (T * K), Ideal.exp ((b i : EReal) - (mx : EReal))) := by
  rw [← sum_fin_mul T K (fun i => Real.exp (b i))]
  exact weight_kernel_eq_reference ⟨⟨0, Nat.mul_pos hT hK⟩, Finset.mem_univ _⟩ a mx b

/-- The literal case: four tiles of 512 scores against all 2048 at once. -/
theorem weight_2048_eq_reference (a mx : ℝ) (b : Fin 2048 → ℝ) :
    Ideal.exp ((a : EReal)
        - ((Real.log (∑ j : Fin 4, ∑ k : Fin 512,
            Real.exp (b ⟨j.val * 512 + k.val, idx_lt (T := 4) (K := 512) j k⟩)) : ℝ) : EReal))
      = Ideal.div (Ideal.exp ((a : EReal) - (mx : EReal)))
          (0 + ∑ i : Fin 2048, Ideal.exp ((b i : EReal) - (mx : EReal))) :=
  weight_tiles_eq_reference (T := 4) (K := 512) (by norm_num) (by norm_num) a mx
    (fun i : Fin (4 * 512) => b ⟨i.val, i.isLt⟩)

end Cert.Lib.OnlineSoftmax

end
-- ==== Proof.SoftmaxMath.lean ====
/-
  The softmax mathematics of causal attention, with no program in sight.

  (1) The running triple of the online softmax. A maximum M, a normaliser Z and an accumulator A start at
      (-∞, 0, 0). A new tile N of positions with tile maximum c updates them to
          M' = max M c,
          Z' = exp (M - M') · Z + ∑_{i ∈ N} exp (aᵢ - M'),
          A' = exp (M - M') · A + ∑_{i ∈ N} exp (aᵢ - M') · vᵢ.
      By induction M is the real maximum m of the scores seen, Z = ∑ exp (aᵢ - m) and A = ∑ exp (aᵢ - m) · vᵢ
      over them (the start is covered because exp (-∞) = 0 and x · 0 = 0). At the end A / Z is the shift-free
      quotient (∑ exp aᵢ · vᵢ) / (∑ exp aᵢ), because the common factor exp (-m) cancels.

  (2) A row of scores that is real on a nonempty set L of live positions and -∞ elsewhere: the fold of max from
      -∞ is the real maximum over L, and every sum of exp (zₖ - m) (times a value) over the whole row is the sum
      over L, since the dead positions contribute exp (-∞) = 0.

  (3) The softmax-weighted mean written with its row maximum, on a causally masked row of real scores, is the
      shift-free real quotient over the visible positions.
-/
import Idealize.ShloMosaic.PureOps.Ideal
import proofs.«175069_j80315888436070_2_alg».proof.Proof.Spec
import proofs.«175069_j80315888436070_2_alg».proof.Proof.LibOnlineSoftmax

noncomputable section

namespace Cert.SoftmaxMath

open Idealize.ShloMosaic Cert.Spec Cert.Lib.OnlineSoftmax
open scoped BigOperators

/-! ## Real identities -/

/-- Rescaling a sum of exponentials shifted by `m` to the shift `m'`, with the factor on the left. -/
theorem real_rescale_left {ι : Type*} (S : Finset ι) (b : ι → ℝ) (m m' : ℝ) :
    Real.exp (m - m') * ∑ i ∈ S, Real.exp (b i - m) = ∑ i ∈ S, Real.exp (b i - m') := by
  rw [mul_comm, real_rescale]

/-- Rescaling a weighted sum of exponentials shifted by `m` to the shift `m'`. -/
theorem real_rescale_mul {ι : Type*} (S : Finset ι) (b v : ι → ℝ) (m m' : ℝ) :
    Real.exp (m - m') * ∑ i ∈ S, Real.exp (b i - m) * v i = ∑ i ∈ S, Real.exp (b i - m') * v i := by
  rw [Finset.mul_sum]
  refine Finset.sum_congr rfl (fun i _ => ?_)
  rw [← mul_assoc, ← Real.exp_add]
  congr 2
  ring

/-- Shifting every exponent by `m` divides a weighted sum of exponentials by `exp m`. -/
theorem real_sum_exp_sub_mul {ι : Type*} (S : Finset ι) (b v : ι → ℝ) (m : ℝ) :
    ∑ i ∈ S, Real.exp (b i - m) * v i = (∑ i ∈ S, Real.exp (b i) * v i) / Real.exp m := by
  rw [Finset.sum_div]
  refine Finset.sum_congr rfl (fun i _ => ?_)
  rw [Real.exp_sub]
  ring

/-- The exp-weighted mean does not depend on the shift. -/
theorem real_quot_shift {ι : Type*} (S : Finset ι) (b v : ι → ℝ) (m : ℝ) :
    (∑ i ∈ S, Real.exp (b i - m) * v i) / (∑ i ∈ S, Real.exp (b i - m))
      = (∑ i ∈ S, Real.exp (b i) * v i) / ∑ i ∈ S, Real.exp (b i) := by
  rw [real_sum_exp_sub_mul, real_sum_exp_sub, div_div_div_cancel_right₀ (Real.exp_ne_zero m)]

/-- A finite weighted sum of exponentials of shifted reals, computed in the extended reals, is the real sum. -/
theorem sum_exp_sub_mul_coe {ι : Type*} (S : Finset ι) (b v : ι → ℝ) (m : ℝ) :
    ∑ i ∈ S, Ideal.exp ((b i : EReal) - (m : EReal)) * (v i : EReal)
      = ((∑ i ∈ S, Real.exp (b i - m) * v i : ℝ) : EReal) := by
  rw [ereal_coe_sum]
  refine Finset.sum_congr rfl (fun i _ => ?_)
  rw [← EReal.coe_sub, exp_coe, ← EReal.coe_mul]

/-! ## The online recurrence with an accumulator -/

section Step

variable {ι : Type*} [DecidableEq ι]

/-- The running triple `(M, Z, A)` after the scores `a i` and values `v i`, `i ∈ S`, have been seen: nothing seen
    and the triple is `(-∞, 0, 0)`, or `S` is nonempty, `M` is the real maximum `m` of `a` over `S`, `Z` is the real
    `∑ i ∈ S, exp (a i - m)` and `A` is the real `∑ i ∈ S, exp (a i - m) * v i`. -/
def Inv3 (a v : ι → ℝ) (S : Finset ι) (M Z A : EReal) : Prop :=
  (S = ∅ ∧ M = ⊥ ∧ Z = 0 ∧ A = 0) ∨
    ∃ h : S.Nonempty, M = ((S.sup' h a : ℝ) : EReal) ∧
      Z = ((∑ i ∈ S, Real.exp (a i - S.sup' h a) : ℝ) : EReal) ∧
      A = ((∑ i ∈ S, Real.exp (a i - S.sup' h a) * v i : ℝ) : EReal)

/-- The start: nothing seen, the triple `(-∞, 0, 0)`. -/
theorem inv3_init (a v : ι → ℝ) : Inv3 a v ∅ ⊥ 0 0 := Or.inl ⟨rfl, rfl, rfl, rfl⟩

/-- The invariant at a nonempty set, unfolded. -/
theorem inv3_of_nonempty {a v : ι → ℝ} {S : Finset ι} {M Z A : EReal} (h : Inv3 a v S M Z A) (hS : S.Nonempty) :
    M = ((S.sup' hS a : ℝ) : EReal) ∧ Z = ((∑ i ∈ S, Real.exp (a i - S.sup' hS a) : ℝ) : EReal) ∧
      A = ((∑ i ∈ S, Real.exp (a i - S.sup' hS a) * v i : ℝ) : EReal) := by
  rcases h with ⟨h0, -, -, -⟩ | ⟨_, hM, hZ, hA⟩
  · exact absurd h0 hS.ne_empty
  · exact ⟨hM, hZ, hA⟩

/-- The triple carries the pair of the recurrence without an accumulator. -/
theorem Inv3.inv {a v : ι → ℝ} {S : Finset ι} {M Z A : EReal} (h : Inv3 a v S M Z A) : Inv a S M Z := by
  rcases h with ⟨h0, hM, hZ, -⟩ | ⟨hS, hM, hZ, -⟩
  · exact Or.inl ⟨h0, hM, hZ⟩
  · exact Or.inr ⟨hS, hM, hZ⟩

/-- ONE STEP of the recurrence. From a triple satisfying the invariant on the seen set `S`, a new nonempty tile
    `N` disjoint from `S`, with tile maximum `c`: the new maximum `max M c`, the rescaled normaliser and the
    rescaled accumulator satisfy the invariant on `S ∪ N`. The start `(-∞, 0, 0)` is covered: there the old
    normaliser and accumulator are `0`, and anything times `0` is `0`. -/
theorem inv3_step {a v : ι → ℝ} {S N : Finset ι} {M Z A c : EReal} (h : Inv3 a v S M Z A) (hN : N.Nonempty)
    (hd : Disjoint S N) (hc : c = ((N.sup' hN a : ℝ) : EReal)) :
    Inv3 a v (S ∪ N) (max M c)
      (Ideal.exp (M - max M c) * Z + ∑ i ∈ N, Ideal.exp ((a i : EReal) - max M c))
      (Ideal.exp (M - max M c) * A + ∑ i ∈ N, Ideal.exp ((a i : EReal) - max M c) * (v i : EReal)) := by
  subst hc
  rcases h with ⟨hS, hM, hZ, hA⟩ | ⟨hS, hM, hZ, hA⟩
  · subst hS hM hZ hA
    have hU : (∅ ∪ N).Nonempty := by rw [Finset.empty_union]; exact hN
    have hm : N.sup' hN a = (∅ ∪ N).sup' hU a := sup'_congr_set hN hU (Finset.empty_union N).symm
    refine Or.inr ⟨hU, ?_, ?_, ?_⟩
    · rw [ereal_max_bot, hm]
    · rw [ereal_max_bot, mul_zero, zero_add, sum_exp_sub_coe, hm]
      congr 1
      exact Finset.sum_congr (Finset.empty_union N).symm (fun _ _ => rfl)
    · rw [ereal_max_bot, mul_zero, zero_add, sum_exp_sub_mul_coe, hm]
      congr 1
      exact Finset.sum_congr (Finset.empty_union N).symm (fun _ _ => rfl)
  · subst hM hZ hA
    have hU : (S ∪ N).Nonempty := hS.mono Finset.subset_union_left
    have hmax : max ((S.sup' hS a : ℝ) : EReal) ((N.sup' hN a : ℝ) : EReal)
        = (((S ∪ N).sup' hU a : ℝ) : EReal) := by
      rw [← ereal_coe_max, Finset.sup'_union hS hN]
    refine Or.inr ⟨hU, hmax, ?_, ?_⟩
    · rw [hmax, sum_exp_sub_coe, ← EReal.coe_sub, exp_coe, ← EReal.coe_mul, ← EReal.coe_add, real_rescale_left,
        Finset.sum_union hd]
    · rw [hmax, sum_exp_sub_mul_coe, ← EReal.coe_sub, exp_coe, ← EReal.coe_mul, ← EReal.coe_add, real_rescale_mul,
        Finset.sum_union hd]

/-- THE RESULT: once something has been seen, accumulator over normaliser is the shift-free exp-weighted mean. -/
theorem inv3_final {a v : ι → ℝ} {S : Finset ι} {M Z A : EReal} (h : Inv3 a v S M Z A) (hS : S.Nonempty) :
    Ideal.div A Z = (((∑ i ∈ S, Real.exp (a i) * v i) / ∑ i ∈ S, Real.exp (a i) : ℝ) : EReal) := by
  obtain ⟨-, hZ, hA⟩ := inv3_of_nonempty h hS
  have hpos := real_sum_exp_pos hS (fun i => a i - S.sup' hS a)
  rw [hZ, hA, Ideal.div_coe (ne_of_gt hpos), ← EReal.coe_mul, mul_one_div, real_quot_shift]

end Step

/-! ## A row that is real on a live set and -∞ elsewhere -/

section Live

variable {κ : Type*} [Fintype κ]

/-- The float word of `-∞` denotes `-∞`. -/
theorem negInf_eq_bot : Ideal.ofBits .f32 0xFF800000#32 = (⊥ : EReal) := by
  simp [Ideal.ofBits, Ideal.ieee]

/-- The fold of `max` from `-∞` over a whole row is the real maximum over its live positions. -/
theorem fold_max_live {L : Finset κ} (hL : L.Nonempty) (a : κ → ℝ) (z : κ → EReal)
    (hin : ∀ k ∈ L, z k = ((a k : ℝ) : EReal)) (hout : ∀ k, k ∉ L → z k = ⊥) :
    (Finset.univ : Finset κ).fold max (⊥ : EReal) z = ((L.sup' hL a : ℝ) : EReal) := by
  classical
  have h1 : (Finset.univ : Finset κ).sup z = L.sup z := by
    apply le_antisymm
    · refine Finset.sup_le (fun k _ => ?_)
      by_cases hk : k ∈ L
      · exact Finset.le_sup hk
      · rw [hout k hk]; exact bot_le
    · exact Finset.sup_mono (Finset.subset_univ L)
  have h2 : L.sup z = L.sup (fun k => ((a k : ℝ) : EReal)) := Finset.sup_congr rfl hin
  show (Finset.univ : Finset κ).sup z = _
  rw [h1, h2, sup_coe_eq hL]

/-- The same with the fold's start written as the float word of `-∞`. -/
theorem fold_max_live_word {L : Finset κ} (hL : L.Nonempty) (a : κ → ℝ) (z : κ → EReal)
    (hin : ∀ k ∈ L, z k = ((a k : ℝ) : EReal)) (hout : ∀ k, k ∉ L → z k = ⊥) :
    (Finset.univ : Finset κ).fold max (Ideal.ofBits .f32 0xFF800000#32 : EReal) z = ((L.sup' hL a : ℝ) : EReal) := by
  rw [negInf_eq_bot]; exact fold_max_live hL a z hin hout

/-- The sum of the exponentials over a whole row is the sum over its live positions. -/
theorem sum_exp_live (L : Finset κ) (a : κ → ℝ) (z : κ → EReal)
    (hin : ∀ k ∈ L, z k = ((a k : ℝ) : EReal)) (hout : ∀ k, k ∉ L → z k = ⊥) (m : ℝ) :
    ∑ k, Ideal.exp (z k - (m : EReal)) = ∑ k ∈ L, Ideal.exp ((a k : EReal) - (m : EReal)) := by
  rw [← Finset.sum_subset (Finset.subset_univ L)
    (fun k _ hk => by rw [hout k hk, ereal_bot_sub_coe, exp_bot])]
  exact Finset.sum_congr rfl (fun k hk => by rw [hin k hk])

/-- The weighted sum of the exponentials over a whole row is the sum over its live positions. -/
theorem sum_exp_mul_live (L : Finset κ) (a v : κ → ℝ) (z : κ → EReal)
    (hin : ∀ k ∈ L, z k = ((a k : ℝ) : EReal)) (hout : ∀ k, k ∉ L → z k = ⊥) (m : ℝ) :
    ∑ k, Ideal.exp (z k - (m : EReal)) * (v k : EReal)
      = ∑ k ∈ L, Ideal.exp ((a k : EReal) - (m : EReal)) * (v k : EReal) := by
  rw [← Finset.sum_subset (Finset.subset_univ L)
    (fun k _ hk => by rw [hout k hk, ereal_bot_sub_coe, exp_bot, zero_mul])]
  exact Finset.sum_congr rfl (fun k hk => by rw [hin k hk])

/-- Both sums as reals. -/
theorem sum_exp_live_coe (L : Finset κ) (a : κ → ℝ) (z : κ → EReal)
    (hin : ∀ k ∈ L, z k = ((a k : ℝ) : EReal)) (hout : ∀ k, k ∉ L → z k = ⊥) (m : ℝ) :
    ∑ k, Ideal.exp (z k - (m : EReal)) = ((∑ k ∈ L, Real.exp (a k - m) : ℝ) : EReal) := by
  rw [sum_exp_live L a z hin hout, sum_exp_sub_coe]

theorem sum_exp_mul_live_coe (L : Finset κ) (a v : κ → ℝ) (z : κ → EReal)
    (hin : ∀ k ∈ L, z k = ((a k : ℝ) : EReal)) (hout : ∀ k, k ∉ L → z k = ⊥) (m : ℝ) :
    ∑ k, Ideal.exp (z k - (m : EReal)) * (v k : EReal) = ((∑ k ∈ L, Real.exp (a k - m) * v k : ℝ) : EReal) := by
  rw [sum_exp_mul_live L a v z hin hout, sum_exp_sub_mul_coe]

/-- The softmax-weighted mean with a real shift `m` and a nonzero real normaliser `D`, weight by weight over the
    whole row, is the real weighted sum over the live positions divided by `D`. -/
theorem sum_div_exp_mul_live (L : Finset κ) (a v : κ → ℝ) (z : κ → EReal)
    (hin : ∀ k ∈ L, z k = ((a k : ℝ) : EReal)) (hout : ∀ k, k ∉ L → z k = ⊥) (m : ℝ) {D : ℝ} (hD : D ≠ 0) :
    ∑ k, Ideal.div (Ideal.exp (z k - (m : EReal))) (D : EReal) * (v k : EReal)
      = (((∑ k ∈ L, Real.exp (a k - m) * v k) / D : ℝ) : EReal) := by
  rw [← Finset.sum_subset (Finset.subset_univ L)
    (fun k _ hk => by rw [hout k hk, ereal_bot_sub_coe, exp_bot, Ideal.div_coe hD, zero_mul, zero_mul])]
  rw [Finset.sum_div, ereal_coe_sum]
  refine Finset.sum_congr rfl (fun k hk => ?_)
  rw [hin k hk, Ideal.div_coe hD, ← EReal.coe_sub, exp_coe, ← EReal.coe_mul, ← EReal.coe_mul]
  congr 1
  ring

end Live

/-! ## The reference's softmax on a causally masked row -/

/-- Membership in the visible positions. -/
theorem mem_causal {t s : Fin 2048} : s ∈ causal t ↔ s.val ≤ t.val := by
  rw [causal, Finset.mem_filter]
  exact ⟨fun h => h.2, fun h => ⟨Finset.mem_univ _, h⟩⟩

/-- A position sees itself. -/
theorem causal_nonempty (t : Fin 2048) : (causal t).Nonempty := ⟨t, mem_causal.2 le_rfl⟩

/-- A masked row of real scores is the score at a visible position. -/
theorem maskedE_live (a : Fin 2048 → ℝ) (t : Fin 2048) :
    ∀ s ∈ causal t, maskedE (fun s => ((a s : ℝ) : EReal)) t s = ((a s : ℝ) : EReal) := by
  intro s hs
  show (if t.val < s.val then (⊥ : EReal) else ((a s : ℝ) : EReal)) = _
  rw [if_neg (not_lt.2 (mem_causal.1 hs))]

/-- A masked row is `-∞` at an invisible position. -/
theorem maskedE_dead (a : Fin 2048 → ℝ) (t : Fin 2048) :
    ∀ s, s ∉ causal t → maskedE (fun s => ((a s : ℝ) : EReal)) t s = ⊥ := by
  intro s hs
  show (if t.val < s.val then (⊥ : EReal) else ((a s : ℝ) : EReal)) = _
  rw [if_pos (not_le.1 (fun h => hs (mem_causal.2 h)))]

/-- The row maximum of a masked row of real scores is the real maximum over the visible positions. -/
theorem rowMaxE_masked (a : Fin 2048 → ℝ) (t : Fin 2048) :
    rowMaxE (maskedE (fun s => ((a s : ℝ) : EReal)) t) = (((causal t).sup' (causal_nonempty t) a : ℝ) : EReal) := by
  rw [rowMaxE, ereal_max_bot]
  exact fold_max_live (causal_nonempty t) a _ (maskedE_live a t) (maskedE_dead a t)

/-- The reference's softmax-weighted mean — row maximum, weights `exp (z s - max) / (0 + ∑ exp (z s' - max))`,
    times the values, summed — on a causally masked row of real scores with real values is the shift-free
    exp-weighted mean over the visible positions. -/
theorem attnRowE_masked_coe (a v : Fin 2048 → ℝ) (t : Fin 2048) :
    attnRowE (maskedE (fun s => ((a s : ℝ) : EReal)) t) (fun s => ((v s : ℝ) : EReal))
      = ((attnReal a (causal t) v : ℝ) : EReal) := by
  have hL := causal_nonempty t
  have hin := maskedE_live a t
  have hout := maskedE_dead a t
  have hpos := real_sum_exp_pos hL (fun s => a s - (causal t).sup' hL a)
  rw [attnRowE, rowMaxE_masked, sum_exp_live_coe (causal t) a _ hin hout, zero_add,
    sum_div_exp_mul_live (causal t) a v _ hin hout _ (ne_of_gt hpos), real_quot_shift, attnReal]

end Cert.SoftmaxMath

end
-- ==== Proof.FlashInv.lean ====
/-
  The recurrence of a query tile computes the causal attention row.

  Fix a query row r of tile n and a lane j, and let a(s) be the real score of that query against key position s and
  v(s) the real value at (s, j). Key tile k holds positions k·256 … k·256+255. By induction over the key tiles, after
  the first k tiles the carried triple at row r is (max a, ∑ exp (a - max), ∑ exp (a - max)·v) over the positions
  below k·256: each step is one step of the online softmax with accumulator. On the diagonal tile the positions
  after the query are at -∞: they leave the maximum alone and add 0 to both sums, so the step sees exactly the
  positions n·256 … n·256+r. The final quotient is the exp-weighted mean of v over the positions up to the query's.
-/
import proofs.«175069_j80315888436070_2_alg».proof.Proof.FlashRead
import proofs.«175069_j80315888436070_2_alg».proof.Proof.SoftmaxMath
import proofs.«175069_j80315888436070_2_alg».proof.Proof.LibOnlineSoftmax
import proofs.«175069_j80315888436070_2_alg».proof.Proof.Spec

set_option maxRecDepth 16384

noncomputable section

namespace Cert.KernelIdeal.Flash

open Idealize.ShloMosaic Idealize.ShloMosaic.TcCoe Idealize.ShloMosaic.ValueIdx Idealize.SL.Sem Cert.KernelIdeal Cert.KernelIdeal.Gen
open Cert.SoftmaxMath Cert.Lib.OnlineSoftmax

/-- The word of -∞ is the bottom of the extended reals. -/
theorem ninf_word : Ideal.ofBits .f32 0xFF800000#32 = (⊥ : EReal) := by simp [Ideal.ofBits, Ideal.ieee]

/-- The scale word is one eighth. -/
theorem scale_coe : Spec.scaleE = ((1 / 8 : ℝ) : EReal) := by
  simp [Spec.scaleE, Ideal.ofBits, Ideal.ieee]
  first
    | exact_mod_cast (by norm_num : (8388608 : ℝ) * ((2 : ℝ) ^ 26)⁻¹ = (8 : ℝ)⁻¹)
    | (rw [← EReal.coe_mul]; norm_num)

/-! ## A row with some positions at -∞ -/

section Row

variable {K : ℕ} (z : Fin K → EReal) (L : Finset (Fin K)) (a : Fin K → ℝ)
  (hz : ∀ c, z c = if c ∈ L then ((a c : ℝ) : EReal) else ⊥)
include hz

/-- The maximum of the row from -∞ is the real maximum over the live positions. -/
theorem row_max (hL : L.Nonempty) :
    (Finset.univ : Finset (Fin K)).fold max (⊥ : EReal) z = ((L.sup' hL a : ℝ) : EReal) := by
  rw [← sup_coe_eq hL a]
  show Finset.univ.sup z = _
  refine le_antisymm (Finset.sup_le fun c _ => ?_) (Finset.sup_le fun c hc => ?_)
  · rw [hz c]
    by_cases h : c ∈ L
    · rw [if_pos h]; exact Finset.le_sup (f := fun k => ((a k : ℝ) : EReal)) h
    · rw [if_neg h]; exact bot_le
  · have e : ((a c : ℝ) : EReal) = z c := by rw [hz c, if_pos hc]
    rw [e]; exact Finset.le_sup (Finset.mem_univ c)

/-- The exponentials of the row sum over the live positions only. -/
theorem row_sum (X : EReal) :
    ∑ c, Ideal.exp (z c - X) = ∑ c ∈ L, Ideal.exp (((a c : ℝ) : EReal) - X) := by
  rw [← Finset.sum_subset (Finset.subset_univ L) (fun c _ hc => by rw [hz c, if_neg hc, EReal.bot_sub, Ideal.exp_bot])]
  exact Finset.sum_congr rfl fun c hc => by rw [hz c, if_pos hc]

/-- Likewise with a weight on each position. -/
theorem row_wsum (X : EReal) (w : Fin K → EReal) :
    ∑ c, Ideal.exp (z c - X) * w c = ∑ c ∈ L, Ideal.exp (((a c : ℝ) : EReal) - X) * w c := by
  rw [← Finset.sum_subset (Finset.subset_univ L) (fun c _ hc => by rw [hz c, if_neg hc, EReal.bot_sub, Ideal.exp_bot, zero_mul])]
  exact Finset.sum_congr rfl fun c hc => by rw [hz c, if_pos hc]

end Row

/-! ## Key tiles as sets of positions -/

/-- Position c of key tile k. -/
def pos (k : ℕ) (hk : k < 8) : Fin 256 ↪ Fin 2048 :=
  ⟨fun c => ⟨k * 256 + c.val, by have := c.isLt; omega⟩, fun x y h => Fin.ext (by
    have := congrArg Fin.val h
    simp only at this
    omega)⟩

theorem pos_val (k : ℕ) (hk : k < 8) (c : Fin 256) : (pos k hk c).val = k * 256 + c.val := rfl

/-- The positions of the first k key tiles. -/
def seen (k : ℕ) : Finset (Fin 2048) := Finset.univ.filter fun s => s.val < k * 256

theorem seen_zero : seen 0 = ∅ := by
  ext s; simp [seen]

theorem seen_succ (k : ℕ) (hk : k < 8) : seen (k + 1) = seen k ∪ (Finset.univ : Finset (Fin 256)).map (pos k hk) := by
  ext s
  simp only [seen, Finset.mem_filter, Finset.mem_univ, true_and, Finset.mem_union, Finset.mem_map]
  constructor
  · intro h
    by_cases h' : s.val < k * 256
    · exact Or.inl h'
    · exact Or.inr ⟨⟨s.val - k * 256, by omega⟩, Fin.ext (by rw [pos_val]; show k * 256 + (s.val - k * 256) = s.val; omega)⟩
  · rintro (h | ⟨c, rfl⟩)
    · omega
    · rw [pos_val]; have := c.isLt; omega

theorem seen_disjoint (k : ℕ) (hk : k < 8) (L : Finset (Fin 256)) : Disjoint (seen k) (L.map (pos k hk)) := by
  rw [Finset.disjoint_left]
  intro s hs hm
  simp only [seen, Finset.mem_filter, Finset.mem_univ, true_and] at hs
  obtain ⟨c, -, rfl⟩ := Finset.mem_map.mp hm
  rw [pos_val] at hs
  omega

/-- The positions up to row r of tile n. -/
def upto (r : Fin 256) : Finset (Fin 256) := Finset.univ.filter fun c => c.val ≤ r.val

theorem seen_upto (n : ℕ) (hn : n < 8) (r : Fin 256) :
    seen n ∪ (upto r).map (pos n hn) = Spec.causal ⟨n * 256 + r.val, by have := r.isLt; omega⟩ := by
  ext s
  simp only [seen, upto, Spec.causal, Finset.mem_filter, Finset.mem_univ, true_and, Finset.mem_union, Finset.mem_map]
  constructor
  · rintro (h | ⟨c, hc, rfl⟩)
    · omega
    · rw [pos_val]; omega
  · intro h
    by_cases h' : s.val < n * 256
    · exact Or.inl h'
    · exact Or.inr ⟨⟨s.val - n * 256, by have := r.isLt; omega⟩, by show s.val - n * 256 ≤ r.val; omega,
        Fin.ext (by rw [pos_val]; show n * 256 + (s.val - n * 256) = s.val; omega)⟩

/-! ## The invariant -/

section Tile

variable (r : Fin 256) (j : Fin 64) (a v : Fin 2048 → ℝ)

/-- One block is one step of the online softmax with accumulator, over the block's live positions. -/
theorem step_inv (k : ℕ) (hk : k < 8) (s : FVec Ideal S256x256 .f32) (vm : FVec Ideal S256x64 .bf16) (st : St Ideal)
    (L : Finset (Fin 256)) (hL : L.Nonempty) (S : Finset (Fin 2048))
    (hz : ∀ c, s (ix2 r c) = if c ∈ L then ((a (pos k hk c) : ℝ) : EReal) else ⊥)
    (hv : ∀ c, vm (ix2 c j) = ((v (pos k hk c) : ℝ) : EReal))
    (hd : Disjoint S (L.map (pos k hk)))
    (ih : Inv3 a v S (st.1 (ix2 r (0 : Fin 1))) (st.2.1 (ix2 r (0 : Fin 1))) (st.2.2 (ix2 r j))) :
    Inv3 a v (S ∪ L.map (pos k hk)) ((step s vm st).1 (ix2 r (0 : Fin 1))) ((step s vm st).2.1 (ix2 r (0 : Fin 1)))
      ((step s vm st).2.2 (ix2 r j)) := by
  have hN : (L.map (pos k hk)).Nonempty := Finset.map_nonempty.mpr hL
  have hsup : (L.map (pos k hk)).sup' hN a = L.sup' hL (fun c => a (pos k hk c)) := Finset.sup'_map a hN
  have e1 : mNew st.1 s (ix2 r (0 : Fin 1))
      = max (st.1 (ix2 r (0 : Fin 1))) ((((L.map (pos k hk)).sup' hN a : ℝ)) : EReal) := by
    rw [mNew_apply, ninf_word, row_max (fun c => s (ix2 r c)) L (fun c => a (pos k hk c)) hz hL, hsup]
  have e2 : (step s vm st).2.1 (ix2 r (0 : Fin 1))
      = Ideal.exp (st.1 (ix2 r (0 : Fin 1)) - max (st.1 (ix2 r (0 : Fin 1))) ((((L.map (pos k hk)).sup' hN a : ℝ)) : EReal))
          * st.2.1 (ix2 r (0 : Fin 1))
        + ∑ i ∈ L.map (pos k hk), Ideal.exp (((a i : ℝ) : EReal) - max (st.1 (ix2 r (0 : Fin 1))) ((((L.map (pos k hk)).sup' hN a : ℝ)) : EReal)) := by
    rw [step_sum_apply, e1, row_sum (fun c => s (ix2 r c)) L (fun c => a (pos k hk c)) hz, Finset.sum_map]
  have e3 : (step s vm st).2.2 (ix2 r j)
      = Ideal.exp (st.1 (ix2 r (0 : Fin 1)) - max (st.1 (ix2 r (0 : Fin 1))) ((((L.map (pos k hk)).sup' hN a : ℝ)) : EReal))
          * st.2.2 (ix2 r j)
        + ∑ i ∈ L.map (pos k hk), Ideal.exp (((a i : ℝ) : EReal) - max (st.1 (ix2 r (0 : Fin 1))) ((((L.map (pos k hk)).sup' hN a : ℝ)) : EReal))
            * ((v i : ℝ) : EReal) := by
    rw [step_acc_apply, e1, Finset.sum_map]
    congr 1
    rw [row_wsum (fun c => s (ix2 r c)) L (fun c => a (pos k hk c)) hz _ (fun c => vm (ix2 c j))]
    exact Finset.sum_congr rfl fun c _ => by rw [hv c]
  rw [step_fst, e1, e2, e3]
  exact inv3_step ih hN hd rfl

variable (q : FVec Ideal S256x64 .bf16) (kb vb : ℕ → Vec Ideal S1x256x64 .bf16)
  (hs : ∀ k (hk : k < 8) (c : Fin 256), scores q (mat (kb k)) (ix2 r c) = ((a (pos k hk c) : ℝ) : EReal))
  (hv : ∀ k (hk : k < 8) (c : Fin 256), mat (vb k) (ix2 c j) = ((v (pos k hk c) : ℝ) : EReal))
include hs hv

/-- After the first k key tiles the carried triple at row r is the online-softmax triple over their positions. -/
theorem run_inv : ∀ k, k ≤ 8 → Inv3 a v (seen k) ((run q kb vb k).1 (ix2 r (0 : Fin 1)))
    ((run q kb vb k).2.1 (ix2 r (0 : Fin 1))) ((run q kb vb k).2.2 (ix2 r j))
  | 0, _ => by
    obtain ⟨h1, h2, h3⟩ := init_apply r j
    show Inv3 a v (seen 0) ((init (F := Ideal)).1 (ix2 r (0 : Fin 1))) ((init (F := Ideal)).2.1 (ix2 r (0 : Fin 1)))
      ((init (F := Ideal)).2.2 (ix2 r j))
    rw [h1, h2, h3, seen_zero]
    exact inv3_init a v
  | k + 1, hk => by
    have hk' : k < 8 := by omega
    have ih := run_inv k (by omega)
    show Inv3 a v (seen (k + 1)) ((step (scores q (mat (kb k))) (mat (vb k)) (run q kb vb k)).1 (ix2 r (0 : Fin 1)))
      ((step (scores q (mat (kb k))) (mat (vb k)) (run q kb vb k)).2.1 (ix2 r (0 : Fin 1)))
      ((step (scores q (mat (kb k))) (mat (vb k)) (run q kb vb k)).2.2 (ix2 r j))
    rw [seen_succ k hk']
    exact step_inv r j a v k hk' _ _ _ Finset.univ Finset.univ_nonempty (seen k)
      (fun c => by rw [if_pos (Finset.mem_univ c)]; exact hs k hk' c) (hv k hk') (seen_disjoint k hk' _) ih

end Tile

/-- Query tile n at row r, lane j: the exp-weighted mean of the values over the positions up to n·256 + r. -/
theorem tile_row (n : ℕ) (hn : n < 8) (r : Fin 256) (j : Fin 64) (a v : Fin 2048 → ℝ)
    (qb : Vec Ideal S1x256x64 .bf16) (kb vb : ℕ → Vec Ideal S1x256x64 .bf16)
    (hs : ∀ k (hk : k < 8) (c : Fin 256), scores (mat qb) (mat (kb k)) (ix2 r c) = ((a (pos k hk c) : ℝ) : EReal))
    (hv : ∀ k (hk : k < 8) (c : Fin 256), mat (vb k) (ix2 c j) = ((v (pos k hk c) : ℝ) : EReal)) :
    tile n (BitVec.ofNat 32 (n * 256)) qb kb vb (ix3 (0 : Fin 1) r j)
      = ((Spec.attnReal a (Spec.causal ⟨n * 256 + r.val, by have := r.isLt; omega⟩) v : ℝ) : EReal) := by
  unfold tile
  rw [fin_apply]
  have hL : (upto r).Nonempty := ⟨r, by simp [upto]⟩
  have h := step_inv r j a v n hn (diag (BitVec.ofNat 32 (n * 256)) (scores (mat qb) (mat (kb n)))) (mat (vb n))
    (run (mat qb) kb vb n) (upto r) hL (seen n)
    (fun c => by
      rw [diag_apply (n * 256) (by omega)]
      by_cases h : r.val < c.val
      · rw [if_pos h, if_neg (by simp only [upto, Finset.mem_filter, Finset.mem_univ, true_and]; omega)]
      · rw [if_neg h, if_pos (by simp only [upto, Finset.mem_filter, Finset.mem_univ, true_and]; omega)]
        exact hs n hn c)
    (hv n hn) (seen_disjoint n hn _) (run_inv r j a v (mat qb) kb vb hs hv n (by omega))
  rw [seen_upto n hn r] at h
  exact inv3_final h ⟨⟨n * 256 + r.val, by have := r.isLt; omega⟩, by simp [Spec.causal]⟩

end Cert.KernelIdeal.Flash

end
-- ==== Proof.FlashTile.lean ====
/-
  A query tile's value from real query, key and value blocks.

  The three staging blocks of one batch·head are [1, 2048, 64]; their row tiles are the eight key (and value) tiles,
  tile k holding rows k·256 … k·256+255. When every entry of the three blocks is a real, the score of query row
  n·256 + r against key row s is the real (∑ lanes q · k) / 8, and query tile n leaves at (r, j) the exp-weighted mean
  of the value column j over the rows s ≤ n·256 + r.
-/
import proofs.«175069_j80315888436070_2_alg».proof.Proof.FlashInv

set_option maxRecDepth 16384

noncomputable section

namespace Cert.KernelIdeal.Flash

open Idealize.ShloMosaic Idealize.ShloMosaic.TcCoe Idealize.ShloMosaic.ValueIdx Idealize.SL.Sem Cert.KernelIdeal Cert.KernelIdeal.Gen
open Cert.SoftmaxMath Cert.Lib.OnlineSoftmax

/-- Row c of tile k of a block is row k·256 + c of the block. -/
theorem blk_apply (x : Vec Ideal S1x2048x64 .bf16) (k : ℕ) (hk : k < 8) (c : Fin 256) (d : Fin 64) :
    blk x k (ix3 (0 : Fin 1) c d) = x (ix3 (0 : Fin 1) (pos k hk c) d) := by
  interval_cases k
  · show x (r1_0.emb (ix3 (0 : Fin 1) c d)) = _
    refine congrArg x (funext fun a => Fin.ext ?_)
    match a with
    | ⟨0, _⟩ => rfl
    | ⟨1, _⟩ => show 0 + 1 * c.val = 0 * 256 + c.val; omega
    | ⟨2, _⟩ => show 0 + 1 * d.val = d.val; omega
  · show x (r1_1.emb (ix3 (0 : Fin 1) c d)) = _
    refine congrArg x (funext fun a => Fin.ext ?_)
    match a with
    | ⟨0, _⟩ => rfl
    | ⟨1, _⟩ => show 256 + 1 * c.val = 1 * 256 + c.val; omega
    | ⟨2, _⟩ => show 0 + 1 * d.val = d.val; omega
  · show x (r1_2.emb (ix3 (0 : Fin 1) c d)) = _
    refine congrArg x (funext fun a => Fin.ext ?_)
    match a with
    | ⟨0, _⟩ => rfl
    | ⟨1, _⟩ => show 512 + 1 * c.val = 2 * 256 + c.val; omega
    | ⟨2, _⟩ => show 0 + 1 * d.val = d.val; omega
  · show x (r1_3.emb (ix3 (0 : Fin 1) c d)) = _
    refine congrArg x (funext fun a => Fin.ext ?_)
    match a with
    | ⟨0, _⟩ => rfl
    | ⟨1, _⟩ => show 768 + 1 * c.val = 3 * 256 + c.val; omega
    | ⟨2, _⟩ => show 0 + 1 * d.val = d.val; omega
  · show x (r1_4.emb (ix3 (0 : Fin 1) c d)) = _
    refine congrArg x (funext fun a => Fin.ext ?_)
    match a with
    | ⟨0, _⟩ => rfl
    | ⟨1, _⟩ => show 1024 + 1 * c.val = 4 * 256 + c.val; omega
    | ⟨2, _⟩ => show 0 + 1 * d.val = d.val; omega
  · show x (r1_5.emb (ix3 (0 : Fin 1) c d)) = _
    refine congrArg x (funext fun a => Fin.ext ?_)
    match a with
    | ⟨0, _⟩ => rfl
    | ⟨1, _⟩ => show 1280 + 1 * c.val = 5 * 256 + c.val; omega
    | ⟨2, _⟩ => show 0 + 1 * d.val = d.val; omega
  · show x (r1_6.emb (ix3 (0 : Fin 1) c d)) = _
    refine congrArg x (funext fun a => Fin.ext ?_)
    match a with
    | ⟨0, _⟩ => rfl
    | ⟨1, _⟩ => show 1536 + 1 * c.val = 6 * 256 + c.val; omega
    | ⟨2, _⟩ => show 0 + 1 * d.val = d.val; omega
  · show x (r1_7.emb (ix3 (0 : Fin 1) c d)) = _
    refine congrArg x (funext fun a => Fin.ext ?_)
    match a with
    | ⟨0, _⟩ => rfl
    | ⟨1, _⟩ => show 1792 + 1 * c.val = 7 * 256 + c.val; omega
    | ⟨2, _⟩ => show 0 + 1 * d.val = d.val; omega

/-- A sum of products of reals, computed in the extended reals, is the real sum. -/
theorem coe_sum_mul {K : ℕ} (f g : Fin K → ℝ) : ∑ d : Fin K, ((f d : ℝ) : EReal) * ((g d : ℝ) : EReal) = ((∑ d : Fin K, f d * g d : ℝ) : EReal) := by
  rw [ereal_coe_sum]
  exact Finset.sum_congr rfl fun d _ => (EReal.coe_mul _ _).symm

/-- Query tile n at (r, j), from real blocks. -/
theorem tile_value (n : ℕ) (hn : n < 8) (x0 x1 x2 : Vec Ideal S1x2048x64 .bf16) (q k v : Fin 2048 → Fin 64 → ℝ)
    (h0 : ∀ s d, x0 (ix3 (0 : Fin 1) s d) = ((q s d : ℝ) : EReal))
    (h1 : ∀ s d, x1 (ix3 (0 : Fin 1) s d) = ((k s d : ℝ) : EReal))
    (h2 : ∀ s d, x2 (ix3 (0 : Fin 1) s d) = ((v s d : ℝ) : EReal)) (r : Fin 256) (j : Fin 64) :
    tile n (BitVec.ofNat 32 (n * 256)) (blk x0 n) (blk x1) (blk x2) (ix3 (0 : Fin 1) r j)
      = ((Spec.attnReal (fun s => (∑ d : Fin 64, q (pos n hn r) d * k s d) * (1 / 8)) (Spec.causal (pos n hn r))
          (fun s => v s j) : ℝ) : EReal) := by
  refine tile_row n hn r j _ _ (blk x0 n) (blk x1) (blk x2) (fun kk hkk c => ?_) (fun kk hkk c => ?_)
  · rw [scores_apply, scale_coe]
    rw [show (∑ d : Fin 64, mat (blk x0 n) (ix2 r d) * mat (blk x1 kk) (ix2 c d))
        = ∑ d : Fin 64, ((q (pos n hn r) d : ℝ) : EReal) * ((k (pos kk hkk c) d : ℝ) : EReal) from
      Finset.sum_congr rfl fun d _ => by rw [mat_apply, mat_apply, blk_apply x0 n hn, blk_apply x1 kk hkk, h0, h1]]
    rw [coe_sum_mul, ← EReal.coe_mul]
  · rw [mat_apply, blk_apply x2 kk hkk, h2]

end Cert.KernelIdeal.Flash

end
-- ==== Proof.Region1.lean ====
/-
  The attention region's output array.

  The region runs one grid point per batch·head bh; its three input blocks are the [1, 2048, 64] slabs bh of the
  query, key and value arrays, and its output block is slab bh of the result. The body stores eight query tiles,
  which together cover the block, and tile n at (r, j) is the causal attention of query row n·256 + r. So when the
  three arrays hold reals, after the last point the output array at (bh, t, j) is the exp-weighted mean over the key
  rows s ≤ t of the value entries (bh, s, j), with scores (query row t · key row s) / 8.
-/
import proofs.«175069_j80315888436070_2_alg».proof.Proof.FlashTile
import Idealize.ShloMosaic.Lib.Pipeline.Value

set_option maxRecDepth 16384

noncomputable section

namespace Cert.KernelIdeal.Val.Attn

open Idealize.ShloMosaic Idealize.ShloMosaic.TcCoe Idealize.ShloMosaic.ValueIdx Idealize.SL.Sem Cert.KernelIdeal Cert.KernelIdeal.Gen
open Cert.KernelIdeal.Flash
open Idealize.ShloMosaic.Pipeline (Dat)

/-- The row and the lane of an index of a [1, 2048, 64] block. -/
def rowOf (y : S1x2048x64.Idx) : Fin 2048 := ⟨(y 1).val, (y 1).isLt⟩
def laneOf (y : S1x2048x64.Idx) : Fin 64 := ⟨(y 2).val, (y 2).isLt⟩

/-- The whole output block from real input blocks: at (0, s, j) the causal attention of row s, lane j. -/
theorem block_value (x0 x1 x2 : Vec Ideal S1x2048x64 .bf16) (q k v : Fin 2048 → Fin 64 → ℝ)
    (h0 : ∀ s d, x0 (ix3 (0 : Fin 1) s d) = ((q s d : ℝ) : EReal))
    (h1 : ∀ s d, x1 (ix3 (0 : Fin 1) s d) = ((k s d : ℝ) : EReal))
    (h2 : ∀ s d, x2 (ix3 (0 : Fin 1) s d) = ((v s d : ℝ) : EReal)) (s : Fin 2048) (j : Fin 64) :
    out1_3 x0 x1 x2 (ix3 (0 : Fin 1) s j)
      = ((Spec.attnReal (fun s' => (∑ d : Fin 64, q s d * k s' d) * (1 / 8)) (Spec.causal s) (fun s' => v s' j) : ℝ) : EReal) := by
  rw [out1_3_eq]
  refine View.canon_apply_of_pieces (Val := Elt Ideal) (S := S1x2048x64) (e := .f32)
    (fun y => ((Spec.attnReal (fun s' => (∑ d : Fin 64, q (rowOf y) d * k s' d) * (1 / 8)) (Spec.causal (rowOf y))
      (fun s' => v s' (laneOf y)) : ℝ) : EReal)) _ ?_ (ix3 (0 : Fin 1) s j) (cover1_3 _ _ _ _ _ _ _ _ _)
  intro p hp x
  simp only [List.mem_cons, List.not_mem_nil, or_false] at hp
  have fin : ∀ (n : ℕ) (hn : n < 8) (rk : Rect S1x2048x64) (r : Fin 256) (jj : Fin 64) (y : S1x2048x64.Idx)
      (hr : (y 1).val = n * 256 + r.val) (hj : (y 2).val = jj.val),
      ((Spec.attnReal (fun s => (∑ d : Fin 64, q (pos n hn r) d * k s d) * (1 / 8)) (Spec.causal (pos n hn r))
          (fun s => v s jj) : ℝ) : EReal)
        = ((Spec.attnReal (fun s' => (∑ d : Fin 64, q (rowOf y) d * k s' d) * (1 / 8)) (Spec.causal (rowOf y))
          (fun s' => v s' (laneOf y)) : ℝ) : EReal) := by
    intro n hn rk r jj y hr hj
    have e1 : rowOf y = pos n hn r := Fin.ext hr
    have e2 : laneOf y = jj := Fin.ext hj
    rw [e1, e2]
  rcases hp with rfl | rfl | rfl | rfl | rfl | rfl | rfl | rfl
  · obtain ⟨u, r, jj, rfl⟩ : ∃ (u : Fin 1) (r : Fin 256) (jj : Fin 64), x = ix3 u r jj := ⟨x 0, x 1, x 2, eq_ix3 x⟩
    obtain rfl : u = 0 := Subsingleton.elim _ _
    refine (tile_value 7 (by omega) x0 x1 x2 q k v h0 h1 h2 r jj).trans ?_
    exact fin 7 (by omega) r1_7 r jj _ (show 1792 + 1 * r.val = 7 * 256 + r.val by omega) (show 0 + 1 * jj.val = jj.val by omega)
  · obtain ⟨u, r, jj, rfl⟩ : ∃ (u : Fin 1) (r : Fin 256) (jj : Fin 64), x = ix3 u r jj := ⟨x 0, x 1, x 2, eq_ix3 x⟩
    obtain rfl : u = 0 := Subsingleton.elim _ _
    refine (tile_value 6 (by omega) x0 x1 x2 q k v h0 h1 h2 r jj).trans ?_
    exact fin 6 (by omega) r1_6 r jj _ (show 1536 + 1 * r.val = 6 * 256 + r.val by omega) (show 0 + 1 * jj.val = jj.val by omega)
  · obtain ⟨u, r, jj, rfl⟩ : ∃ (u : Fin 1) (r : Fin 256) (jj : Fin 64), x = ix3 u r jj := ⟨x 0, x 1, x 2, eq_ix3 x⟩
    obtain rfl : u = 0 := Subsingleton.elim _ _
    refine (tile_value 5 (by omega) x0 x1 x2 q k v h0 h1 h2 r jj).trans ?_
    exact fin 5 (by omega) r1_5 r jj _ (show 1280 + 1 * r.val = 5 * 256 + r.val by omega) (show 0 + 1 * jj.val = jj.val by omega)
  · obtain ⟨u, r, jj, rfl⟩ : ∃ (u : Fin 1) (r : Fin 256) (jj : Fin 64), x = ix3 u r jj := ⟨x 0, x 1, x 2, eq_ix3 x⟩
    obtain rfl : u = 0 := Subsingleton.elim _ _
    refine (tile_value 4 (by omega) x0 x1 x2 q k v h0 h1 h2 r jj).trans ?_
    exact fin 4 (by omega) r1_4 r jj _ (show 1024 + 1 * r.val = 4 * 256 + r.val by omega) (show 0 + 1 * jj.val = jj.val by omega)
  · obtain ⟨u, r, jj, rfl⟩ : ∃ (u : Fin 1) (r : Fin 256) (jj : Fin 64), x = ix3 u r jj := ⟨x 0, x 1, x 2, eq_ix3 x⟩
    obtain rfl : u = 0 := Subsingleton.elim _ _
    refine (tile_value 3 (by omega) x0 x1 x2 q k v h0 h1 h2 r jj).trans ?_
    exact fin 3 (by omega) r1_3 r jj _ (show 768 + 1 * r.val = 3 * 256 + r.val by omega) (show 0 + 1 * jj.val = jj.val by omega)
  · obtain ⟨u, r, jj, rfl⟩ : ∃ (u : Fin 1) (r : Fin 256) (jj : Fin 64), x = ix3 u r jj := ⟨x 0, x 1, x 2, eq_ix3 x⟩
    obtain rfl : u = 0 := Subsingleton.elim _ _
    refine (tile_value 2 (by omega) x0 x1 x2 q k v h0 h1 h2 r jj).trans ?_
    exact fin 2 (by omega) r1_2 r jj _ (show 512 + 1 * r.val = 2 * 256 + r.val by omega) (show 0 + 1 * jj.val = jj.val by omega)
  · obtain ⟨u, r, jj, rfl⟩ : ∃ (u : Fin 1) (r : Fin 256) (jj : Fin 64), x = ix3 u r jj := ⟨x 0, x 1, x 2, eq_ix3 x⟩
    obtain rfl : u = 0 := Subsingleton.elim _ _
    refine (tile_value 1 (by omega) x0 x1 x2 q k v h0 h1 h2 r jj).trans ?_
    exact fin 1 (by omega) r1_1 r jj _ (show 256 + 1 * r.val = 1 * 256 + r.val by omega) (show 0 + 1 * jj.val = jj.val by omega)
  · obtain ⟨u, r, jj, rfl⟩ : ∃ (u : Fin 1) (r : Fin 256) (jj : Fin 64), x = ix3 u r jj := ⟨x 0, x 1, x 2, eq_ix3 x⟩
    obtain rfl : u = 0 := Subsingleton.elim _ _
    refine (tile_value 0 (by omega) x0 x1 x2 q k v h0 h1 h2 r jj).trans ?_
    exact fin 0 (by omega) r1_0 r jj _ (show 0 + 1 * r.val = 0 * 256 + r.val by omega) (show 0 + 1 * jj.val = jj.val by omega)

variable (V : (c : Dev nD) → (b : Ref sig .tc) → Buf (Elt Ideal) ((c : Thread nD τ).loc b)) (c : Dev nD)

/-- Every window of the region sits at block (t, 0, 0) at grid point t. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- The batch·head of a grid point. -/
def bhOf (t : Fin cfg1.N) : Fin 32 := ⟨t.val, lt_of_lt_of_eq t.isLt N_1⟩

/-- The query block at point t is slab t of the query array. -/
theorem iblk1_0_apply (t : Fin cfg1.N) (s : Fin 2048) (d : Fin 64) :
    (iblk1 V c 0 t : Vec Ideal S1x2048x64 .bf16) (ix3 (0 : Fin 1) s d)
      = (V c main_v5 : S32x2048x64.Idx → EReal) (ix3 (bhOf t) s d) := by
  obtain ⟨e0, e1, e2, -⟩ := idx_facts1 t
  unfold iblk1
  rw [View.read_apply]
  refine congrArg (V c main_v5 : S32x2048x64.Idx → EReal) (funext fun a => Fin.ext ?_)
  match a with
  | ⟨0, _⟩ => show win1_0.index t (0 : Fin 3) * 1 + 1 * (0 : ℕ) = t.val; omega
  | ⟨1, _⟩ => show win1_0.index t (1 : Fin 3) * 2048 + 1 * s.val = s.val; omega
  | ⟨2, _⟩ => show win1_0.index t (2 : Fin 3) * 64 + 1 * d.val = d.val; omega

/-- The key block at point t is slab t of the key array. -/
theorem iblk1_1_apply (t : Fin cfg1.N) (s : Fin 2048) (d : Fin 64) :
    (iblk1 V c 1 t : Vec Ideal S1x2048x64 .bf16) (ix3 (0 : Fin 1) s d)
      = (V c main_v6 : S32x2048x64.Idx → EReal) (ix3 (bhOf t) s d) := by
  obtain ⟨-, -, -, e0, e1, e2, -⟩ := idx_facts1 t
  unfold iblk1
  rw [View.read_apply]
  refine congrArg (V c main_v6 : S32x2048x64.Idx → EReal) (funext fun a => Fin.ext ?_)
  match a with
  | ⟨0, _⟩ => show win1_1.index t (0 : Fin 3) * 1 + 1 * (0 : ℕ) = t.val; omega
  | ⟨1, _⟩ => show win1_1.index t (1 : Fin 3) * 2048 + 1 * s.val = s.val; omega
  | ⟨2, _⟩ => show win1_1.index t (2 : Fin 3) * 64 + 1 * d.val = d.val; omega

/-- The value block at point t is slab t of the value array. -/
theorem iblk1_2_apply (t : Fin cfg1.N) (s : Fin 2048) (d : Fin 64) :
    (iblk1 V c 2 t : Vec Ideal S1x2048x64 .bf16) (ix3 (0 : Fin 1) s d)
      = (V c main_v7 : S32x2048x64.Idx → EReal) (ix3 (bhOf t) s d) := by
  obtain ⟨-, -, -, -, -, -, e0, e1, e2, -⟩ := idx_facts1 t
  unfold iblk1
  rw [View.read_apply]
  refine congrArg (V c main_v7 : S32x2048x64.Idx → EReal) (funext fun a => Fin.ext ?_)
  match a with
  | ⟨0, _⟩ => show win1_2.index t (0 : Fin 3) * 1 + 1 * (0 : ℕ) = t.val; omega
  | ⟨1, _⟩ => show win1_2.index t (1 : Fin 3) * 2048 + 1 * s.val = s.val; omega
  | ⟨2, _⟩ => show win1_2.index t (2 : Fin 3) * 64 + 1 * d.val = d.val; omega

variable (qr kr vr : (⟨3, ![32, 2048, 64]⟩ : Shape).Idx → ℝ)

/-- The output array after the region: the causal attention of every batch·head, row and lane. -/
def Garr : S32x2048x64.Idx → EReal := fun i =>
  ((Spec.flashR qr kr vr (1 / 8) ⟨(i 0).val, (i 0).isLt⟩ ⟨(i 1).val, (i 1).isLt⟩ ⟨(i 2).val, (i 2).isLt⟩ : ℝ) : EReal)

variable (hq : ∀ i, V c main_v5 i = ((qr i : ℝ) : EReal)) (hk : ∀ i, V c main_v6 i = ((kr i : ℝ) : EReal))
  (hv : ∀ i, V c main_v7 i = ((vr i : ℝ) : EReal))
include hq hk hv

/-- What point t writes back is slab t of that array. -/
theorem flushed_eq (t : Fin cfg1.N) :
    (dat1 (F := Ideal) V c).flushed 3 t = ((cfg1.win 3).blk t).view.read (Elt Ideal) (Garr qr kr vr) := by
  show (cfg1.win 3).cut (grid1.coords t) ((dat1 (F := Ideal) V c).after 3 t) = _
  rw [after1_3]
  obtain ⟨-, -, -, -, -, -, -, -, -, e0, e1, e2⟩ := idx_facts1 t
  funext y
  obtain ⟨u, s, j, rfl⟩ : ∃ (u : Fin 1) (s : Fin 2048) (j : Fin 64), y = ix3 u s j := ⟨y 0, y 1, y 2, eq_ix3 y⟩
  obtain rfl : u = 0 := Subsingleton.elim _ _
  show out1_3 (iblk1 V c 0 t) (iblk1 V c 1 t) (iblk1 V c 2 t) (ix3 (0 : Fin 1) s j)
    = Garr qr kr vr (((cfg1.win 3).blk t).view.emb (ix3 (0 : Fin 1) s j))
  refine (block_value (iblk1 V c 0 t) (iblk1 V c 1 t) (iblk1 V c 2 t) (fun s d => qr (ix3 (bhOf t) s d))
    (fun s d => kr (ix3 (bhOf t) s d)) (fun s d => vr (ix3 (bhOf t) s d))
    (fun s d => (iblk1_0_apply V c t s d).trans (hq _)) (fun s d => (iblk1_1_apply V c t s d).trans (hk _))
    (fun s d => (iblk1_2_apply V c t s d).trans (hv _)) s j).trans ?_
  have hemb : ((cfg1.win 3).blk t).view.emb (ix3 (0 : Fin 1) s j) = ix3 (bhOf t) s j := funext fun a => Fin.ext (by
    match a with
    | ⟨0, _⟩ => show win1_3.index t (0 : Fin 3) * 1 + 1 * (0 : ℕ) = t.val; omega
    | ⟨1, _⟩ => show win1_3.index t (1 : Fin 3) * 2048 + 1 * s.val = s.val; omega
    | ⟨2, _⟩ => show win1_3.index t (2 : Fin 3) * 64 + 1 * j.val = j.val; omega)
  rw [hemb]
  rfl

omit hq hk hv in
/-- An index of the array is in point t's block when each coordinate is in the block's range. -/
theorem mem_blk (t : Fin cfg1.N) (i : S32x2048x64.Idx) :
    i ∈ ((cfg1.win 3).blk t).view.set ↔ ∀ a : Fin 3, win1_3.index t a * S1x2048x64.size a ≤ (i a).val
      ∧ (i a).val < win1_3.index t a * S1x2048x64.size a + S1x2048x64.size a := by
  show i ∈ ((View.whole main_v8).slice (win1_3.rect t)).set ↔ _
  rw [View.set_slice_whole, Rect.mem_set_unit]
  exact Iff.rfl

omit hq hk hv in
/-- The blocks cover the array: index i is in the block of point i₀. -/
theorem cover (i : S32x2048x64.Idx) :
    ∃ t : Fin cfg1.N, (cfg1.win 3).flush t = true ∧ i ∈ ((cfg1.win 3).blk t).view.set := by
  have h0 : (i 0).val < 32 := (i 0).isLt
  have h1 : (i 1).val < 2048 := (i 1).isLt
  have h2 : (i 2).val < 64 := (i 2).isLt
  refine ⟨⟨(i 0).val, lt_of_lt_of_eq h0 N_1.symm⟩, flush1_3 _, ?_⟩
  rw [mem_blk]
  obtain ⟨-, -, -, -, -, -, -, -, -, e0, e1, e2⟩ := idx_facts1 ⟨(i 0).val, lt_of_lt_of_eq h0 N_1.symm⟩
  intro a
  match a with
  | ⟨0, _⟩ =>
    show win1_3.index _ (0 : Fin 3) * 1 ≤ (i 0).val ∧ (i 0).val < win1_3.index _ (0 : Fin 3) * 1 + 1
    rw [e0]; show (i 0).val * 1 ≤ (i 0).val ∧ (i 0).val < (i 0).val * 1 + 1; omega
  | ⟨1, _⟩ =>
    show win1_3.index _ (1 : Fin 3) * 2048 ≤ (i 1).val ∧ (i 1).val < win1_3.index _ (1 : Fin 3) * 2048 + 2048
    rw [e1]; omega
  | ⟨2, _⟩ =>
    show win1_3.index _ (2 : Fin 3) * 64 ≤ (i 2).val ∧ (i 2).val < win1_3.index _ (2 : Fin 3) * 64 + 64
    rw [e2]; omega

/-- The attention region's output array, read at (bh, t, j). -/
theorem flash (bh : Fin 32) (t : Fin 2048) (j : Fin 64) :
    (dat1 (F := Ideal) V c).arrAt 3 cfg1.N (ix3 bh t j) = ((Spec.flashR qr kr vr (1 / 8) bh t j : ℝ) : EReal) := by
  rw [(dat1 (F := Ideal) V c).arrAt_eq_of_cover 3 (Garr qr kr vr) (fun t _ => flushed_eq V c qr kr vr hq hk hv t) cover]
  rfl

end Cert.KernelIdeal.Val.Attn

namespace Cert.KernelIdeal.Val

open Idealize.ShloMosaic Idealize.ShloMosaic.TcCoe Idealize.ShloMosaic.ValueIdx Idealize.SL.Sem Cert.KernelIdeal Cert.KernelIdeal.Gen

/-- The attention region's output array at (bh, t, j), from real query, key and value arrays. -/
theorem flash (V : (c : Dev nD) → (b : Ref sig .tc) → Buf (Elt Ideal) ((c : Thread nD τ).loc b)) (c : Dev nD)
    (qr kr vr : (⟨3, ![32, 2048, 64]⟩ : Shape).Idx → ℝ)
    (hq : ∀ i, V c main_v5 i = ((qr i : ℝ) : EReal)) (hk : ∀ i, V c main_v6 i = ((kr i : ℝ) : EReal))
    (hv : ∀ i, V c main_v7 i = ((vr i : ℝ) : EReal)) (bh : Fin 32) (t : Fin 2048) (j : Fin 64) :
    (dat1 (F := Ideal) V c).arrAt 3 cfg1.N (ix3 bh t j) = ((Spec.flashR qr kr vr (1 / 8) bh t j : ℝ) : EReal) :=
  Attn.flash V c qr kr vr hq hk hv bh t j

end Cert.KernelIdeal.Val

end
-- ==== Proof.Region2.lean ====
/-
  The output projection: what the third region leaves in its output array.

  The region runs over a 2 × 4 grid. At point (b, q) the body reads rows 512·q … 512·q + 511 of batch b of the
  activations x (a 1 × 512 × 1024 block), the whole 1024 × 1024 weight Wt (stored input-major) and the whole bias,
  and stores one 1 × 512 × 1024 block: the block of x as a 512 × 1024 matrix times Wt, accumulated from zero, plus
  the bias spread down the rows. The change of float format in front of the product is the identity on extended
  reals. So entry (r, e) of the stored block is the sum over d of x (b, 512·q + r, d) · Wt (d, e), plus bias e:
  the stored block is the block at (b, q) of ONE function of the whole arrays. The eight blocks tile the
  2 × 2048 × 1024 output, each written back once, so the array ends holding that function everywhere.
-/
import proofs.«175069_j80315888436070_2_alg».proof.Proof.Gen.KernelIdeal.Frame
import proofs.«175069_j80315888436070_2_alg».proof.Proof.Spec
import proofs.«175069_j80315888436070_2_alg».proof.Proof.LibDotRows
import Idealize.ShloMosaic.Lib.ValueLayout
import Idealize.ShloMosaic.Lib.Pipeline.Value

noncomputable section
open Idealize.ShloMosaic Idealize.ShloMosaic.TcCoe Idealize.ShloMosaic.ValueIdx Idealize.SL.Sem
open Idealize.ShloMosaic.Pipeline (Dat)

namespace Cert.KernelIdeal.Val
open Cert.KernelIdeal Cert.KernelIdeal.Gen

namespace OutProj

/-! ## The body's stored value at an index -/

/-- The coordinate maps of the block's matrix product are the plain ones: the left operand is read along its row
    (axis 0 kept, axis 1 contracted), the right operand down its column (axis 0 contracted, axis 1 kept). -/
theorem dotL0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dotL1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem dotR0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem dotR1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- What the body stores, at row r and column e of its block, from ANY three loaded blocks: row r of the x block
    against column e of the weight, plus the bias at e. The leading unit axis is dropped and put back by reshapes, the
    weight's reshape is to its own shape, the product starts from the zero accumulator, and the bias vector becomes
    one row laid under every row. -/
theorem stored_apply (x0 : Vec Ideal S1x512x1024 .f32) (x1 : Vec Ideal S1024x1024 .bf16) (x2 : Vec Ideal S1024 .f32)
    (u : Fin 1) (r : Fin 512) (e : Fin 1024) :
    k2_pay1 (F := Ideal) x0 x1 x2 (ix3 u r e)
      = (∑ d : Fin 1024, x0 (ix3 (0 : Fin 1) r d) * x1 (ix2 d e)) + x2 (ix1 e) := by
  unfold k2_pay1
  refine (shapeCast_ab_1ab_apply _ shapeCasts_S512x1024_S1x512x1024 u r e).trans ?_
  refine (addf_apply _ _ _).trans ?_
  refine congrArg₂ (· + ·) ?_ ?_
  · refine (Ideal.matmul_constant_zero_apply dot_S512x1024_S1024x1024_S512x1024_1_0_0_1_n_n none _ _ (ix2 r e)).trans ?_
    refine (Cert.LibDotRows.sum_contr_eq_rowDot dot_S512x1024_S1024x1024_S512x1024_1_0_0_1_n_n rfl rfl dotL0 dotL1 dotR0 dotR1 _ _ (ix2 r e)).trans ?_
    unfold Cert.LibDotRows.rowDot
    refine Finset.sum_congr rfl fun d _ => congrArg₂ (· * ·) ?_ ?_
    · exact shapeCast_1ab_ab_apply x0 shapeCasts_S1x512x1024_S512x1024 r d
    · exact congrFun (shapeCast_self x1 shapeCasts_S1024x1024_S1024x1024) (ix2 d e)
  · refine (broadcastTo_1b_ab_apply _ broadcasts_S1x1024_S512x1024 r e).trans ?_
    exact shapeCast_a_1a_apply x2 shapeCasts_S1024_S1x1024 (0 : Fin 1) e

/-! ## The whole array as one function -/

variable (V : (c : Dev nD) → (b : Ref sig .tc) → Buf (Elt Ideal) ((c : Thread nD τ).loc b)) (c : Dev nD)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The dense layer of the whole arrays, index by index: entry i is the row (i 0, i 1) of x against column i 2 of the
    weight, plus the bias at i 2. -/
def dense (X : S2x2048x1024.Idx → EReal) (Wt : S1024x1024.Idx → EReal) (bias : S1024.Idx → EReal) : S2x2048x1024.Idx → EReal :=
  fun i => Spec.linTE X Wt bias (i 0) (i 1) (i 2)

/-- The same at an index given by the values of its coordinates. -/
theorem dense_at (X : S2x2048x1024.Idx → EReal) (Wt : S1024x1024.Idx → EReal) (bias : S1024.Idx → EReal)
    (i : S2x2048x1024.Idx) (b : Fin 2) (p : Fin 2048) (e : Fin 1024)
    (h0 : (i 0).val = b.val) (h1 : (i 1).val = p.val) (h2 : (i 2).val = e.val) :
    dense X Wt bias i = Spec.linTE X Wt bias b p e := by
  have hi : i = ix3 b p e := funext fun a => Fin.ext (by
    match a with
    | ⟨0, _⟩ => exact h0
    | ⟨1, _⟩ => exact h1
    | ⟨2, _⟩ => exact h2)
  rw [hi]; rfl

/-! ## Where the blocks sit -/

/-- The block positions, decided over the eight grid points: the x block moves with the output block along the batch
    and row-block axes and never along the feature axis; the weight and the bias are always the block at the origin;
    the output's batch position is at most 1 and its row-block position at most 3. -/
theorem block_positions : ∀ t : Fin cfg2.N,
    win2_0.index t (0 : Fin 3) = win2_3.index t (0 : Fin 3) ∧ win2_0.index t (1 : Fin 3) = win2_3.index t (1 : Fin 3)
    ∧ win2_0.index t (2 : Fin 3) = 0 ∧ win2_3.index t (2 : Fin 3) = 0
    ∧ win2_1.index t (0 : Fin 2) = 0 ∧ win2_1.index t (1 : Fin 2) = 0 ∧ win2_2.index t (0 : Fin 1) = 0
    ∧ win2_3.index t (0 : Fin 3) ≤ 1 ∧ win2_3.index t (1 : Fin 3) ≤ 3 :=
  (by decide +kernel : ∀ t : Fin grid2.N, _)

/-- Every (batch, row-block) position is some grid point's. -/
theorem positions_onto : ∀ (q0 : Fin 2) (q1 : Fin 4), ∃ t : Fin cfg2.N, win2_3.index t = ![q0.val, q1.val, 0] :=
  (by decide +kernel : ∀ (q0 : Fin 2) (q1 : Fin 4), ∃ t : Fin grid2.N, win2_3.index t = ![q0.val, q1.val, 0])

/-- The x block at a point, read at (0, r, d): the array at batch = the block's batch position and row = 512 times the
    block's row position plus r (an element of a block sits at position × block size + its own coordinate). -/
theorem xBlock_apply (t : Fin cfg2.N) (r : Fin 512) (d : Fin 1024) (b : Fin 2) (p : Fin 2048)
    (hb : win2_0.index t (0 : Fin 3) = b.val) (hp : win2_0.index t (1 : Fin 3) * 512 + r.val = p.val)
    (h2 : win2_0.index t (2 : Fin 3) = 0) :
    iblk2 V c 0 t (ix3 (0 : Fin 1) r d) = V c main_v11 (ix3 b p d) := by
  unfold iblk2
  rw [View.read_apply]
  show V c main_v11 _ = V c main_v11 _
  congr 1
  funext a; apply Fin.ext
  match a with
  | ⟨0, _⟩ => show win2_0.index t (0 : Fin 3) * 1 + 1 * 0 = b.val; omega
  | ⟨1, _⟩ => show win2_0.index t (1 : Fin 3) * 512 + 1 * r.val = p.val; omega
  | ⟨2, _⟩ => show win2_0.index t (2 : Fin 3) * 1024 + 1 * d.val = d.val; omega

/-- The weight block at a point is the whole weight. -/
theorem wBlock_apply (t : Fin cfg2.N) (d e : Fin 1024)
    (h0 : win2_1.index t (0 : Fin 2) = 0) (h1 : win2_1.index t (1 : Fin 2) = 0) :
    iblk2 V c 1 t (ix2 d e) = V c main_v3 (ix2 d e) := by
  unfold iblk2
  rw [View.read_apply]
  show V c main_v3 _ = V c main_v3 _
  congr 1
  funext a; apply Fin.ext
  match a with
  | ⟨0, _⟩ => show win2_1.index t (0 : Fin 2) * 1024 + 1 * d.val = d.val; omega
  | ⟨1, _⟩ => show win2_1.index t (1 : Fin 2) * 1024 + 1 * e.val = e.val; omega

/-- The bias block at a point is the whole bias. -/
theorem biasBlock_apply (t : Fin cfg2.N) (e : Fin 1024) (h0 : win2_2.index t (0 : Fin 1) = 0) :
    iblk2 V c 2 t (ix1 e) = V c main_arg4 (ix1 e) := by
  unfold iblk2
  rw [View.read_apply]
  show V c main_arg4 _ = V c main_arg4 _
  congr 1
  funext a; apply Fin.ext
  match a with
  | ⟨0, _⟩ => show win2_2.index t (0 : Fin 1) * 1024 + 1 * e.val = e.val; omega

/-! ## From the blocks to the array -/

/-- What a point writes back is its block of the dense layer of the whole arrays: the body's one store goes through
    the whole block, its loads read the three input blocks whole, and entry (r, e) of the stored block needs row r of
    the x block only, which is row (block row position · 512 + r) of the array at the block's batch. -/
theorem writeBack_eq (t : Fin cfg2.N) :
    (dat2 (F := Ideal) V c).flushed 3 t
      = ((cfg2.win 3).blk t).view.read (Elt Ideal) (dense (V c main_v11) (V c main_v3) (V c main_arg4)) := by
  show (cfg2.win 3).cut (grid2.coords t) ((dat2 (F := Ideal) V c).after 3 t) = _
  rw [after2_3]
  unfold out2_3
  rw [View.canon_unit_zero zeros3]
  simp only [View.ld_unit_zero (S := S1x512x1024) zeros3, View.ld_unit_zero (S := S1024x1024) zeros2, View.ld_unit_zero (S := S1024) zeros1]
  obtain ⟨e0, e1, e2, e3, e4, e5, e6, e7, e8⟩ := block_positions t
  refine funext fun (y : S1x512x1024.Idx) => ?_
  obtain ⟨u, r, e, rfl⟩ : ∃ (u : Fin 1) (r : Fin 512) (e : Fin 1024), y = ix3 u r e := ⟨y 0, y 1, y 2, eq_ix3 y⟩
  show k2_pay1 (F := Ideal) (iblk2 V c 0 t) (iblk2 V c 1 t) (iblk2 V c 2 t) (ix3 u r e)
    = dense (V c main_v11) (V c main_v3) (V c main_arg4) (((cfg2.win 3).blk t).view.emb (ix3 u r e))
  refine (stored_apply (iblk2 V c 0 t) (iblk2 V c 1 t) (iblk2 V c 2 t) u r e).trans ?_
  have hu : u.val = 0 := by omega
  refine Eq.trans ?_ (dense_at (V c main_v11) (V c main_v3) (V c main_arg4) (((cfg2.win 3).blk t).view.emb (ix3 u r e))
    ⟨win2_3.index t (0 : Fin 3), by omega⟩ ⟨win2_3.index t (1 : Fin 3) * 512 + r.val, by have := r.isLt; omega⟩ e ?_ ?_ ?_).symm
  · unfold Spec.linTE
    refine congrArg₂ (· + ·) (Finset.sum_congr rfl fun d _ => congrArg₂ (· * ·) ?_ ?_) ?_
    · exact xBlock_apply V c t r d _ _ e0 (by show win2_0.index t (1 : Fin 3) * 512 + r.val = win2_3.index t (1 : Fin 3) * 512 + r.val; omega) e2
    · exact wBlock_apply V c t d e e4 e5
    · exact biasBlock_apply V c t e e6
  · show win2_3.index t (0 : Fin 3) * 1 + 1 * u.val = win2_3.index t (0 : Fin 3); omega
  · show win2_3.index t (1 : Fin 3) * 512 + 1 * r.val = win2_3.index t (1 : Fin 3) * 512 + r.val; omega
  · show win2_3.index t (2 : Fin 3) * 1024 + 1 * e.val = e.val; omega

/-- An index of the output array lies in a point's block exactly when each coordinate lies in the block's range on
    its axis. -/
theorem mem_outBlock (t : Fin cfg2.N) (i : S2x2048x1024.Idx) :
    i ∈ ((cfg2.win 3).blk t).view.set ↔ ∀ a : Fin 3, win2_3.index t a * S1x512x1024.size a ≤ (i a).val ∧ (i a).val < win2_3.index t a * S1x512x1024.size a + S1x512x1024.size a := by
  show i ∈ ((View.whole main_v12).slice (win2_3.rect t)).set ↔ _
  rw [View.set_slice_whole, Rect.mem_set_unit]
  exact Iff.rfl

/-- The eight blocks cover the output: index (b, p, e) lies in the block at batch position b and row position
    p / 512, and every point writes its block back. -/
theorem outBlocks_cover (i : S2x2048x1024.Idx) :
    ∃ t : Fin cfg2.N, (cfg2.win 3).flush t = true ∧ i ∈ ((cfg2.win 3).blk t).view.set := by
  have hi0 : (i 0).val < 2 := (i 0).isLt
  have hi1 : (i 1).val < 2048 := (i 1).isLt
  have hi2 : (i 2).val < 1024 := (i 2).isLt
  obtain ⟨t, ht⟩ := positions_onto ⟨(i 0).val, hi0⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_outBlock]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 1024 ≤ (i 2).val ∧ (i 2).val < win2_3.index t (2 : Fin 3) * 1024 + 1024; omega

/-- After all eight points the output array is the dense layer of the region-entry arrays. -/
theorem array_eq : (dat2 (F := Ideal) V c).arrAt 3 cfg2.N = dense (V c main_v11) (V c main_v3) (V c main_arg4) :=
  (dat2 (F := Ideal) V c).arrAt_eq_of_cover 3 (dense (V c main_v11) (V c main_v3) (V c main_arg4))
    (fun t _ => writeBack_eq V c t) outBlocks_cover

end OutProj

variable (V : (c : Dev nD) → (b : Ref sig .tc) → Buf (Elt Ideal) ((c : Thread nD τ).loc b)) (c : Dev nD)

/-- The output projection, entry by entry: for any region-entry contents, the output array after the region holds at
    (b, t, e) the sum over d of x (b, t, d) · Wt (d, e), plus bias e. -/
theorem outproj (b : Fin 2) (t : Fin 2048) (e : Fin 1024) :
    (dat2 (F := Ideal) V c).arrAt 3 cfg2.N (ix3 b t e)
      = Spec.linTE (V c main_v11) (V c main_v3) (V c main_arg4) b t e :=
  (congrFun (OutProj.array_eq V c) (ix3 b t e)).trans rfl

end Cert.KernelIdeal.Val
end
-- ==== Proof.HostGlue.lean ====
/-
  The host operations between the three regions, read at an index.

  Before region 0 the two weights are narrowed (the identity on extended reals) and transposed; between regions 0
  and 1 the three [2,16,2048,64] arrays are reshaped to [32,2048,64], batch·head b·16 + h; after region 1 the
  [32,2048,64] array is reshaped back, its head and position axes swapped, and the heads laid side by side,
  d = head·64 + lane. Each buffer at each region's entry is therefore an earlier buffer at a renamed index, and a
  buffer no operation and no region writes is still what the launch memory held.
-/
import proofs.«175069_j80315888436070_2_alg».proof.Proof.Gen.KernelIdeal.Frame
import proofs.«175069_j80315888436070_2_alg».proof.Proof.Spec
import Idealize.ShloMosaic.Lib.Pipeline.Value

set_option maxRecDepth 16384

noncomputable section

open Idealize.ShloMosaic Idealize.ShloMosaic.TcCoe Idealize.ShloMosaic.ValueIdx Idealize.SL.Sem

namespace Cert.KernelIdeal.Glue

open Cert.KernelIdeal Cert.KernelIdeal.Gen

variable (m : (ℓ : Loc nD τ sig) → Buf (Elt Ideal) ℓ) (ρ : Dev nD → PrngReg) (c : Dev nD)

/-! ## Before region 0 -/

/-- The transposed projection weight at (d, e) is the weight argument at (e, d). -/
theorem V1_main_v1 (d : Fin 1024) (e : Fin 3072) :
    V1 (F := Ideal) m ρ c main_v1 (ix2 d e) = m ((c : Thread nD τ).loc main_arg1) (ix2 e d) := by
  show StableHlo.after hostOps0 (W0 m ρ c) (Proc.devRef .tc main_v1) (ix2 d e) = _
  after_results
  refine (transpose_apply _ _ _ _ (ix2 e d) (fun b => match b with | ⟨0, _⟩ => rfl | ⟨1, _⟩ => rfl)).trans ?_
  rfl

/-- No host operation before region 0 writes the activations or the projection bias. -/
theorem V1_main_arg0 : V1 (F := Ideal) m ρ c main_arg0 = m ((c : Thread nD τ).loc main_arg0) := by
  show StableHlo.after hostOps0 (W0 m ρ c) (Proc.devRef .tc main_arg0) = _
  after_results

theorem V1_main_arg2 : V1 (F := Ideal) m ρ c main_arg2 = m ((c : Thread nD τ).loc main_arg2) := by
  show StableHlo.after hostOps0 (W0 m ρ c) (Proc.devRef .tc main_arg2) = _
  after_results

/-- The transposed output weight at (d, e), as region 0 finds it, is the weight argument at (e, d). -/
theorem V1_main_v3 (d e : Fin 1024) :
    V1 (F := Ideal) m ρ c main_v3 (ix2 d e) = m ((c : Thread nD τ).loc main_arg3) (ix2 e d) := by
  show StableHlo.after hostOps0 (W0 m ρ c) (Proc.devRef .tc main_v3) (ix2 d e) = _
  after_results
  refine (transpose_apply _ _ _ _ (ix2 e d) (fun b => match b with | ⟨0, _⟩ => rfl | ⟨1, _⟩ => rfl)).trans ?_
  rfl

/-! ## Between regions 0 and 1 -/

/-- The row-major position of (bh / 16, bh % 16, t, j) in [2,16,2048,64] is that of (bh, t, j) in [32,2048,64]. -/
theorem rowMajor_split (bh : Fin 32) (t : Fin 2048) (j : Fin 64) :
    (S2x16x2048x64.rowMajor (ix4 (Spec.batchOf bh) (Spec.hOf bh) t j)).val = (S32x2048x64.rowMajor (ix3 bh t j)).val := by
  rw [Shape.rowMajor_val_four, Shape.rowMajor_val_three]
  show (((bh.val / 16) * 16 + bh.val % 16) * 2048 + t.val) * 64 + j.val = (bh.val * 2048 + t.val) * 64 + j.val
  omega

theorem V3_main_v5 (bh : Fin 32) (t : Fin 2048) (j : Fin 64) :
    V3 (F := Ideal) m ρ c main_v5 (ix3 bh t j) = V2 m ρ c main_v4_0 (ix4 (Spec.batchOf bh) (Spec.hOf bh) t j) := by
  show StableHlo.after hostOps1 (W2 m ρ c) (Proc.devRef .tc main_v5) (ix3 bh t j) = _
  after_results
  exact shapeCast_apply _ _ _ _ (rowMajor_split bh t j)

theorem V3_main_v6 (bh : Fin 32) (t : Fin 2048) (j : Fin 64) :
    V3 (F := Ideal) m ρ c main_v6 (ix3 bh t j) = V2 m ρ c main_v4_1 (ix4 (Spec.batchOf bh) (Spec.hOf bh) t j) := by
  show StableHlo.after hostOps1 (W2 m ρ c) (Proc.devRef .tc main_v6) (ix3 bh t j) = _
  after_results
  exact shapeCast_apply _ _ _ _ (rowMajor_split bh t j)

theorem V3_main_v7 (bh : Fin 32) (t : Fin 2048) (j : Fin 64) :
    V3 (F := Ideal) m ρ c main_v7 (ix3 bh t j) = V2 m ρ c main_v4_2 (ix4 (Spec.batchOf bh) (Spec.hOf bh) t j) := by
  show StableHlo.after hostOps1 (W2 m ρ c) (Proc.devRef .tc main_v7) (ix3 bh t j) = _
  after_results
  exact shapeCast_apply _ _ _ _ (rowMajor_split bh t j)

/-! ## Between regions 1 and 2 -/

/-- The row-major position of (b, t, d / 64, d % 64) in [2,2048,16,64] is that of (b, t, d) in [2,2048,1024]. -/
theorem rowMajor_heads (b : Fin 2) (t : Fin 2048) (d : Fin 1024) :
    (S2x2048x16x64.rowMajor (ix4 b t (Spec.headOf d) (Spec.laneOf d))).val = (S2x2048x1024.rowMajor (ix3 b t d)).val := by
  rw [Shape.rowMajor_val_four, Shape.rowMajor_val_three]
  show ((b.val * 2048 + t.val) * 16 + d.val / 64) * 64 + d.val % 64 = (b.val * 2048 + t.val) * 1024 + d.val
  omega

/-- The row-major position of (b·16 + h, t, l) in [32,2048,64] is that of (b, h, t, l) in [2,16,2048,64]. -/
theorem rowMajor_join (b : Fin 2) (h : Fin 16) (t : Fin 2048) (l : Fin 64) :
    (S32x2048x64.rowMajor (ix3 (Spec.bhOf b h) t l)).val = (S2x16x2048x64.rowMajor (ix4 b h t l)).val := by
  rw [Shape.rowMajor_val_four, Shape.rowMajor_val_three]
  show ((b.val * 16 + h.val) * 2048 + t.val) * 64 + l.val = ((b.val * 16 + h.val) * 2048 + t.val) * 64 + l.val
  rfl

/-- The heads side by side at (b, t, d) are region 1's result at (b·16 + head d, t, lane d). -/
theorem V5_main_v11 (b : Fin 2) (t : Fin 2048) (d : Fin 1024) :
    V5 (F := Ideal) m ρ c main_v11 (ix3 b t d)
      = V4 m ρ c main_v8 (ix3 (Spec.bhOf b (Spec.headOf d)) t (Spec.laneOf d)) := by
  show StableHlo.after hostOps2 (W4 m ρ c) (Proc.devRef .tc main_v11) (ix3 b t d) = _
  after_results
  refine (shapeCast_apply _ _ _ (ix4 b t (Spec.headOf d) (Spec.laneOf d)) (rowMajor_heads b t d)).trans ?_
  refine (transpose_apply _ _ _ _ (ix4 b (Spec.headOf d) t (Spec.laneOf d))
    (fun a => match a with | ⟨0, _⟩ => rfl | ⟨1, _⟩ => rfl | ⟨2, _⟩ => rfl | ⟨3, _⟩ => rfl)).trans ?_
  exact shapeCast_apply _ _ _ _ (rowMajor_join b (Spec.headOf d) t (Spec.laneOf d))

/-! ## What region 2 finds of the launch memory -/

/-- Nothing between the launch and region 2 writes the output bias. -/
theorem V5_main_arg4 : V5 (F := Ideal) m ρ c main_arg4 = m ((c : Thread nD τ).loc main_arg4) :=
  calc W5 m ρ c (Proc.devRef .tc main_arg4)
    _ = W4 m ρ c (Proc.devRef .tc main_arg4) := by
          show StableHlo.after hostOps2 (W4 m ρ c) (Proc.devRef .tc main_arg4) = _; after_results
    _ = W3 m ρ c (Proc.devRef .tc main_arg4) := W4_of_ne m ρ c main_arg4 (by decide)
    _ = W2 m ρ c (Proc.devRef .tc main_arg4) := by
          show StableHlo.after hostOps1 (W2 m ρ c) (Proc.devRef .tc main_arg4) = _; after_results
    _ = W1 m ρ c (Proc.devRef .tc main_arg4) := W2_of_ne m ρ c main_arg4 (by decide)
    _ = W0 m ρ c (Proc.devRef .tc main_arg4) := by
          show StableHlo.after hostOps0 (W0 m ρ c) (Proc.devRef .tc main_arg4) = _; after_results
    _ = m ((c : Thread nD τ).loc main_arg4) := rfl

/-- The transposed output weight is written before region 0 and by nothing after. -/
theorem V5_main_v3_eq : V5 (F := Ideal) m ρ c main_v3 = V1 m ρ c main_v3 :=
  calc W5 m ρ c (Proc.devRef .tc main_v3)
    _ = W4 m ρ c (Proc.devRef .tc main_v3) := by
          show StableHlo.after hostOps2 (W4 m ρ c) (Proc.devRef .tc main_v3) = _; after_results
    _ = W3 m ρ c (Proc.devRef .tc main_v3) := W4_of_ne m ρ c main_v3 (by decide)
    _ = W2 m ρ c (Proc.devRef .tc main_v3) := by
          show StableHlo.after hostOps1 (W2 m ρ c) (Proc.devRef .tc main_v3) = _; after_results
    _ = W1 m ρ c (Proc.devRef .tc main_v3) := W2_of_ne m ρ c main_v3 (by decide)

/-- The transposed output weight at (d, e), as region 2 finds it, is the weight argument at (e, d). -/
theorem V5_main_v3 (d e : Fin 1024) :
    V5 (F := Ideal) m ρ c main_v3 (ix2 d e) = m ((c : Thread nD τ).loc main_arg3) (ix2 e d) :=
  (congrFun (V5_main_v3_eq m ρ c) (ix2 d e)).trans (V1_main_v3 m ρ c d e)

/-! ## The regions' arrays, named -/

theorem V2_main_v4_0 : V2 (F := Ideal) m ρ c main_v4_0 = (dat0 (V1 m ρ) c).arrAt 3 cfg0.N := W2_arr m ρ c 3
theorem V2_main_v4_1 : V2 (F := Ideal) m ρ c main_v4_1 = (dat0 (V1 m ρ) c).arrAt 4 cfg0.N := W2_arr m ρ c 4
theorem V2_main_v4_2 : V2 (F := Ideal) m ρ c main_v4_2 = (dat0 (V1 m ρ) c).arrAt 5 cfg0.N := W2_arr m ρ c 5
theorem V4_main_v8 : V4 (F := Ideal) m ρ c main_v8 = (dat1 (V3 m ρ) c).arrAt 3 cfg1.N := W4_arr m ρ c 3
theorem W6_main_v12 : W6 (F := Ideal) m ρ c (Proc.devRef .tc main_v12) = (dat2 (V5 m ρ) c).arrAt 3 cfg2.N := W6_arr m ρ c 3

end Cert.KernelIdeal.Glue

end
-- ==== Proof.Finite.lean ====
/-
  Finiteness of the inputs.

  The precondition is one truth value: for each of the five argument arrays, the conjunction over all its entries of
  |x| < +∞, and the conjunction of the five. When that value is true each of the five conjunctions is true, hence each
  entry's test is true; and an extended real whose absolute value max x (-x) is strictly below +∞ is neither infinity,
  so it is a real number.
-/
import proofs.«175069_j80315888436070_2_alg».proof.Defs
import Idealize.ShloMosaic.Lib.ReduceAll
import Idealize.ShloMosaic.Lib.ValueIdx

noncomputable section
open Idealize.ShloMosaic Idealize.ShloMosaic.TcCoe Idealize.ShloMosaic.ValueIdx Idealize.SL.Sem

namespace Cert.Fin
open Cert.KernelIdeal

/-- The shape with no axes has exactly one index. -/
instance : Subsingleton Cert.Pre_finite_inputs.S_.Idx := ⟨fun a b => funext fun d => d.elim0⟩

/-- The word 0x7F800000 (exponent all ones, significand zero, sign clear) denotes +∞. -/
theorem inf_word : Ideal.ofBits .f32 0x7F800000#32 = (⊤ : EReal) := by simp [Ideal.ofBits, Ideal.ieee]

/-- An extended real whose absolute value, max x (-x), lies strictly below +∞ is a real number: at either infinity
    the absolute value is +∞ itself. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | top => exact absurd h (by simp [Ideal.cmp])
  | coe r => exact ⟨r, rfl⟩

/-- The "all entries finite" test of one array, read back: when the conjunction over all indices of |v i| < +∞ comes
    out true, every entry of v is a real. The conjunction over every axis has a single result, so each index of v
    contributes to it. -/
theorem all_real {S : Shape} {axes : List (Fin S.rank)} (v : FVec Ideal S .f32)
    (hb : Cert.Pre_finite_inputs.S_.BroadcastsInDim S (![] : Fin 0 → Fin S.rank))
    (hr : S.ReducesTo axes Cert.Pre_finite_inputs.S_) (hn : 0 < Cert.Pre_finite_inputs.S_.numel)
    (e : Host.reduce IntOp.andi (cmpf .olt (Host.absf v)
          (broadcastInDim S ![] hb (constant (F := Ideal) Cert.Pre_finite_inputs.S_ .f32 0x7F800000#32)))
        (constantI Cert.Pre_finite_inputs.S_ 1 1#1) hr hn ix0 = 1#1)
    (i : S.Idx) : ∃ r : ℝ, v i = (r : EReal) :=
  real_of_abs_lt_inf (v i) (Host.reduce_andi_all _ _ hr hn ix0 e i)

/-- Under the precondition every entry of each of the five argument arrays is a real number. The precondition's value is
    ((((t₀ ∧ t₁) ∧ t₂) ∧ t₃) ∧ t₄) with tₖ the all-finite test of argument k; it is split from the outside in. -/
theorem finite_of_pre [hKernelIdeal : Cert.KernelIdeal.Facts] [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal)) := by
  have h0 := congrFun (h c) ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real _ _ _ _ e0, all_real _ _ _ _ e1, all_real _ _ _ _ e2, all_real _ _ _ _ e3, all_real _ _ _ _ e4⟩

end Cert.Fin
end
-- ==== Proof.Bridge.lean ====
/-
  The two spellings of the attention layer agree when the inputs are reals.

  With real x, W and bias every projected entry is a real, so each score is a real and the reference's softmax
  row — scores after the query at -∞, row maximum subtracted, exponentials normalised, weights times values — is the
  shift-free quotient (∑_{s ≤ t} exp(a s)·v s)/(∑_{s ≤ t} exp(a s)), which is what the tiled recurrence leaves.
  The flattened batch·head index bh = b·16 + h of the tiled side and the pair (b, h) of the reference name the same
  query, key and value rows. The final projection is the same sum on both sides, term by term.
-/
import proofs.«175069_j80315888436070_2_alg».proof.Proof.Spec
import proofs.«175069_j80315888436070_2_alg».proof.Proof.SoftmaxMath
import proofs.«175069_j80315888436070_2_alg».proof.Proof.LibOnlineSoftmax

noncomputable section

namespace Cert.Bridge

open Idealize.ShloMosaic Idealize.ShloMosaic.ValueIdx Cert.Spec Cert.SoftmaxMath Cert.Lib.OnlineSoftmax

/-- The scale word is one eighth. -/
theorem scale_coe : scaleE = ((1 / 8 : ℝ) : EReal) := by
  simp [scaleE, Ideal.ofBits, Ideal.ieee]
  first
    | exact_mod_cast (by norm_num : (8388608 : ℝ) * ((2 : ℝ) ^ 26)⁻¹ = (8 : ℝ)⁻¹)
    | (rw [← EReal.coe_mul]; norm_num)

/-- A sum of products of reals, computed in the extended reals, is the real sum. -/
theorem coe_sum_mul {K : ℕ} (f g : Fin K → ℝ) :
    ∑ d : Fin K, ((f d : ℝ) : EReal) * ((g d : ℝ) : EReal) = ((∑ d : Fin K, f d * g d : ℝ) : EReal) := by
  rw [ereal_coe_sum]
  exact Finset.sum_congr rfl fun d _ => (EReal.coe_mul _ _).symm

theorem batchOf_bhOf (b : Fin 2) (h : Fin 16) : batchOf (bhOf b h) = b :=
  Fin.ext (by show (b.val * 16 + h.val) / 16 = b.val; have := h.isLt; omega)

theorem hOf_bhOf (b : Fin 2) (h : Fin 16) : hOf (bhOf b h) = h :=
  Fin.ext (by show (b.val * 16 + h.val) % 16 = h.val; have := h.isLt; omega)

/-- A dense entry over the reals. -/
def linR (xr : (⟨3, ![2, 2048, 1024]⟩ : Shape).Idx → ℝ) {E : Nat} (wr : (⟨2, ![E, 1024]⟩ : Shape).Idx → ℝ)
    (br : (⟨1, ![E]⟩ : Shape).Idx → ℝ) (b : Fin 2) (t : Fin 2048) (e : Fin E) : ℝ :=
  (∑ d : Fin 1024, xr (ix3 b t d) * wr (ix2 e d)) + br (ix1 e)

/-- With real operands a dense entry is the real one. -/
theorem linE_coe (X : (⟨3, ![2, 2048, 1024]⟩ : Shape).Idx → EReal) {E : Nat} (W : (⟨2, ![E, 1024]⟩ : Shape).Idx → EReal)
    (B : (⟨1, ![E]⟩ : Shape).Idx → EReal) (xr : (⟨3, ![2, 2048, 1024]⟩ : Shape).Idx → ℝ)
    (wr : (⟨2, ![E, 1024]⟩ : Shape).Idx → ℝ) (br : (⟨1, ![E]⟩ : Shape).Idx → ℝ)
    (hX : ∀ i, X i = ((xr i : ℝ) : EReal)) (hW : ∀ i, W i = ((wr i : ℝ) : EReal)) (hB : ∀ i, B i = ((br i : ℝ) : EReal))
    (b : Fin 2) (t : Fin 2048) (e : Fin E) : linE X W B b t e = ((linR xr wr br b t e : ℝ) : EReal) := by
  unfold linE linR
  rw [show (∑ d : Fin 1024, X (ix3 b t d) * W (ix2 e d)) = ∑ d : Fin 1024, ((xr (ix3 b t d) : ℝ) : EReal) * ((wr (ix2 e d) : ℝ) : EReal)
    from Finset.sum_congr rfl fun d _ => by rw [hX, hW], coe_sum_mul, hB, ← EReal.coe_add]

/-- The stored-transposed spelling of a dense entry is the plain one. -/
theorem linTE_eq_linE (X : (⟨3, ![2, 2048, 1024]⟩ : Shape).Idx → EReal) {E : Nat} (Wt : (⟨2, ![1024, E]⟩ : Shape).Idx → EReal)
    (W : (⟨2, ![E, 1024]⟩ : Shape).Idx → EReal) (B : (⟨1, ![E]⟩ : Shape).Idx → EReal)
    (hWt : ∀ (d : Fin 1024) (e : Fin E), Wt (ix2 d e) = W (ix2 e d)) (b : Fin 2) (t : Fin 2048) (e : Fin E) :
    linTE X Wt B b t e = linE X W B b t e := by
  unfold linTE linE
  exact congrArg (· + B (ix1 e)) (Finset.sum_congr rfl fun d _ => by rw [hWt])

/-- The real query, key or value array of the tiled side: entry (bh, t, j) is the projection's entry
    (bh / 16, t, (bh % 16)·192 + sel·64 + j). -/
def qkvArr (xr : (⟨3, ![2, 2048, 1024]⟩ : Shape).Idx → ℝ) (wr : (⟨2, ![3072, 1024]⟩ : Shape).Idx → ℝ)
    (br : (⟨1, ![3072]⟩ : Shape).Idx → ℝ) (sel : Fin 3) : (⟨3, ![32, 2048, 64]⟩ : Shape).Idx → ℝ := fun i =>
  linR xr wr br (batchOf ⟨(i 0).val, (i 0).isLt⟩) ⟨(i 1).val, (i 1).isLt⟩ (feat (hOf ⟨(i 0).val, (i 0).isLt⟩) sel ⟨(i 2).val, (i 2).isLt⟩)

theorem qkvArr_apply (xr : (⟨3, ![2, 2048, 1024]⟩ : Shape).Idx → ℝ) (wr : (⟨2, ![3072, 1024]⟩ : Shape).Idx → ℝ)
    (br : (⟨1, ![3072]⟩ : Shape).Idx → ℝ) (sel : Fin 3) (bh : Fin 32) (t : Fin 2048) (j : Fin 64) :
    qkvArr xr wr br sel (ix3 bh t j) = linR xr wr br (batchOf bh) t (feat (hOf bh) sel j) := rfl

/-- The reference's attention entry is the tiled side's real one. -/
theorem attnE_eq_flash (X : (⟨3, ![2, 2048, 1024]⟩ : Shape).Idx → EReal) (W : (⟨2, ![3072, 1024]⟩ : Shape).Idx → EReal)
    (B : (⟨1, ![3072]⟩ : Shape).Idx → EReal) (qr kr vr : (⟨3, ![32, 2048, 64]⟩ : Shape).Idx → ℝ)
    (hq : ∀ b h t j, qkvE X W B 0 b h t j = ((qr (ix3 (bhOf b h) t j) : ℝ) : EReal))
    (hk : ∀ b h t j, qkvE X W B 1 b h t j = ((kr (ix3 (bhOf b h) t j) : ℝ) : EReal))
    (hv : ∀ b h t j, qkvE X W B 2 b h t j = ((vr (ix3 (bhOf b h) t j) : ℝ) : EReal))
    (b : Fin 2) (h : Fin 16) (t : Fin 2048) (j : Fin 64) :
    attnE X W B b h t j = ((flashR qr kr vr (1 / 8) (bhOf b h) t j : ℝ) : EReal) := by
  unfold attnE flashR
  have hs : (fun s => scoreE X W B b h t s) = fun s => ((scoreR qr kr (1 / 8) (bhOf b h) t s : ℝ) : EReal) := funext fun s => by
    unfold scoreE scoreR
    rw [scale_coe, show (∑ j : Fin 64, qkvE X W B 0 b h t j * qkvE X W B 1 b h s j)
      = ∑ j : Fin 64, ((qr (ix3 (bhOf b h) t j) : ℝ) : EReal) * ((kr (ix3 (bhOf b h) s j) : ℝ) : EReal)
      from Finset.sum_congr rfl fun j _ => by rw [hq, hk], coe_sum_mul, ← EReal.coe_mul]
  rw [hs, show (fun s => qkvE X W B 2 b h s j) = fun s => ((vr (ix3 (bhOf b h) s j) : ℝ) : EReal) from funext fun s => hv b h s j]
  exact attnRowE_masked_coe _ _ t

/-- The layer's result: the output projection of the tiled side's attention array is the reference's entry. -/
theorem out_eq (X : (⟨3, ![2, 2048, 1024]⟩ : Shape).Idx → EReal) (W : (⟨2, ![3072, 1024]⟩ : Shape).Idx → EReal)
    (B : (⟨1, ![3072]⟩ : Shape).Idx → EReal) (Wo : (⟨2, ![1024, 1024]⟩ : Shape).Idx → EReal) (Bo : (⟨1, ![1024]⟩ : Shape).Idx → EReal)
    (xr : (⟨3, ![2, 2048, 1024]⟩ : Shape).Idx → ℝ) (wr : (⟨2, ![3072, 1024]⟩ : Shape).Idx → ℝ) (br : (⟨1, ![3072]⟩ : Shape).Idx → ℝ)
    (hX : ∀ i, X i = ((xr i : ℝ) : EReal)) (hW : ∀ i, W i = ((wr i : ℝ) : EReal)) (hB : ∀ i, B i = ((br i : ℝ) : EReal))
    (A : (⟨3, ![2, 2048, 1024]⟩ : Shape).Idx → EReal) (WoT : (⟨2, ![1024, 1024]⟩ : Shape).Idx → EReal)
    (hA : ∀ b t d, A (ix3 b t d) = ((flashR (qkvArr xr wr br 0) (qkvArr xr wr br 1) (qkvArr xr wr br 2) (1 / 8)
      (bhOf b (headOf d)) t (laneOf d) : ℝ) : EReal))
    (hWoT : ∀ d e : Fin 1024, WoT (ix2 d e) = Wo (ix2 e d)) (b : Fin 2) (t : Fin 2048) (e : Fin 1024) :
    linTE A WoT Bo b t e = outE X W B Wo Bo b t e := by
  unfold linTE outE
  refine congrArg (· + Bo (ix1 e)) (Finset.sum_congr rfl fun d _ => ?_)
  rw [hA, hWoT, attnE_eq_flash X W B (qkvArr xr wr br 0) (qkvArr xr wr br 1) (qkvArr xr wr br 2)
    (fun b h t j => by rw [qkvArr_apply, batchOf_bhOf, hOf_bhOf]; exact linE_coe X W B xr wr br hX hW hB b t _)
    (fun b h t j => by rw [qkvArr_apply, batchOf_bhOf, hOf_bhOf]; exact linE_coe X W B xr wr br hX hW hB b t _)
    (fun b h t j => by rw [qkvArr_apply, batchOf_bhOf, hOf_bhOf]; exact linE_coe X W B xr wr br hX hW hB b t _)]

end Cert.Bridge

end
-- ==== Proof.Whole.lean ====
/-
  The kernel program's result as the reference's formula.

  Reading the result buffer back through the program: it is the output projection's array; its activation operand
  is the attention array with the heads side by side, its weight the transposed output weight; the attention array
  is the attention region's, whose query, key and value operands are the reshaped projection arrays; and those are the
  fused projection of the arguments. With finite arguments every projected entry is a real, so the attention region's
  tiles compute the causal softmax means, and the whole is the reference's layer entry by entry.
-/
import proofs.«175069_j80315888436070_2_alg».proof.Proof.Region0
import proofs.«175069_j80315888436070_2_alg».proof.Proof.Region1
import proofs.«175069_j80315888436070_2_alg».proof.Proof.Region2
import proofs.«175069_j80315888436070_2_alg».proof.Proof.HostGlue
import proofs.«175069_j80315888436070_2_alg».proof.Proof.Finite
import proofs.«175069_j80315888436070_2_alg».proof.Proof.Bridge

set_option maxRecDepth 16384

noncomputable section

namespace Cert.KernelIdeal.Whole

open Idealize.ShloMosaic Idealize.ShloMosaic.TcCoe Idealize.ShloMosaic.ValueIdx Idealize.SL.Sem Cert.KernelIdeal Cert.KernelIdeal.Gen
open Cert.Spec Cert.Bridge

variable (m : (ℓ : Loc nD τ sig) → Buf (Elt Ideal) ℓ) (ρ : Dev nD → PrngReg) (c : Dev nD)

/-- A projection array as the attention region finds it: with real arguments, the real projection entry. -/
theorem proj_real (xr : (⟨3, ![2, 2048, 1024]⟩ : Shape).Idx → ℝ) (wr : (⟨2, ![3072, 1024]⟩ : Shape).Idx → ℝ)
    (br : (⟨1, ![3072]⟩ : Shape).Idx → ℝ)
    (hX : ∀ i, m ((c : Thread nD τ).loc main_arg0) i = ((xr i : ℝ) : EReal))
    (hW : ∀ i, m ((c : Thread nD τ).loc main_arg1) i = ((wr i : ℝ) : EReal))
    (hB : ∀ i, m ((c : Thread nD τ).loc main_arg2) i = ((br i : ℝ) : EReal))
    (sel : Fin 3) (b : Fin 2) (h : Fin 16) (t : Fin 2048) (j : Fin 64) :
    linTE (V1 (F := Ideal) m ρ c main_arg0) (V1 (F := Ideal) m ρ c main_v1) (V1 (F := Ideal) m ρ c main_arg2) b t (feat h sel j)
      = ((linR xr wr br b t (feat h sel j) : ℝ) : EReal) := by
  rw [linTE_eq_linE _ _ (m ((c : Thread nD τ).loc main_arg1)) _ (fun d e => Glue.V1_main_v1 m ρ c d e),
    Glue.V1_main_arg0, Glue.V1_main_arg2]
  exact linE_coe _ _ _ xr wr br hX hW hB b t _

/-- The result buffer, entry by entry, is the layer's result of the arguments. -/
theorem result_eq [hPre : Cert.Pre_finite_inputs.Facts] (hpre : Cert.Pre_KernelIdeal m) (b : Fin 2) (t : Fin 2048) (e : Fin 1024) :
    W6 (F := Ideal) m ρ c (Proc.devRef .tc main_v12) (ix3 b t e)
      = outE (m ((c : Thread nD τ).loc main_arg0)) (m ((c : Thread nD τ).loc main_arg1)) (m ((c : Thread nD τ).loc main_arg2))
          (m ((c : Thread nD τ).loc main_arg3)) (m ((c : Thread nD τ).loc main_arg4)) b t e := by
  obtain ⟨f0, f1, f2, -, -⟩ := Cert.Fin.finite_of_pre m hpre c
  choose xr hX using f0
  choose wr hW using f1
  choose br hB using f2
  have hq : ∀ i, V3 (F := Ideal) m ρ c main_v5 i = ((qkvArr xr wr br 0 i : ℝ) : EReal) := fun i => by
    obtain ⟨bh, tt, j, rfl⟩ : ∃ (bh : Fin 32) (tt : Fin 2048) (j : Fin 64), i = ix3 bh tt j := ⟨i 0, i 1, i 2, eq_ix3 i⟩
    rw [Glue.V3_main_v5, Glue.V2_main_v4_0, Val.proj_q, qkvArr_apply]
    exact proj_real m ρ c xr wr br hX hW hB 0 _ _ tt j
  have hk : ∀ i, V3 (F := Ideal) m ρ c main_v6 i = ((qkvArr xr wr br 1 i : ℝ) : EReal) := fun i => by
    obtain ⟨bh, tt, j, rfl⟩ : ∃ (bh : Fin 32) (tt : Fin 2048) (j : Fin 64), i = ix3 bh tt j := ⟨i 0, i 1, i 2, eq_ix3 i⟩
    rw [Glue.V3_main_v6, Glue.V2_main_v4_1, Val.proj_k, qkvArr_apply]
    exact proj_real m ρ c xr wr br hX hW hB 1 _ _ tt j
  have hv : ∀ i, V3 (F := Ideal) m ρ c main_v7 i = ((qkvArr xr wr br 2 i : ℝ) : EReal) := fun i => by
    obtain ⟨bh, tt, j, rfl⟩ : ∃ (bh : Fin 32) (tt : Fin 2048) (j : Fin 64), i = ix3 bh tt j := ⟨i 0, i 1, i 2, eq_ix3 i⟩
    rw [Glue.V3_main_v7, Glue.V2_main_v4_2, Val.proj_v, qkvArr_apply]
    exact proj_real m ρ c xr wr br hX hW hB 2 _ _ tt j
  rw [Glue.W6_main_v12, Val.outproj, Glue.V5_main_arg4]
  exact out_eq _ _ _ _ _ xr wr br hX hW hB (V5 (F := Ideal) m ρ c main_v11) (V5 (F := Ideal) m ρ c main_v3)
    (fun b t d => by
      rw [Glue.V5_main_v11, Glue.V4_main_v8]
      exact Val.flash (V3 (F := Ideal) m ρ) c (qkvArr xr wr br 0) (qkvArr xr wr br 1) (qkvArr xr wr br 2) hq hk hv _ t _)
    (fun d e => Glue.V5_main_v3 m ρ c d e) b t e

end Cert.KernelIdeal.Whole

end
-- ==== Proof.RefValueQkv.lean ====
/-
  The reference's fused projection read at an index: entry (b, t, f) is the dense layer x · Wᵀ + bias; after the
  reshape to heads, the swap of the position and head axes and the three slices, entry (b, h, t, j) of the query,
  key and value arrays is feature h·192 + sel·64 + j of position t; and the scaled product of queries and keys
  at (b, h, t, s) is the score of position t against position s.
-/
import proofs.«175069_j80315888436070_2_alg».proof.Proof.Gen.ReferenceIdeal.Read
import proofs.«175069_j80315888436070_2_alg».proof.Proof.Spec

noncomputable section
open Idealize.ShloMosaic Idealize.ShloMosaic.TcCoe Idealize.ShloMosaic.ValueIdx Idealize.SL.Sem

namespace Cert.ReferenceIdeal.RefValue
open Cert.ReferenceIdeal Cert.ReferenceIdeal.Gen Cert.ReferenceIdeal.Read

variable (x0 : (⟨S2x2048x1024, .f32⟩ : BufTy).Contents (Elt Ideal)) (x1 : (⟨S3072x1024, .f32⟩ : BufTy).Contents (Elt Ideal))
    (x2 : (⟨S3072, .f32⟩ : BufTy).Contents (Elt Ideal))

/-! ## The fused projection -/

theorem lidx0_at (b : Fin 2) (t : Fin 2048) (f : Fin 3072) (k : Fin 1024) :
    lidx_main_v0 (ix3 b t f) k = ix3 b t k :=
  funext fun a => Fin.ext (by match a with | ⟨0, _⟩ => rfl | ⟨1, _⟩ => rfl | ⟨2, _⟩ => rfl)

theorem ridx0_at (b : Fin 2) (t : Fin 2048) (f : Fin 3072) (k : Fin 1024) :
    ridx_main_v0 (ix3 b t f) k = ix2 f k :=
  funext fun a => Fin.ext (by match a with | ⟨0, _⟩ => rfl | ⟨1, _⟩ => rfl)

theorem bias_idx_at (b : Fin 2) (t : Fin 2048) (f : Fin 3072) :
    idx_main_v1 (idx_main_v2 (ix3 b t f)) = ix1 f :=
  funext fun a => Fin.ext (by match a with | ⟨0, _⟩ => rfl)

/-- Entry (b, t, f) of the projection stage is the dense layer of the specification. -/
theorem v3_at (b : Fin 2) (t : Fin 2048) (f : Fin 3072) :
    val_main_v3 (F := Ideal) x0 x1 x2 (ix3 b t f) = Spec.linE x0 x1 x2 b t f := by
  rw [val_main_v3_apply, val_main_v0_apply, val_main_v2_apply, val_main_v1_apply, bias_idx_at]
  simp only [lidx0_at, ridx0_at, Ideal.addf_def]
  rfl

/-- Reshape to heads and swap the position and head axes: entry (b, h, t, c) is feature h·192 + c of position t. -/
theorem v5_idx_at (b : Fin 2) (h : Fin 16) (t : Fin 2048) (c : Fin 192) :
    idx_main_v4 (idx_main_v5 (ix4 b h t c)) = ix3 b t (⟨h.val * 192 + c.val, by omega⟩ : Fin 3072) :=
  funext fun a => Fin.ext (by
    have hb := b.isLt; have hh := h.isLt; have ht := t.isLt; have hc := c.isLt
    match a with
    | ⟨0, _⟩ => show (((b.val * 2048 + t.val) * 16 + h.val) * 192 + c.val) / 6291456 = b.val; omega
    | ⟨1, _⟩ => show (((b.val * 2048 + t.val) * 16 + h.val) * 192 + c.val) / 3072 % 2048 = t.val; omega
    | ⟨2, _⟩ => show (((b.val * 2048 + t.val) * 16 + h.val) * 192 + c.val) % 3072 = h.val * 192 + c.val; omega)

theorem v5_at (b : Fin 2) (h : Fin 16) (t : Fin 2048) (c : Fin 192) :
    val_main_v5 (F := Ideal) x0 x1 x2 (ix4 b h t c)
      = Spec.linE x0 x1 x2 b t (⟨h.val * 192 + c.val, by omega⟩ : Fin 3072) := by
  rw [val_main_v5_apply, val_main_v4_apply, v5_idx_at, v3_at]

theorem idx6_at (b : Fin 2) (h : Fin 16) (t : Fin 2048) (j : Fin 64) :
    idx_main_v6 (ix4 b h t j) = ix4 b h t (⟨j.val, by omega⟩ : Fin 192) :=
  funext fun a => Fin.ext (by match a with | ⟨0, _⟩ => rfl | ⟨1, _⟩ => rfl | ⟨2, _⟩ => rfl | ⟨3, _⟩ => rfl)
theorem idx7_at (b : Fin 2) (h : Fin 16) (t : Fin 2048) (j : Fin 64) :
    idx_main_v7 (ix4 b h t j) = ix4 b h t (⟨64 + j.val, by omega⟩ : Fin 192) :=
  funext fun a => Fin.ext (by match a with | ⟨0, _⟩ => rfl | ⟨1, _⟩ => rfl | ⟨2, _⟩ => rfl | ⟨3, _⟩ => rfl)
theorem idx8_at (b : Fin 2) (h : Fin 16) (t : Fin 2048) (j : Fin 64) :
    idx_main_v8 (ix4 b h t j) = ix4 b h t (⟨128 + j.val, by omega⟩ : Fin 192) :=
  funext fun a => Fin.ext (by match a with | ⟨0, _⟩ => rfl | ⟨1, _⟩ => rfl | ⟨2, _⟩ => rfl | ⟨3, _⟩ => rfl)

/-- The three slices are the query, key and value lanes of each head. -/
theorem v6_at (b : Fin 2) (h : Fin 16) (t : Fin 2048) (j : Fin 64) :
    val_main_v6 (F := Ideal) x0 x1 x2 (ix4 b h t j) = Spec.qkvE x0 x1 x2 0 b h t j := by
  rw [val_main_v6_apply, idx6_at, v5_at]
  unfold Spec.qkvE
  exact congrArg _ (Fin.ext (by show h.val * 192 + j.val = h.val * 192 + 0 * 64 + j.val; omega))
theorem v7_at (b : Fin 2) (h : Fin 16) (t : Fin 2048) (j : Fin 64) :
    val_main_v7 (F := Ideal) x0 x1 x2 (ix4 b h t j) = Spec.qkvE x0 x1 x2 1 b h t j := by
  rw [val_main_v7_apply, idx7_at, v5_at]
  unfold Spec.qkvE
  exact congrArg _ (Fin.ext (by show h.val * 192 + (64 + j.val) = h.val * 192 + 1 * 64 + j.val; omega))
theorem v8_at (b : Fin 2) (h : Fin 16) (t : Fin 2048) (j : Fin 64) :
    val_main_v8 (F := Ideal) x0 x1 x2 (ix4 b h t j) = Spec.qkvE x0 x1 x2 2 b h t j := by
  rw [val_main_v8_apply, idx8_at, v5_at]
  unfold Spec.qkvE
  exact congrArg _ (Fin.ext (by show h.val * 192 + (128 + j.val) = h.val * 192 + 2 * 64 + j.val; omega))
/-! ## Scores -/

theorem lidx9_at (b : Fin 2) (h : Fin 16) (t s : Fin 2048) (k : Fin 64) :
    lidx_main_v9 (ix4 b h t s) k = ix4 b h t k :=
  funext fun a => Fin.ext (by match a with | ⟨0, _⟩ => rfl | ⟨1, _⟩ => rfl | ⟨2, _⟩ => rfl | ⟨3, _⟩ => rfl)
theorem ridx9_at (b : Fin 2) (h : Fin 16) (t s : Fin 2048) (k : Fin 64) :
    ridx_main_v9 (ix4 b h t s) k = ix4 b h s k :=
  funext fun a => Fin.ext (by match a with | ⟨0, _⟩ => rfl | ⟨1, _⟩ => rfl | ⟨2, _⟩ => rfl | ⟨3, _⟩ => rfl)

/-- Entry (b, h, t, s) of the scaled product of queries and keys is the score of t against s. -/
theorem v11_at (b : Fin 2) (h : Fin 16) (t s : Fin 2048) :
    val_main_v11 (F := Ideal) x0 x1 x2 (ix4 b h t s) = Spec.scoreE x0 x1 x2 b h t s := by
  rw [val_main_v11_apply, val_main_v9_apply, val_main_v10_apply, val_main_cst_apply]
  simp only [lidx9_at, ridx9_at, v6_at, v7_at, Ideal.mulf_def, Ideal.ofBits_def]
  unfold Spec.scoreE Spec.scaleE
  rfl

end Cert.ReferenceIdeal.RefValue
end
-- ==== Proof.RefValueMask.lean ====
/-
  The reference's causal mask read at an index: the comparison "row + 0 ≥ column" of two 32-bit position counters
  below 2048 is the comparison of the numbers, so the mask bit at (t, s) is set exactly when t < s; and the float
  word the masked positions receive is -∞.
-/
import proofs.«175069_j80315888436070_2_alg».proof.Proof.Gen.ReferenceIdeal.Read

noncomputable section
open Idealize.ShloMosaic Idealize.ShloMosaic.TcCoe Idealize.ShloMosaic.ValueIdx Idealize.SL.Sem

namespace Cert.ReferenceIdeal.RefValue
open Cert.ReferenceIdeal Cert.ReferenceIdeal.Gen Cert.ReferenceIdeal.Read

/-! ## The causal mask -/

/-- A number below 2048 is its own signed reading as a 32-bit word. -/
theorem toInt_ofNat_small (n : Nat) (h : n < 2048) : (BitVec.ofNat 32 n).toInt = (n : Int) := by
  have e : (BitVec.ofNat 32 n).toNat = n := by rw [BitVec.toNat_ofNat]; exact Nat.mod_eq_of_lt (by omega)
  rw [BitVec.toInt_eq_toNat_of_lt (by rw [e]; omega), e]

/-- The signed comparison "row + 0 ≥ column" of two positions below 2048 is the comparison of the numbers. -/
theorem sge_bit (t s : Nat) (ht : t < 2048) (hs : s < 2048) :
    IntOp.cmpi .sge (IntOp.addi (BitVec.ofNat 32 t) 0#32) (BitVec.ofNat 32 s) = if t < s then 0#1 else 1#1 := by
  show BitVec.ofBool ((BitVec.ofNat 32 s).sle (BitVec.ofNat 32 t + 0#32)) = _
  rw [BitVec.add_zero, BitVec.sle_eq_decide, toInt_ofNat_small s hs, toInt_ofNat_small t ht]
  by_cases hts : t < s
  · rw [if_pos hts, decide_eq_false (by omega)]; rfl
  · rw [if_neg hts, decide_eq_true (by omega)]; rfl

/-- The mask is set at (t, s) exactly when s comes after t. -/
theorem mask_bit (t s : Fin 2048) :
    val_main_v13 (F := Ideal) (ix2 t s) = if t.val < s.val then 1#1 else 0#1 := by
  rw [val_main_v13_apply, val_main_call0_v4_apply, val_main_call0_v2_apply, val_main_call0_v0_apply,
    val_main_call0_v1_apply, val_main_call0_c_apply, val_main_call0_v3_apply, val_main_call0_v5_apply,
    val_main_call0_c_0_apply, val_main_v12_apply, val_main_c_apply]
  show Scalar.select (IntOp.cmpi .sge (IntOp.addi (BitVec.ofNat 32 t.val) 0#32) (BitVec.ofNat 32 s.val)) 0#1 1#1 = _
  rw [sge_bit t.val s.val t.isLt s.isLt]
  by_cases hts : t.val < s.val
  · rw [if_pos hts, if_pos hts, select_zero]
  · rw [if_neg hts, if_neg hts, select_one]

theorem neg_inf_word : Ideal.ofBits .f32 0xFF800000#32 = (⊥ : EReal) := by simp [Ideal.ofBits, Ideal.ieee]

theorem idx_call1_at (b : Fin 2) (h : Fin 16) (t s : Fin 2048) :
    idx_main_call1_v0 (ix4 b h t s) = ix2 t s :=
  funext fun a => Fin.ext (by match a with | ⟨0, _⟩ => rfl | ⟨1, _⟩ => rfl)

end Cert.ReferenceIdeal.RefValue
end
-- ==== Proof.RefValueSoftmax.lean ====
/-
  The reference's softmax read at an index: the masked score row (-∞ after position t), its maximum (the reduction
  with max from -∞ along the key axis is the fold of max over the row, and the reference takes max of -∞ and that),
  the exponentials of the row less its maximum, and each exponential over zero plus the row's sum.
-/
import proofs.«175069_j80315888436070_2_alg».proof.Proof.RefValueQkv
import proofs.«175069_j80315888436070_2_alg».proof.Proof.RefValueMask

noncomputable section
open Idealize.ShloMosaic Idealize.ShloMosaic.TcCoe Idealize.ShloMosaic.ValueIdx Idealize.SL.Sem

namespace Cert.ReferenceIdeal.RefValue
open Cert.ReferenceIdeal Cert.ReferenceIdeal.Gen Cert.ReferenceIdeal.Read

variable (x0 : (⟨S2x2048x1024, .f32⟩ : BufTy).Contents (Elt Ideal)) (x1 : (⟨S3072x1024, .f32⟩ : BufTy).Contents (Elt Ideal))
    (x2 : (⟨S3072, .f32⟩ : BufTy).Contents (Elt Ideal))

/-! ## The masked scores -/

/-- The masked scores: -∞ after position t, the score up to it. -/
theorem v14_at (b : Fin 2) (h : Fin 16) (t s : Fin 2048) :
    val_main_v14 (F := Ideal) x0 x1 x2 (ix4 b h t s)
      = Spec.maskedE (fun s' => Spec.scoreE x0 x1 x2 b h t s') t s := by
  rw [val_main_v14_apply, val_main_call1_v0_apply, idx_call1_at, mask_bit, val_main_call1_v1_apply,
    val_main_cst_0_apply, v11_at]
  unfold Spec.maskedE
  by_cases hts : t.val < s.val
  · rw [if_pos hts, if_pos hts, select_one]; exact neg_inf_word
  · rw [if_neg hts, if_neg hts, select_zero]

/-! ## The row maximum -/

/-- The masked score row of batch b, head h, position t. -/
abbrev zrow (b : Fin 2) (h : Fin 16) (t : Fin 2048) : Fin 2048 → EReal :=
  Spec.maskedE (fun s' => Spec.scoreE x0 x1 x2 b h t s') t

theorem reduces_d3 : S2x16x2048x2048.Reduces [3] S2x16x2048 := by decide

/-- Inserting coordinate k on the dropped last axis of (b, h, t) gives (b, h, t, k). -/
theorem lift_at (b : Fin 2) (h : Fin 16) (t : Fin 2048) (k : Fin 2048) :
    reduces_d3.lift (ix3 b h t) k = ix4 b h t k :=
  funext fun c => Fin.ext (by match c with | ⟨0, _⟩ => rfl | ⟨1, _⟩ => rfl | ⟨2, _⟩ => rfl | ⟨3, _⟩ => rfl)

/-- The maximum-reduction over the key axis, from -∞, is the fold of max over the masked row. -/
theorem v15_at (b : Fin 2) (h : Fin 16) (t : Fin 2048) :
    val_main_v15 (F := Ideal) x0 x1 x2 (ix3 b h t)
      = (Finset.univ : Finset (Fin 2048)).fold max ⊥ (zrow x0 x1 x2 b h t) := by
  unfold val_main_v15
  generalize hy : val_main_v14 (F := Ideal) x0 x1 x2 = y
  refine (Host.reduce_eq_fold_single (FloatOps.maximumf (F := Ideal) (φ := .f32)) y _
    reducesTo_S2x16x2048x2048_S2x16x2048_d3 reduces_d3 h_S_ (ix3 b h t)).trans ?_
  have hf : (fun k : Fin 2048 => y (reduces_d3.lift (ix3 b h t) k)) = zrow x0 x1 x2 b h t :=
    funext fun k => by rw [lift_at, ← hy, v14_at]
  show (Finset.univ : Finset (Fin 2048)).fold max (Ideal.ofBits .f32 0xFF800000#32)
      (fun k : Fin 2048 => y (reduces_d3.lift (ix3 b h t) k)) = _
  rw [hf, neg_inf_word]

theorem v17_at (b : Fin 2) (h : Fin 16) (t : Fin 2048) :
    val_main_v17 (F := Ideal) x0 x1 x2 (ix3 b h t) = Spec.rowMaxE (zrow x0 x1 x2 b h t) := by
  rw [val_main_v17_apply, val_main_v16_apply, val_main_cst_2_apply, v15_at, Ideal.maximumf_def, Ideal.ofBits_def,
    neg_inf_word]
  rfl

/-! ## The softmax weights -/

theorem idx19_at (b : Fin 2) (h : Fin 16) (t s : Fin 2048) :
    idx_main_v18 (idx_main_v19 (ix4 b h t s)) = ix3 b h t :=
  funext fun a => Fin.ext (by match a with | ⟨0, _⟩ => rfl | ⟨1, _⟩ => rfl | ⟨2, _⟩ => rfl)
theorem idx24_at (b : Fin 2) (h : Fin 16) (t s : Fin 2048) :
    idx_main_v23 (idx_main_v24 (ix4 b h t s)) = ix3 b h t :=
  funext fun a => Fin.ext (by match a with | ⟨0, _⟩ => rfl | ⟨1, _⟩ => rfl | ⟨2, _⟩ => rfl)
theorem idx22_at (b : Fin 2) (h : Fin 16) (t : Fin 2048) (k : Fin 2048) :
    idx_main_v22 (ix3 b h t) k = ix4 b h t k :=
  funext fun a => Fin.ext (by match a with | ⟨0, _⟩ => rfl | ⟨1, _⟩ => rfl | ⟨2, _⟩ => rfl | ⟨3, _⟩ => rfl)

/-- The exponential of a masked score less the row maximum. -/
theorem v21_at (b : Fin 2) (h : Fin 16) (t s : Fin 2048) :
    val_main_v21 (F := Ideal) x0 x1 x2 (ix4 b h t s)
      = Ideal.exp (zrow x0 x1 x2 b h t s - Spec.rowMaxE (zrow x0 x1 x2 b h t)) := by
  rw [val_main_v21_apply, val_main_v20_apply, val_main_v19_apply, val_main_v18_apply, idx19_at, v17_at, v14_at,
    Ideal.hostUnary_exp_def, Ideal.subf_def]

/-- A softmax weight: the exponential over zero plus the row's sum of exponentials. -/
theorem v25_at (b : Fin 2) (h : Fin 16) (t s : Fin 2048) :
    val_main_v25 (F := Ideal) x0 x1 x2 (ix4 b h t s)
      = Ideal.div (Ideal.exp (zrow x0 x1 x2 b h t s - Spec.rowMaxE (zrow x0 x1 x2 b h t)))
          (0 + ∑ s' : Fin 2048, Ideal.exp (zrow x0 x1 x2 b h t s' - Spec.rowMaxE (zrow x0 x1 x2 b h t))) := by
  rw [val_main_v25_apply, val_main_v24_apply, val_main_v23_apply, idx24_at, val_main_v22_apply,
    val_main_cst_3_apply, v21_at, Ideal.hostDivf_def, Ideal.ofBits_def, Ideal.ofBits_zero_f32]
  simp only [idx22_at, v21_at]

end Cert.ReferenceIdeal.RefValue
end
-- ==== Proof.RefValue.lean ====
/-
  The reference's result: the softmax weights against the value rows give the attention output of each head;
  swapping the axes back and merging head and lane puts head d / 64, lane d mod 64 at model coordinate d; the
  output projection of that, plus its bias, is the specification's value at (b, t, e).
-/
import proofs.«175069_j80315888436070_2_alg».proof.Proof.RefValueSoftmax

noncomputable section
open Idealize.ShloMosaic Idealize.ShloMosaic.TcCoe Idealize.ShloMosaic.ValueIdx Idealize.SL.Sem

namespace Cert.ReferenceIdeal.RefValue
open Cert.ReferenceIdeal Cert.ReferenceIdeal.Gen Cert.ReferenceIdeal.Read

variable (x0 : (⟨S2x2048x1024, .f32⟩ : BufTy).Contents (Elt Ideal)) (x1 : (⟨S3072x1024, .f32⟩ : BufTy).Contents (Elt Ideal))
    (x2 : (⟨S3072, .f32⟩ : BufTy).Contents (Elt Ideal))

/-! ## The weighted values, the heads side by side, the output projection -/

theorem lidx26_at (b : Fin 2) (h : Fin 16) (t : Fin 2048) (j : Fin 64) (k : Fin 2048) :
    lidx_main_v26 (ix4 b h t j) k = ix4 b h t k :=
  funext fun a => Fin.ext (by match a with | ⟨0, _⟩ => rfl | ⟨1, _⟩ => rfl | ⟨2, _⟩ => rfl | ⟨3, _⟩ => rfl)
theorem ridx26_at (b : Fin 2) (h : Fin 16) (t : Fin 2048) (j : Fin 64) (k : Fin 2048) :
    ridx_main_v26 (ix4 b h t j) k = ix4 b h k j :=
  funext fun a => Fin.ext (by match a with | ⟨0, _⟩ => rfl | ⟨1, _⟩ => rfl | ⟨2, _⟩ => rfl | ⟨3, _⟩ => rfl)

theorem v26_at (b : Fin 2) (h : Fin 16) (t : Fin 2048) (j : Fin 64) :
    val_main_v26 (F := Ideal) x0 x1 x2 (ix4 b h t j) = Spec.attnE x0 x1 x2 b h t j := by
  rw [val_main_v26_apply]
  simp only [lidx26_at, ridx26_at, v25_at, v8_at]
  unfold Spec.attnE Spec.attnRowE
  rfl

/-- Swapping the axes back and merging head and lane: model coordinate d is lane d mod 64 of head d / 64. -/
theorem idx28_at (b : Fin 2) (t : Fin 2048) (d : Fin 1024) :
    idx_main_v27 (idx_main_v28 (ix3 b t d)) = ix4 b (Spec.headOf d) t (Spec.laneOf d) :=
  funext fun a => Fin.ext (by
    have hb := b.isLt; have ht := t.isLt; have hd := d.isLt
    match a with
    | ⟨0, _⟩ => show ((b.val * 2048 + t.val) * 1024 + d.val) / 2097152 = b.val; omega
    | ⟨1, _⟩ => show ((b.val * 2048 + t.val) * 1024 + d.val) / 64 % 16 = d.val / 64; omega
    | ⟨2, _⟩ => show ((b.val * 2048 + t.val) * 1024 + d.val) / 1024 % 2048 = t.val; omega
    | ⟨3, _⟩ => show ((b.val * 2048 + t.val) * 1024 + d.val) % 64 = d.val % 64; omega)

theorem v28_at (b : Fin 2) (t : Fin 2048) (d : Fin 1024) :
    val_main_v28 (F := Ideal) x0 x1 x2 (ix3 b t d) = Spec.attnE x0 x1 x2 b (Spec.headOf d) t (Spec.laneOf d) := by
  rw [val_main_v28_apply, val_main_v27_apply, idx28_at, v26_at]

theorem lidx29_at (b : Fin 2) (t : Fin 2048) (e : Fin 1024) (k : Fin 1024) :
    lidx_main_v29 (ix3 b t e) k = ix3 b t k :=
  funext fun a => Fin.ext (by match a with | ⟨0, _⟩ => rfl | ⟨1, _⟩ => rfl | ⟨2, _⟩ => rfl)
theorem ridx29_at (b : Fin 2) (t : Fin 2048) (e : Fin 1024) (k : Fin 1024) :
    ridx_main_v29 (ix3 b t e) k = ix2 e k :=
  funext fun a => Fin.ext (by match a with | ⟨0, _⟩ => rfl | ⟨1, _⟩ => rfl)
theorem bias_out_idx_at (b : Fin 2) (t : Fin 2048) (e : Fin 1024) :
    idx_main_v30 (idx_main_v31 (ix3 b t e)) = ix1 e :=
  funext fun a => Fin.ext (by match a with | ⟨0, _⟩ => rfl)

/-- The reference's result at (b, t, e) is the specification's. -/
theorem ref_value (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) (b : Fin 2) (t : Fin 2048) (e : Fin 1024) :
    Cert.ReferenceIdeal.Read.val_main_v32 (F := Ideal) x0 x1 x2 x3 x4 (ix3 b t e) = Spec.outE x0 x1 x2 x3 x4 b t e := by
  rw [val_main_v32_apply, val_main_v29_apply, val_main_v31_apply, val_main_v30_apply, bias_out_idx_at]
  simp only [lidx29_at, ridx29_at, v28_at, Ideal.addf_def]
  unfold Spec.outE
  rfl

end Cert.ReferenceIdeal.RefValue
end
-- ==== Proof.lean ====
/-
  A causal multi-head attention layer in three tiled regions against the plain layer.

  The kernel program projects the activations to queries, keys and values in one region, runs attention per
  batch·head in a second — 256 query rows at a time over the key tiles at or before them, carrying a running maximum,
  a running sum of exponentials and running weighted sums, with a named -∞ as the start of the maximum and as the
  score of keys after the query — and projects the heads laid side by side in a third. The reference forms all the
  scores, puts -∞ after the query, takes a softmax and multiplies by the values. On the extended reals, under finite
  inputs, both results are, entry by entry, the projection of the exp-weighted means of the value rows over the key
  positions up to the query's. The frames are the generated ones; the idealization's ledger is sixteen occurrences of
  the one named constant.
-/
import proofs.«175069_j80315888436070_2_alg».proof.Defs
import proofs.«175069_j80315888436070_2_alg».proof.Proof.Gen.Kernel
import proofs.«175069_j80315888436070_2_alg».proof.Proof.Gen.Kernel.Frame
import proofs.«175069_j80315888436070_2_alg».proof.Proof.Gen.KernelIdeal
import proofs.«175069_j80315888436070_2_alg».proof.Proof.Gen.KernelIdeal.Frame
import proofs.«175069_j80315888436070_2_alg».proof.Proof.Gen.ReferenceIdeal
import proofs.«175069_j80315888436070_2_alg».proof.Proof.Gen.Pre_finite_inputs
import proofs.«175069_j80315888436070_2_alg».proof.Proof.Gen.ReferenceIdeal.Run
import proofs.«175069_j80315888436070_2_alg».proof.Proof.Gen.ReferenceIdeal.Read
import proofs.«175069_j80315888436070_2_alg».proof.Proof.RunV
import proofs.«175069_j80315888436070_2_alg».proof.Proof.Whole
import proofs.«175069_j80315888436070_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- One ledger entry: the table gives the named constant the value -∞. -/
theorem neg_big : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal :=
  ⟨neg_big, neg_big, neg_big, neg_big, neg_big, neg_big, neg_big, neg_big, neg_big, neg_big, neg_big, neg_big, neg_big, neg_big,
    neg_big, neg_big⟩

/-- Both programs end with the same result: the kernel program's result buffer, read entry by entry, is the layer's
    formula of the arguments, and so is the reference's. -/
theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v12),
    Cert.KernelIdeal.RunV.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1, (hagree c).2.2.2.2]
  funext i
  obtain ⟨b, t, e, rfl⟩ : ∃ (b : Fin 2) (t : Fin 2048) (e : Fin 1024), i = ix3 b t e := ⟨i 0, i 1, i 2, eq_ix3 i⟩
  rw [Cert.ReferenceIdeal.RefValue.ref_value]
  exact (Cert.KernelIdeal.Whole.result_eq m ρ c (hpre) b t e).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
